-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v100)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v100) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v145) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S50000x256 : Shape := ⟨2, ![50000, 256]⟩
abbrev S600000 : Shape := ⟨1, ![600000]⟩
abbrev S200000 : Shape := ⟨1, ![200000]⟩
abbrev S128x128 : Shape := ⟨2, ![128, 128]⟩
abbrev S128 : Shape := ⟨1, ![128]⟩
abbrev S128x256 : Shape := ⟨2, ![128, 256]⟩
abbrev S64x128 : Shape := ⟨2, ![64, 128]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S50000x256 : S_.BroadcastsInDim S50000x256 (![] : Fin 0 → Fin S50000x256.rank)
  reducesTo_S50000x256_S_d0_1 : S50000x256.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part5 {F : FTy → Type} [FloatOps F] (main_v83 : IVec S_ 1) (main_v84 : FVec F S64x128 .f32) (main_cst_32 : FVec F S_ .f32) : IVec S_ 1 :=
  let main_v85 : FVec F S64x128 .f32 := broadcastInDim S64x128 ![] bcast_S_S64x128 main_cst_32
  let main_v86 : IVec S64x128 1 := cmpf .olt main_v84 main_v85
  let main_c_33 : IVec S_ 1 := constantI S_ 1 1#1
  let main_v87 : IVec S_ 1 := (fun x v => Host.reduce IntOp.andi x v reducesTo_S64x128_S_d0_1 h_S_) main_v86 main_c_33
  let main_v88 : IVec S_ 1 := andi main_v83 main_v87
  main_v88

def fn_part4 {F : FTy → Type} [FloatOps F] (main_arg18 : FVec F S64x128 .f32) (main_arg19 : FVec F S64x128 .f32) (main_arg20 : FVec F S64 .f32) (main_arg21 : FVec F S64x128 .f32) (main_v63 : IVec S_ 1) (main_v67 : IVec S_ 1) : IVec S_ 1 :=
  let main_v68 : IVec S_ 1 := andi main_v63 main_v67
  let main_v69 : FVec F S64x128 .f32 := Host.absf main_arg18
  let main_cst_26 : FVec F S_ .f32 := constant S_ .f32 0x7F800000#32
  let main_v70 : FVec F S64x128 .f32 := broadcastInDim S64x128 ![] bcast_S_S64x128 main_cst_26
  let main_v71 : IVec S64x128 1 := cmpf .olt main_v69 main_v70
  let main_c_27 : IVec S_ 1 := constantI S_ 1 1#1
  let main_v72 : IVec S_ 1 := (fun x v => Host.reduce IntOp.andi x v reducesTo_S64x128_S_d0_1 h_S_) main_v71 main_c_27
  let main_v73 : IVec S_ 1 := andi main_v68 main_v72
  let main_v74 : FVec F S64x128 .f32 := Host.absf main_arg19
  let main_cst_28 : FVec F S_ .f32 := constant S_ .f32 0x7F800000#32
  let main_v75 : FVec F S64x128 .f32 := broadcastInDim S64x128 ![] bcast_S_S64x128 main_cst_28
  let main_v76 : IVec S64x128 1 := cmpf .olt main_v74 main_v75
  let main_c_29 : IVec S_ 1 := constantI S_ 1 1#1
  let main_v77 : IVec S_ 1 := (fun x v => Host.reduce IntOp.andi x v reducesTo_S64x128_S_d0_1 h_S_) main_v76 main_c_29
  let main_v78 : IVec S_ 1 := andi main_v73 main_v77
  let main_v79 : FVec F S64 .f32 := Host.absf main_arg20
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S64x128 .f32 := Host.absf main_arg21
  let main_cst_32 : FVec F S_ .f32 := constant S_ .f32 0x7F800000#32
  fn_part5 (F := F) main_v83 main_v84 main_cst_32

def fn_part3 {F : FTy → Type} [FloatOps F] (main_arg15 : FVec F S128x128 .f32) (main_arg16 : FVec F S64x128 .f32) (main_arg17 : FVec F S64 .f32) (main_arg18 : FVec F S64x128 .f32) (main_arg19 : FVec F S64x128 .f32) (main_arg20 : FVec F S64 .f32) (main_arg21 : FVec F S64x128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg15
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S64x128 .f32 := Host.absf main_arg16
  let main_cst_22 : FVec F S_ .f32 := constant S_ .f32 0x7F800000#32
  let main_v60 : FVec F S64x128 .f32 := broadcastInDim S64x128 ![] bcast_S_S64x128 main_cst_22
  let main_v61 : IVec S64x128 1 := cmpf .olt main_v59 main_v60
  let main_c_23 : IVec S_ 1 := constantI S_ 1 1#1
  let main_v62 : IVec S_ 1 := (fun x v => Host.reduce IntOp.andi x v reducesTo_S64x128_S_d0_1 h_S_) main_v61 main_c_23
  let main_v63 : IVec S_ 1 := andi main_v58 main_v62
  let main_v64 : FVec F S64 .f32 := Host.absf main_arg17
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg18 main_arg19 main_arg20 main_arg21 main_v63 main_v67

def fn_part2 {F : FTy → Type} [FloatOps F] (main_arg11 : FVec F S128 .f32) (main_arg12 : FVec F S128x128 .f32) (main_arg13 : FVec F S128x128 .f32) (main_arg14 : FVec F S128 .f32) (main_arg15 : FVec F S128x128 .f32) (main_arg16 : FVec F S64x128 .f32) (main_arg17 : FVec F S64 .f32) (main_arg18 : FVec F S64x128 .f32) (main_arg19 : FVec F S64x128 .f32) (main_arg20 : FVec F S64 .f32) (main_arg21 : FVec F S64x128 .f32) (main_v33 : IVec S_ 1) : IVec S_ 1 :=
  let main_v34 : FVec F S128 .f32 := Host.absf main_arg11
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg12
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128x128 .f32 := Host.absf main_arg13
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg14
  let main_cst_18 : FVec F S_ .f32 := constant S_ .f32 0x7F800000#32
  let main_v50 : FVec F S128 .f32 := broadcastInDim S128 ![] bcast_S_S128 main_cst_18
  fn_part3 (F := F) main_arg15 main_arg16 main_arg17 main_arg18 main_arg19 main_arg20 main_arg21 main_v48 main_v49 main_v50

def fn_part1 {F : FTy → Type} [FloatOps F] (main_arg8 : FVec F S128x256 .f32) (main_arg9 : FVec F S128 .f32) (main_arg10 : FVec F S128x128 .f32) (main_arg11 : FVec F S128 .f32) (main_arg12 : FVec F S128x128 .f32) (main_arg13 : FVec F S128x128 .f32) (main_arg14 : FVec F S128 .f32) (main_arg15 : FVec F S128x128 .f32) (main_arg16 : FVec F S64x128 .f32) (main_arg17 : FVec F S64 .f32) (main_arg18 : FVec F S64x128 .f32) (main_arg19 : FVec F S64x128 .f32) (main_arg20 : FVec F S64 .f32) (main_arg21 : FVec F S64x128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x256 .f32 := Host.absf main_arg8
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S128 .f32 := Host.absf main_arg9
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg10
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg11 main_arg12 main_arg13 main_arg14 main_arg15 main_arg16 main_arg17 main_arg18 main_arg19 main_arg20 main_arg21 main_v33

def fn {F : FTy → Type} [FloatOps F] (main_arg0 : FVec F S100000x128 .f32) (main_arg1 : FVec F S50000x256 .f32) (main_arg2 : IVec S600000 32) (main_arg3 : IVec S600000 32) (main_arg4 : IVec S200000 32) (main_arg5 : IVec S200000 32) (main_arg6 : FVec F S128x128 .f32) (main_arg7 : FVec F S128 .f32) (main_arg8 : FVec F S128x256 .f32) (main_arg9 : FVec F S128 .f32) (main_arg10 : FVec F S128x128 .f32) (main_arg11 : FVec F S128 .f32) (main_arg12 : FVec F S128x128 .f32) (main_arg13 : FVec F S128x128 .f32) (main_arg14 : FVec F S128 .f32) (main_arg15 : FVec F S128x128 .f32) (main_arg16 : FVec F S64x128 .f32) (main_arg17 : FVec F S64 .f32) (main_arg18 : FVec F S64x128 .f32) (main_arg19 : FVec F S64x128 .f32) (main_arg20 : FVec F S64 .f32) (main_arg21 : FVec F S64x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S50000x256 .f32 := Host.absf main_arg1
  let main_cst_0 : FVec F S_ .f32 := constant S_ .f32 0x7F800000#32
  let main_v5 : FVec F S50000x256 .f32 := broadcastInDim S50000x256 ![] bcast_S_S50000x256 main_cst_0
  let main_v6 : IVec S50000x256 1 := cmpf .olt main_v4 main_v5
  let main_c_1 : IVec S_ 1 := constantI S_ 1 1#1
  let main_v7 : IVec S_ 1 := (fun x v => Host.reduce IntOp.andi x v reducesTo_S50000x256_S_d0_1 h_S_) main_v6 main_c_1
  let main_v8 : IVec S_ 1 := andi main_v3 main_v7
  let main_v9 : FVec F S128x128 .f32 := Host.absf main_arg6
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg7
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg8 main_arg9 main_arg10 main_arg11 main_arg12 main_arg13 main_arg14 main_arg15 main_arg16 main_arg17 main_arg18 main_arg19 main_arg20 main_arg21 main_v13 main_v16
-- ==== Kernel.lean ====
abbrev S100000x128 : Shape := ⟨2, ![100000, 128]⟩
abbrev S50000x256 : Shape := ⟨2, ![50000, 256]⟩
abbrev S600000 : Shape := ⟨1, ![600000]⟩
abbrev S200000 : Shape := ⟨1, ![200000]⟩
abbrev S128x128 : Shape := ⟨2, ![128, 128]⟩
abbrev S128 : Shape := ⟨1, ![128]⟩
abbrev S128x256 : Shape := ⟨2, ![128, 256]⟩
abbrev S64x128 : Shape := ⟨2, ![64, 128]⟩
abbrev S64 : Shape := ⟨1, ![64]⟩
abbrev S1x128 : Shape := ⟨2, ![1, 128]⟩
abbrev S5000x128 : Shape := ⟨2, ![5000, 128]⟩
abbrev S256x128 : Shape := ⟨2, ![256, 128]⟩
abbrev S50000x128 : Shape := ⟨2, ![50000, 128]⟩
abbrev S5000x256 : Shape := ⟨2, ![5000, 256]⟩
abbrev S_ : Shape := ⟨0, ![]⟩
abbrev S50000 : Shape := ⟨1, ![50000]⟩
abbrev S600000x1 : Shape := ⟨2, ![600000, 1]⟩
abbrev S100000 : Shape := ⟨1, ![100000]⟩
abbrev S50000x1 : Shape := ⟨2, ![50000, 1]⟩
abbrev S100000x1 : Shape := ⟨2, ![100000, 1]⟩
abbrev S600000x128 : Shape := ⟨2, ![600000, 128]⟩
abbrev S5000x1 : Shape := ⟨2, ![5000, 1]⟩
abbrev S128x64 : Shape := ⟨2, ![128, 64]⟩
abbrev S1x64 : Shape := ⟨2, ![1, 64]⟩
abbrev S50000x64 : Shape := ⟨2, ![50000, 64]⟩
abbrev S5000x64 : Shape := ⟨2, ![5000, 64]⟩
abbrev S100000x64 : Shape := ⟨2, ![100000, 64]⟩
abbrev S200000x1 : Shape := ⟨2, ![200000, 1]⟩
abbrev S200000x64 : Shape := ⟨2, ![200000, 64]⟩
abbrev S200704x64 : Shape := ⟨2, ![200704, 64]⟩
abbrev S200704 : Shape := ⟨1, ![200704]⟩
abbrev S4096x64 : Shape := ⟨2, ![4096, 64]⟩
abbrev S4096 : Shape := ⟨1, ![4096]⟩
abbrev S4096x1 : Shape := ⟨2, ![4096, 1]⟩

abbrev nBuf : Space → Nat
  | .hbm => 150
  | .vmem => 62
  | .smem => 0
  | _ => 0

abbrev hbmTy0_0 (i : Nat) : BufTy := match i % 128 with
  | 0 => ⟨S100000x128, .f32⟩
  | 1 => ⟨S50000x256, .f32⟩
  | 2 => ⟨S600000, .i32⟩
  | 3 => ⟨S600000, .i32⟩
  | 4 => ⟨S200000, .i32⟩
  | 5 => ⟨S200000, .i32⟩
  | 6 => ⟨S128x128, .f32⟩
  | 7 => ⟨S128, .f32⟩
  | 8 => ⟨S128x256, .f32⟩
  | 9 => ⟨S128, .f32⟩
  | 10 => ⟨S128x128, .f32⟩
  | 11 => ⟨S128, .f32⟩
  | 12 => ⟨S128x128, .f32⟩
  | 13 => ⟨S128x128, .f32⟩
  | 14 => ⟨S128, .f32⟩
  | 15 => ⟨S128x128, .f32⟩
  | 16 => ⟨S64x128, .f32⟩
  | 17 => ⟨S64, .f32⟩
  | 18 => ⟨S64x128, .f32⟩
  | 19 => ⟨S64x128, .f32⟩
  | 20 => ⟨S64, .f32⟩
  | 21 => ⟨S64x128, .f32⟩
  | 22 => ⟨S128x128, .f32⟩
  | 23 => ⟨S1x128, .f32⟩
  | 24 => ⟨S100000x128, .bf16⟩
  | 25 => ⟨S256x128, .f32⟩
  | 26 => ⟨S1x128, .f32⟩
  | 27 => ⟨S50000x128, .bf16⟩
  | 28 => ⟨S_, .f32⟩
  | 29 => ⟨S600000, .f32⟩
  | 30 => ⟨S_, .f32⟩
  | 31 => ⟨S50000, .f32⟩
  | 32 => ⟨S600000x1, .i32⟩
  | 33 => ⟨S50000, .f32⟩
  | 34 => ⟨S_, .f32⟩
  | 35 => ⟨S100000, .f32⟩
  | 36 => ⟨S600000x1, .i32⟩
  | 37 => ⟨S100000, .f32⟩
  | 38 => ⟨S_, .f32⟩
  | 39 => ⟨S50000, .f32⟩
  | 40 => ⟨S50000, .f32⟩
  | 41 => ⟨S_, .f32⟩
  | 42 => ⟨S50000, .f32⟩
  | 43 => ⟨S50000, .f32⟩
  | 44 => ⟨S50000x1, .f32⟩
  | 45 => ⟨S_, .f32⟩
  | 46 => ⟨S100000, .f32⟩
  | 47 => ⟨S100000, .f32⟩
  | 48 => ⟨S_, .f32⟩
  | 49 => ⟨S100000, .f32⟩
  | 50 => ⟨S100000, .f32⟩
  | 51 => ⟨S100000x1, .f32⟩
  | 52 => ⟨S_, .i32⟩
  | 53 => ⟨S600000, .i32⟩
  | 54 => ⟨S600000, .i1⟩
  | 55 => ⟨S_, .i32⟩
  | 56 => ⟨S600000, .i32⟩
  | 57 => ⟨S600000, .i32⟩
  | 58 => ⟨S600000, .i32⟩
  | 59 => ⟨S600000x1, .i32⟩
  | 60 => ⟨S600000x128, .bf16⟩
  | 61 => ⟨S600000x128, .f32⟩
  | 62 => ⟨S_, .f32⟩
  | 63 => ⟨S50000x128, .f32⟩
  | 64 => ⟨S600000x1, .i32⟩
  | 65 => ⟨S50000x128, .f32⟩
  | 66 => ⟨S128x128, .f32⟩
  | 67 => ⟨S128x128, .f32⟩
  | 68 => ⟨S1x128, .f32⟩
  | 69 => ⟨S50000x128, .bf16⟩
  | 70 => ⟨S_, .i32⟩
  | 71 => ⟨S600000, .i32⟩
  | 72 => ⟨S600000, .i1⟩
  | 73 => ⟨S_, .i32⟩
  | 74 => ⟨S600000, .i32⟩
  | 75 => ⟨S600000, .i32⟩
  | 76 => ⟨S600000, .i32⟩
  | 77 => ⟨S600000x1, .i32⟩
  | 78 => ⟨S600000x128, .bf16⟩
  | 79 => ⟨S600000x128, .f32⟩
  | 80 => ⟨S_, .f32⟩
  | 81 => ⟨S100000x128, .f32⟩
  | 82 => ⟨S600000x1, .i32⟩
  | 83 => ⟨S100000x128, .f32⟩
  | 84 => ⟨S128x128, .f32⟩
  | 85 => ⟨S128x128, .f32⟩
  | 86 => ⟨S1x128, .f32⟩
  | 87 => ⟨S100000x128, .bf16⟩
  | 88 => ⟨S_, .i32⟩
  | 89 => ⟨S600000, .i32⟩
  | 90 => ⟨S600000, .i1⟩
  | 91 => ⟨S_, .i32⟩
  | 92 => ⟨S600000, .i32⟩
  | 93 => ⟨S600000, .i32⟩
  | 94 => ⟨S600000, .i32⟩
  | 95 => ⟨S600000x1, .i32⟩
  | 96 => ⟨S600000x128, .bf16⟩
  | 97 => ⟨S600000x128, .f32⟩
  | 98 => ⟨S_, .f32⟩
  | 99 => ⟨S50000x128, .f32⟩
  | 100 => ⟨S600000x1, .i32⟩
  | 101 => ⟨S50000x128, .f32⟩
  | 102 => ⟨S128x64, .f32⟩
  | 103 => ⟨S128x64, .f32⟩
  | 104 => ⟨S1x64, .f32⟩
  | 105 => ⟨S50000x64, .f32⟩
  | 106 => ⟨S_, .i32⟩
  | 107 => ⟨S600000, .i32⟩
  | 108 => ⟨S600000, .i1⟩
  | 109 => ⟨S_, .i32⟩
  | 110 => ⟨S600000, .i32⟩
  | 111 => ⟨S600000, .i32⟩
  | 112 => ⟨S600000, .i32⟩
  | 113 => ⟨S600000x1, .i32⟩
  | 114 => ⟨S600000x128, .bf16⟩
  | 115 => ⟨S600000x128, .f32⟩
  | 116 => ⟨S_, .f32⟩
  | 117 => ⟨S100000x128, .f32⟩
  | 118 => ⟨S600000x1, .i32⟩
  | 119 => ⟨S100000x128, .f32⟩
  | 120 => ⟨S128x64, .f32⟩
  | 121 => ⟨S128x64, .f32⟩
  | 122 => ⟨S1x64, .f32⟩
  | 123 => ⟨S100000x64, .f32⟩
  | 124 => ⟨S_, .i32⟩
  | 125 => ⟨S200000, .i32⟩
  | 126 => ⟨S200000, .i1⟩
  | 127 => ⟨S_, .i32⟩
  | _ => ⟨S100000x128, .f32⟩

abbrev hbmTy0_1 (i : Nat) : BufTy := match i % 128 with
  | 0 => ⟨S200000, .i32⟩
  | 1 => ⟨S200000, .i32⟩
  | 2 => ⟨S200000, .i32⟩
  | 3 => ⟨S200000x1, .i32⟩
  | 4 => ⟨S200000x64, .f32⟩
  | 5 => ⟨S_, .i32⟩
  | 6 => ⟨S200000, .i32⟩
  | 7 => ⟨S200000, .i1⟩
  | 8 => ⟨S_, .i32⟩
  | 9 => ⟨S200000, .i32⟩
  | 10 => ⟨S200000, .i32⟩
  | 11 => ⟨S200000, .i32⟩
  | 12 => ⟨S200000x1, .i32⟩
  | 13 => ⟨S200000x64, .f32⟩
  | 14 => ⟨S_, .i32⟩
  | 15 => ⟨S_, .f32⟩
  | 16 => ⟨S200704x64, .f32⟩
  | 17 => ⟨S_, .i32⟩
  | 18 => ⟨S_, .f32⟩
  | 19 => ⟨S200704x64, .f32⟩
  | 20 => ⟨S200704, .f32⟩
  | 21 => ⟨S200000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .bf16⟩
  | .local _ .vmem, ⟨5, _⟩ => ⟨S5000x128, .bf16⟩
  | .local _ .vmem, ⟨6, _⟩ => ⟨S5000x256, .f32⟩
  | .local _ .vmem, ⟨7, _⟩ => ⟨S5000x256, .f32⟩
  | .local _ .vmem, ⟨8, _⟩ => ⟨S256x128, .f32⟩
  | .local _ .vmem, ⟨9, _⟩ => ⟨S1x128, .f32⟩
  | .local _ .vmem, ⟨10, _⟩ => ⟨S5000x128, .bf16⟩
  | .local _ .vmem, ⟨11, _⟩ => ⟨S5000x128, .bf16⟩
  | .local _ .vmem, ⟨12, _⟩ => ⟨S5000x128, .f32⟩
  | .local _ .vmem, ⟨13, _⟩ => ⟨S5000x128, .f32⟩
  | .local _ .vmem, ⟨14, _⟩ => ⟨S5000x1, .f32⟩
  | .local _ .vmem, ⟨15, _⟩ => ⟨S5000x1, .f32⟩
  | .local _ .vmem, ⟨16, _⟩ => ⟨S5000x128, .bf16⟩
  | .local _ .vmem, ⟨17, _⟩ => ⟨S5000x128, .bf16⟩
  | .local _ .vmem, ⟨18, _⟩ => ⟨S128x128, .f32⟩
  | .local _ .vmem, ⟨19, _⟩ => ⟨S1x128, .f32⟩
  | .local _ .vmem, ⟨20, _⟩ => ⟨S128x128, .f32⟩
  | .local _ .vmem, ⟨21, _⟩ => ⟨S5000x128, .bf16⟩
  | .local _ .vmem, ⟨22, _⟩ => ⟨S5000x128, .bf16⟩
  | .local _ .vmem, ⟨23, _⟩ => ⟨S5000x128, .f32⟩
  | .local _ .vmem, ⟨24, _⟩ => ⟨S5000x128, .f32⟩
  | .local _ .vmem, ⟨25, _⟩ => ⟨S5000x1, .f32⟩
  | .local _ .vmem, ⟨26, _⟩ => ⟨S5000x1, .f32⟩
  | .local _ .vmem, ⟨27, _⟩ => ⟨S5000x128, .bf16⟩
  | .local _ .vmem, ⟨28, _⟩ => ⟨S5000x128, .bf16⟩
  | .local _ .vmem, ⟨29, _⟩ => ⟨S128x128, .f32⟩
  | .local _ .vmem, ⟨30, _⟩ => ⟨S1x128, .f32⟩
  | .local _ .vmem, ⟨31, _⟩ => ⟨S128x128, .f32⟩
  | .local _ .vmem, ⟨32, _⟩ => ⟨S5000x128, .bf16⟩
  | .local _ .vmem, ⟨33, _⟩ => ⟨S5000x128, .bf16⟩
  | .local _ .vmem, ⟨34, _⟩ => ⟨S5000x128, .f32⟩
  | .local _ .vmem, ⟨35, _⟩ => ⟨S5000x128, .f32⟩
  | .local _ .vmem, ⟨36, _⟩ => ⟨S5000x1, .f32⟩
  | .local _ .vmem, ⟨37, _⟩ => ⟨S5000x1, .f32⟩
  | .local _ .vmem, ⟨38, _⟩ => ⟨S5000x128, .bf16⟩
  | .local _ .vmem, ⟨39, _⟩ => ⟨S5000x128, .bf16⟩
  | .local _ .vmem, ⟨40, _⟩ => ⟨S128x64, .f32⟩
  | .local _ .vmem, ⟨41, _⟩ => ⟨S1x64, .f32⟩
  | .local _ .vmem, ⟨42, _⟩ => ⟨S128x64, .f32⟩
  | .local _ .vmem, ⟨43, _⟩ => ⟨S5000x64, .f32⟩
  | .local _ .vmem, ⟨44, _⟩ => ⟨S5000x64, .f32⟩
  | .local _ .vmem, ⟨45, _⟩ => ⟨S5000x128, .f32⟩
  | .local _ .vmem, ⟨46, _⟩ => ⟨S5000x128, .f32⟩
  | .local _ .vmem, ⟨47, _⟩ => ⟨S5000x1, .f32⟩
  | .local _ .vmem, ⟨48, _⟩ => ⟨S5000x1, .f32⟩
  | .local _ .vmem, ⟨49, _⟩ => ⟨S5000x128, .bf16⟩
  | .local _ .vmem, ⟨50, _⟩ => ⟨S5000x128, .bf16⟩
  | .local _ .vmem, ⟨51, _⟩ => ⟨S128x64, .f32⟩
  | .local _ .vmem, ⟨52, _⟩ => ⟨S1x64, .f32⟩
  | .local _ .vmem, ⟨53, _⟩ => ⟨S128x64, .f32⟩
  | .local _ .vmem, ⟨54, _⟩ => ⟨S5000x64, .f32⟩
  | .local _ .vmem, ⟨55, _⟩ => ⟨S5000x64, .f32⟩
  | .local _ .vmem, ⟨56, _⟩ => ⟨S4096x64, .f32⟩
  | .local _ .vmem, ⟨57, _⟩ => ⟨S4096x64, .f32⟩
  | .local _ .vmem, ⟨58, _⟩ => ⟨S4096x64, .f32⟩
  | .local _ .vmem, ⟨59, _⟩ => ⟨S4096x64, .f32⟩
  | .local _ .vmem, ⟨60, _⟩ => ⟨S4096, .f32⟩
  | .local _ .vmem, ⟨61, _⟩ => ⟨S4096, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | _, _ => false

abbrev semScoped : Fin 0 → Bool
  | ⟨_, h⟩ => absurd h (Nat.not_lt_zero _)

abbrev dmaSemScoped : Fin 62 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | _ => false

abbrev sig : RefSig :=
  ofTc nBuf bufTy 0 62 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_cst : Ref sig .tc := ⟨.hbm, 28, rfl⟩
abbrev main_v6 : Ref sig .tc := ⟨.hbm, 29, rfl⟩
abbrev main_cst_0 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_cst_1 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_cst_2 : Ref sig .tc := ⟨.hbm, 38, rfl⟩
abbrev main_v13 : Ref sig .tc := ⟨.hbm, 39, rfl⟩
abbrev main_v14 : Ref sig .tc := ⟨.hbm, 40, rfl⟩
abbrev main_cst_3 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_cst_4 : Ref sig .tc := ⟨.hbm, 45, rfl⟩
abbrev main_v18 : Ref sig .tc := ⟨.hbm, 46, rfl⟩
abbrev main_v19 : Ref sig .tc := ⟨.hbm, 47, rfl⟩
abbrev main_cst_5 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_c : Ref sig .tc := ⟨.hbm, 52, rfl⟩
abbrev main_v23 : Ref sig .tc := ⟨.hbm, 53, rfl⟩
abbrev main_v24 : Ref sig .tc := ⟨.hbm, 54, rfl⟩
abbrev main_c_6 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_cst_7 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_c_8 : Ref sig .tc := ⟨.hbm, 70, rfl⟩
abbrev main_v38 : Ref sig .tc := ⟨.hbm, 71, rfl⟩
abbrev main_v39 : Ref sig .tc := ⟨.hbm, 72, rfl⟩
abbrev main_c_9 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_cst_10 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_c_11 : Ref sig .tc := ⟨.hbm, 88, rfl⟩
abbrev main_v53 : Ref sig .tc := ⟨.hbm, 89, rfl⟩
abbrev main_v54 : Ref sig .tc := ⟨.hbm, 90, rfl⟩
abbrev main_c_12 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_cst_13 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_c_14 : Ref sig .tc := ⟨.hbm, 106, rfl⟩
abbrev main_v68 : Ref sig .tc := ⟨.hbm, 107, rfl⟩
abbrev main_v69 : Ref sig .tc := ⟨.hbm, 108, rfl⟩
abbrev main_c_15 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_cst_16 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_c_17 : Ref sig .tc := ⟨.hbm, 124, rfl⟩
abbrev main_v83 : Ref sig .tc := ⟨.hbm, 125, rfl⟩
abbrev main_v84 : Ref sig .tc := ⟨.hbm, 126, rfl⟩
abbrev main_c_18 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_c_19 : Ref sig .tc := ⟨.hbm, 133, rfl⟩
abbrev main_v90 : Ref sig .tc := ⟨.hbm, 134, rfl⟩
abbrev main_v91 : Ref sig .tc := ⟨.hbm, 135, rfl⟩
abbrev main_c_20 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_c_21 : Ref sig .tc := ⟨.hbm, 142, rfl⟩
abbrev main_call0_v0 : Ref sig .tc := ⟨.hbm, 143, rfl⟩
abbrev main_v97 : Ref sig .tc := ⟨.hbm, 144, rfl⟩
abbrev main_c_22 : Ref sig .tc := ⟨.hbm, 145, rfl⟩
abbrev main_call1_v0 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg6_0 : Ref sig .tc := ⟨.vmem, 21, rfl⟩
abbrev cc2_stg6_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg2_1 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg6_0 : Ref sig .tc := ⟨.vmem, 32, rfl⟩
abbrev cc3_stg6_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg1_1 : Ref sig .tc := ⟨.vmem, 37, rfl⟩
abbrev cc4_stg2_0 : Ref sig .tc := ⟨.vmem, 38, rfl⟩
abbrev cc4_stg2_1 : Ref sig .tc := ⟨.vmem, 39, rfl⟩
abbrev cc4_stg3_0 : Ref sig .tc := ⟨.vmem, 40, rfl⟩
abbrev cc4_stg4_0 : Ref sig .tc := ⟨.vmem, 41, rfl⟩
abbrev cc4_stg5_0 : Ref sig .tc := ⟨.vmem, 42, rfl⟩
abbrev cc4_stg6_0 : Ref sig .tc := ⟨.vmem, 43, rfl⟩
abbrev cc4_stg6_1 : Ref sig .tc := ⟨.vmem, 44, rfl⟩
abbrev cc5_stg0_0 : Ref sig .tc := ⟨.vmem, 45, rfl⟩
abbrev cc5_stg0_1 : Ref sig .tc := ⟨.vmem, 46, rfl⟩
abbrev cc5_stg1_0 : Ref sig .tc := ⟨.vmem, 47, rfl⟩
abbrev cc5_stg1_1 : Ref sig .tc := ⟨.vmem, 48, rfl⟩
abbrev cc5_stg2_0 : Ref sig .tc := ⟨.vmem, 49, rfl⟩
abbrev cc5_stg2_1 : Ref sig .tc := ⟨.vmem, 50, rfl⟩
abbrev cc5_stg3_0 : Ref sig .tc := ⟨.vmem, 51, rfl⟩
abbrev cc5_stg4_0 : Ref sig .tc := ⟨.vmem, 52, rfl⟩
abbrev cc5_stg5_0 : Ref sig .tc := ⟨.vmem, 53, rfl⟩
abbrev cc5_stg6_0 : Ref sig .tc := ⟨.vmem, 54, rfl⟩
abbrev cc5_stg6_1 : Ref sig .tc := ⟨.vmem, 55, rfl⟩
abbrev cc6_stg0_0 : Ref sig .tc := ⟨.vmem, 56, rfl⟩
abbrev cc6_stg0_1 : Ref sig .tc := ⟨.vmem, 57, rfl⟩
abbrev cc6_stg1_0 : Ref sig .tc := ⟨.vmem, 58, rfl⟩
abbrev cc6_stg1_1 : Ref sig .tc := ⟨.vmem, 59, rfl⟩
abbrev cc6_stg2_0 : Ref sig .tc := ⟨.vmem, 60, rfl⟩
abbrev cc6_stg2_1 : Ref sig .tc := ⟨.vmem, 61, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem4_0 : DmaSem sig := 19
abbrev cc2_sem5_0 : DmaSem sig := 20
abbrev cc2_sem6_0 : DmaSem sig := 21
abbrev cc2_sem6_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem2_1 : DmaSem sig := 28
abbrev cc3_sem3_0 : DmaSem sig := 29
abbrev cc3_sem4_0 : DmaSem sig := 30
abbrev cc3_sem5_0 : DmaSem sig := 31
abbrev cc3_sem6_0 : DmaSem sig := 32
abbrev cc3_sem6_1 : DmaSem sig := 33
abbrev cc4_sem0_0 : DmaSem sig := 34
abbrev cc4_sem0_1 : DmaSem sig := 35
abbrev cc4_sem1_0 : DmaSem sig := 36
abbrev cc4_sem1_1 : DmaSem sig := 37
abbrev cc4_sem2_0 : DmaSem sig := 38
abbrev cc4_sem2_1 : DmaSem sig := 39
abbrev cc4_sem3_0 : DmaSem sig := 40
abbrev cc4_sem4_0 : DmaSem sig := 41
abbrev cc4_sem5_0 : DmaSem sig := 42
abbrev cc4_sem6_0 : DmaSem sig := 43
abbrev cc4_sem6_1 : DmaSem sig := 44
abbrev cc5_sem0_0 : DmaSem sig := 45
abbrev cc5_sem0_1 : DmaSem sig := 46
abbrev cc5_sem1_0 : DmaSem sig := 47
abbrev cc5_sem1_1 : DmaSem sig := 48
abbrev cc5_sem2_0 : DmaSem sig := 49
abbrev cc5_sem2_1 : DmaSem sig := 50
abbrev cc5_sem3_0 : DmaSem sig := 51
abbrev cc5_sem4_0 : DmaSem sig := 52
abbrev cc5_sem5_0 : DmaSem sig := 53
abbrev cc5_sem6_0 : DmaSem sig := 54
abbrev cc5_sem6_1 : DmaSem sig := 55
abbrev cc6_sem0_0 : DmaSem sig := 56
abbrev cc6_sem0_1 : DmaSem sig := 57
abbrev cc6_sem1_0 : DmaSem sig := 58
abbrev cc6_sem1_1 : DmaSem sig := 59
abbrev cc6_sem2_0 : DmaSem sig := 60
abbrev cc6_sem2_1 : DmaSem sig := 61

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x128 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x128 .bf16 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x128 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S128x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S5000x64 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x128 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S128x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S128x64 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S5000x64 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![49], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 1 → Nat :=
  let arg0 : BitVec 32 := BitVec.ofNat 32 (i 0).val
  let c0_i32 : BitVec 32 := 0#32
  ![arg0.toNat]

abbrev stage6_0 : Fin 2 → Memref sig .tc .vmem S4096x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S4096x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S4096 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

class Facts₀ : Prop where
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  packedbf16_S5000x128_S5000x128_0_0 : (Rect.unit (s := S5000x128) ![0, 0] S5000x128.size inb_S5000x128_S5000x128_0_0).PackedRows (EltTy.packing .bf16)
  transposes_S128x256_S256x128_1_0 : S128x256.Transposes [1, 0] S256x128
  inb_S5000x256_S5000x256_0_0 : ∀ a, (![0, 0] : Fin 2 → Nat) a + S5000x256.size a ≤ S5000x256.size a
  h_S5000x256 : 0 < S5000x256.numel
  inb_S256x128_S256x128_0_0 : ∀ a, (![0, 0] : Fin 2 → Nat) a + S256x128.size a ≤ S256x128.size a
  h_S256x128 : 0 < S256x128.numel
  shapeCasts_S256x128_S256x128 : S256x128.ShapeCasts S256x128
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S_S100000 : S_.BroadcastsInDim S100000 (![] : Fin 0 → Fin S100000.rank)
  shapeCasts_S50000_S50000x1 : S50000.ShapeCasts S50000x1
  shapeCasts_S100000_S100000x1 : S100000.ShapeCasts S100000x1
  bcast_S_S50000x128 : S_.BroadcastsInDim S50000x128 (![] : Fin 0 → Fin S50000x128.rank)
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S100000x128 : S_.BroadcastsInDim S100000x128 (![] : Fin 0 → Fin S100000x128.rank)
  transposes_S64x128_S128x64_1_0 : S64x128.Transposes [1, 0] S128x64
  shapeCasts_S64_S1x64 : S64.ShapeCasts S1x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S_S200000 : S_.BroadcastsInDim S200000 (![] : Fin 0 → Fin S200000.rank)
  bcast_S200000_S200000x1_0 : S200000.BroadcastsInDim S200000x1 (![0] : Fin 1 → Fin S200000x1.rank)
  pads_S200000x64_S200704x64_07040_000 : S200000x64.Pads (![0, 0] : Fin 2 → Nat) ![704, 0] ![0, 0] S200704x64
  h_S_ : 0 < S_.numel
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  reduces_S4096x64_S4096 : S4096x64.Reduces [1] S4096
  shapeCasts_S4096_S4096x1 : S4096.ShapeCasts S4096x1
  broadcasts_S4096x1_S4096x64 : S4096x1.Broadcasts S4096x64
  inb_S4096_S4096_0 : ∀ a, (![0] : Fin 1 → Nat) a + S4096.size a ≤ S4096.size a
  h_S4096 : 0 < S4096.numel
  slices_S200704_S200000_0 : S200704.Slices ![0] S200000
  dot_S5000x128_S128x128_S5000x128_1_0_0_1_n_n_wf : DotDims.WF S5000x128 S128x128 S5000x128 [1] [0] [0] [1] [] []
  dot_S5000x256_S256x128_S5000x128_1_0_0_1_n_n_wf : DotDims.WF S5000x256 S256x128 S5000x128 [1] [0] [0] [1] [] []
  scatter_S50000_S600000x1_S600000_n_0_0_1_wf : ScatterDims.WF S50000 S600000x1 S600000 [] [0] [0] 1
  scatter_S100000_S600000x1_S600000_n_0_0_1_wf : ScatterDims.WF S100000 S600000x1 S600000 [] [0] [0] 1
  gather_S100000x128_S600000x1_S600000x128_1_0_n_n_0_1_1128_wf : GatherDims.WF S100000x128 S600000x1 S600000x128 [1] [0] [] [0] [] 1 ![1, 128]
  scatter_S50000x128_S600000x1_S600000x128_1_0_0_1_wf : ScatterDims.WF S50000x128 S600000x1 S600000x128 [1] [0] [0] 1
  gather_S50000x128_S600000x1_S600000x128_1_0_n_n_0_1_1128_wf : GatherDims.WF S50000x128 S600000x1 S600000x128 [1] [0] [] [0] [] 1 ![1, 128]
  scatter_S100000x128_S600000x1_S600000x128_1_0_0_1_wf : ScatterDims.WF S100000x128 S600000x1 S600000x128 [1] [0] [0] 1
  dot_S5000x128_S128x64_S5000x64_1_0_0_1_n_n_wf : DotDims.WF S5000x128 S128x64 S5000x64 [1] [0] [0] [1] [] []
  gather_S100000x64_S200000x1_S200000x64_1_0_n_n_0_1_164_wf : GatherDims.WF S100000x64 S200000x1 S200000x64 [1] [0] [] [0] [] 1 ![1, 64]
  gather_S50000x64_S200000x1_S200000x64_1_0_n_n_0_1_164_wf : GatherDims.WF S50000x64 S200000x1 S200000x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .bf16 = 32 ∨ (Rect.block (s := S100000x128) S5000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .f32 = 32 ∨ (Rect.block (s := S256x128) S256x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .bf16 = 32 ∨ (Rect.block (s := S50000x128) S5000x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .bf16 = 32 ∨ (Rect.block (s := S50000x128) S5000x128.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S50000x128.size a
  hwx2_6 : ∀ i : grid2.Coords, EltTy.bits .bf16 = 32 ∨ (Rect.block (s := S50000x128) S5000x128.size (cc2_transform_6 i) (hinb2_6 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .f32 = 32 ∨ (Rect.block (s := S100000x1) S5000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .bf16 = 32 ∨ (Rect.block (s := S100000x128) S5000x128.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x128.size a ≤ S128x128.size a
  hwx3_5 : ∀ i : grid3.Coords, EltTy.bits .f32 = 32 ∨ (Rect.block (s := S128x128) S128x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x128.size a ≤ S100000x128.size a
  hwx3_6 : ∀ i : grid3.Coords, EltTy.bits .bf16 = 32 ∨ (Rect.block (s := S100000x128) S5000x128.size (cc3_transform_6 i) (hinb3_6 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S50000x1.size a
  hwx4_1 : ∀ i : grid4.Coords, EltTy.bits .f32 = 32 ∨ (Rect.block (s := S50000x1) S5000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S50000x128.size a
  hwx4_2 : ∀ i : grid4.Coords, EltTy.bits .bf16 = 32 ∨ (Rect.block (s := S50000x128) S5000x128.size (cc4_transform_2 i) (hinb4_2 i)).WholeWords (EltTy.packing .bf16)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x64.size a ≤ S128x64.size a
  hwx4_3 : ∀ i : grid4.Coords, EltTy.bits .f32 = 32 ∨ (Rect.block (s := S128x64) S128x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x64.size a ≤ S128x64.size a
  hwx4_5 : ∀ i : grid4.Coords, EltTy.bits .f32 = 32 ∨ (Rect.block (s := S128x64) S128x64.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x64.size a ≤ S50000x64.size a
  hwx4_6 : ∀ i : grid4.Coords, EltTy.bits .f32 = 32 ∨ (Rect.block (s := S50000x64) S5000x64.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x1.size a ≤ S100000x1.size a
  hwx5_1 : ∀ i : grid5.Coords, EltTy.bits .f32 = 32 ∨ (Rect.block (s := S100000x1) S5000x1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S100000x128.size a
  hwx5_2 : ∀ i : grid5.Coords, EltTy.bits .bf16 = 32 ∨ (Rect.block (s := S100000x128) S5000x128.size (cc5_transform_2 i) (hinb5_2 i)).WholeWords (EltTy.packing .bf16)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x64.size a ≤ S128x64.size a
  hwx5_3 : ∀ i : grid5.Coords, EltTy.bits .f32 = 32 ∨ (Rect.block (s := S128x64) S128x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S128x64.size a ≤ S128x64.size a
  hwx5_5 : ∀ i : grid5.Coords, EltTy.bits .f32 = 32 ∨ (Rect.block (s := S128x64) S128x64.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S5000x64.size a ≤ S100000x64.size a
  hwx5_6 : ∀ i : grid5.Coords, EltTy.bits .f32 = 32 ∨ (Rect.block (s := S100000x64) S5000x64.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S4096x64.size a ≤ S200704x64.size a
  hwx6_0 : ∀ i : grid6.Coords, EltTy.bits .f32 = 32 ∨ (Rect.block (s := S200704x64) S4096x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S4096x64.size a ≤ S200704x64.size a
  hwx6_1 : ∀ i : grid6.Coords, EltTy.bits .f32 = 32 ∨ (Rect.block (s := S200704x64) S4096x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S4096.size a ≤ S200704.size a
  hwx6_2 : ∀ i : grid6.Coords, EltTy.bits .f32 = 32 ∨ (Rect.block (s := S200704) S4096.size (cc6_transform_2 i) (hinb6_2 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S200000x1_S200000x64_1_0_n_n_0_1_164 : GatherDims S100000x64 S200000x1 S200000x64 where
  offsetDims := [1]
  collapsedSliceDims := [0]
  operandBatchingDims := []
  startIndicesBatchingDims := []
  startIndexMap := [0]
  indexVectorDim := 1
  sliceSizes := ![1, 64]
  wf := gather_S100000x64_S200000x1_S200000x64_1_0_n_n_0_1_164_wf
def gather_S50000x64_S200000x1_S200000x64_1_0_n_n_0_1_164 : GatherDims S50000x64 S200000x1 S200000x64 where
  offsetDims := [1]
  collapsedSliceDims := [0]
  operandBatchingDims := []
  startIndicesBatchingDims := []
  startIndexMap := [0]
  indexVectorDim := 1
  sliceSizes := ![1, 64]
  wf := gather_S50000x64_S200000x1_S200000x64_1_0_n_n_0_1_164_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v33) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v17) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v5) S5000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v34) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v36) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v35) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v37) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v48) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v22) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v2) S5000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v49) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v51) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v50) S128x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v52) S5000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v63) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v17) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v37) S5000x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v64) S128x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v66) S1x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v65) S128x64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v67) S5000x64.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v78) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v22) S5000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v52) S5000x128.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v79) S128x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v81) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v80) S128x64.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v82) S5000x64.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v97) S4096x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v98) S4096x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v99) S4096.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

class Facts : Prop extends Facts₀ where

variable [Facts]
-- ==== ReferenceIdeal.lean ====
abbrev S100000x128 : Shape := ⟨2, ![100000, 128]⟩
abbrev S50000x256 : Shape := ⟨2, ![50000, 256]⟩
abbrev S600000 : Shape := ⟨1, ![600000]⟩
abbrev S200000 : Shape := ⟨1, ![200000]⟩
abbrev S128x128 : Shape := ⟨2, ![128, 128]⟩
abbrev S128 : Shape := ⟨1, ![128]⟩
abbrev S128x256 : Shape := ⟨2, ![128, 256]⟩
abbrev S64x128 : Shape := ⟨2, ![64, 128]⟩
abbrev S64 : Shape := ⟨1, ![64]⟩
abbrev S1x128 : Shape := ⟨2, ![1, 128]⟩
abbrev S256x128 : Shape := ⟨2, ![256, 128]⟩
abbrev S50000x128 : Shape := ⟨2, ![50000, 128]⟩
abbrev S_ : Shape := ⟨0, ![]⟩
abbrev S600000x1 : Shape := ⟨2, ![600000, 1]⟩
abbrev S600000x128 : Shape := ⟨2, ![600000, 128]⟩
abbrev S50000 : Shape := ⟨1, ![50000]⟩
abbrev S50000x1 : Shape := ⟨2, ![50000, 1]⟩
abbrev S100000 : Shape := ⟨1, ![100000]⟩
abbrev S100000x1 : Shape := ⟨2, ![100000, 1]⟩
abbrev S128x64 : Shape := ⟨2, ![128, 64]⟩
abbrev S50000x64 : Shape := ⟨2, ![50000, 64]⟩
abbrev S1x64 : Shape := ⟨2, ![1, 64]⟩
abbrev S100000x64 : Shape := ⟨2, ![100000, 64]⟩
abbrev S200000x1 : Shape := ⟨2, ![200000, 1]⟩
abbrev S200000x64 : Shape := ⟨2, ![200000, 64]⟩

abbrev nBuf : Space → Nat
  | .hbm => 211
  | .vmem => 0
  | .smem => 0
  | _ => 0

abbrev hbmTy0_0 (i : Nat) : BufTy := match i % 128 with
  | 0 => ⟨S100000x128, .f32⟩
  | 1 => ⟨S50000x256, .f32⟩
  | 2 => ⟨S600000, .i32⟩
  | 3 => ⟨S600000, .i32⟩
  | 4 => ⟨S200000, .i32⟩
  | 5 => ⟨S200000, .i32⟩
  | 6 => ⟨S128x128, .f32⟩
  | 7 => ⟨S128, .f32⟩
  | 8 => ⟨S128x256, .f32⟩
  | 9 => ⟨S128, .f32⟩
  | 10 => ⟨S128x128, .f32⟩
  | 11 => ⟨S128, .f32⟩
  | 12 => ⟨S128x128, .f32⟩
  | 13 => ⟨S128x128, .f32⟩
  | 14 => ⟨S128, .f32⟩
  | 15 => ⟨S128x128, .f32⟩
  | 16 => ⟨S64x128, .f32⟩
  | 17 => ⟨S64, .f32⟩
  | 18 => ⟨S64x128, .f32⟩
  | 19 => ⟨S64x128, .f32⟩
  | 20 => ⟨S64, .f32⟩
  | 21 => ⟨S64x128, .f32⟩
  | 22 => ⟨S128x128, .f32⟩
  | 23 => ⟨S100000x128, .f32⟩
  | 24 => ⟨S1x128, .f32⟩
  | 25 => ⟨S100000x128, .f32⟩
  | 26 => ⟨S100000x128, .f32⟩
  | 27 => ⟨S256x128, .f32⟩
  | 28 => ⟨S50000x128, .f32⟩
  | 29 => ⟨S1x128, .f32⟩
  | 30 => ⟨S50000x128, .f32⟩
  | 31 => ⟨S50000x128, .f32⟩
  | 32 => ⟨S_, .i32⟩
  | 33 => ⟨S600000, .i32⟩
  | 34 => ⟨S600000, .i1⟩
  | 35 => ⟨S_, .i32⟩
  | 36 => ⟨S600000, .i32⟩
  | 37 => ⟨S600000, .i32⟩
  | 38 => ⟨S600000, .i32⟩
  | 39 => ⟨S600000x1, .i32⟩
  | 40 => ⟨S600000x128, .f32⟩
  | 41 => ⟨S_, .f32⟩
  | 42 => ⟨S50000x128, .f32⟩
  | 43 => ⟨S600000x1, .i32⟩
  | 44 => ⟨S50000x128, .f32⟩
  | 45 => ⟨S_, .f32⟩
  | 46 => ⟨S600000, .f32⟩
  | 47 => ⟨S_, .f32⟩
  | 48 => ⟨S50000, .f32⟩
  | 49 => ⟨S600000x1, .i32⟩
  | 50 => ⟨S50000, .f32⟩
  | 51 => ⟨S_, .f32⟩
  | 52 => ⟨S50000, .f32⟩
  | 53 => ⟨S50000, .f32⟩
  | 54 => ⟨S50000x1, .f32⟩
  | 55 => ⟨S50000x128, .f32⟩
  | 56 => ⟨S50000x128, .f32⟩
  | 57 => ⟨S128x128, .f32⟩
  | 58 => ⟨S50000x128, .f32⟩
  | 59 => ⟨S1x128, .f32⟩
  | 60 => ⟨S50000x128, .f32⟩
  | 61 => ⟨S50000x128, .f32⟩
  | 62 => ⟨S128x128, .f32⟩
  | 63 => ⟨S50000x128, .f32⟩
  | 64 => ⟨S50000x128, .f32⟩
  | 65 => ⟨S_, .f32⟩
  | 66 => ⟨S50000x128, .f32⟩
  | 67 => ⟨S50000x128, .f32⟩
  | 68 => ⟨S_, .i32⟩
  | 69 => ⟨S600000, .i32⟩
  | 70 => ⟨S600000, .i1⟩
  | 71 => ⟨S_, .i32⟩
  | 72 => ⟨S600000, .i32⟩
  | 73 => ⟨S600000, .i32⟩
  | 74 => ⟨S600000, .i32⟩
  | 75 => ⟨S600000x1, .i32⟩
  | 76 => ⟨S600000x128, .f32⟩
  | 77 => ⟨S_, .f32⟩
  | 78 => ⟨S100000x128, .f32⟩
  | 79 => ⟨S600000x1, .i32⟩
  | 80 => ⟨S100000x128, .f32⟩
  | 81 => ⟨S_, .f32⟩
  | 82 => ⟨S600000, .f32⟩
  | 83 => ⟨S_, .f32⟩
  | 84 => ⟨S100000, .f32⟩
  | 85 => ⟨S600000x1, .i32⟩
  | 86 => ⟨S100000, .f32⟩
  | 87 => ⟨S_, .f32⟩
  | 88 => ⟨S100000, .f32⟩
  | 89 => ⟨S100000, .f32⟩
  | 90 => ⟨S100000x1, .f32⟩
  | 91 => ⟨S100000x128, .f32⟩
  | 92 => ⟨S100000x128, .f32⟩
  | 93 => ⟨S128x128, .f32⟩
  | 94 => ⟨S100000x128, .f32⟩
  | 95 => ⟨S1x128, .f32⟩
  | 96 => ⟨S100000x128, .f32⟩
  | 97 => ⟨S100000x128, .f32⟩
  | 98 => ⟨S128x128, .f32⟩
  | 99 => ⟨S100000x128, .f32⟩
  | 100 => ⟨S100000x128, .f32⟩
  | 101 => ⟨S_, .f32⟩
  | 102 => ⟨S100000x128, .f32⟩
  | 103 => ⟨S100000x128, .f32⟩
  | 104 => ⟨S_, .i32⟩
  | 105 => ⟨S600000, .i32⟩
  | 106 => ⟨S600000, .i1⟩
  | 107 => ⟨S_, .i32⟩
  | 108 => ⟨S600000, .i32⟩
  | 109 => ⟨S600000, .i32⟩
  | 110 => ⟨S600000, .i32⟩
  | 111 => ⟨S600000x1, .i32⟩
  | 112 => ⟨S600000x128, .f32⟩
  | 113 => ⟨S_, .f32⟩
  | 114 => ⟨S50000x128, .f32⟩
  | 115 => ⟨S600000x1, .i32⟩
  | 116 => ⟨S50000x128, .f32⟩
  | 117 => ⟨S_, .f32⟩
  | 118 => ⟨S600000, .f32⟩
  | 119 => ⟨S_, .f32⟩
  | 120 => ⟨S50000, .f32⟩
  | 121 => ⟨S600000x1, .i32⟩
  | 122 => ⟨S50000, .f32⟩
  | 123 => ⟨S_, .f32⟩
  | 124 => ⟨S50000, .f32⟩
  | 125 => ⟨S50000, .f32⟩
  | 126 => ⟨S50000x1, .f32⟩
  | 127 => ⟨S50000x128, .f32⟩
  | _ => ⟨S100000x128, .f32⟩

abbrev hbmTy0_1 (i : Nat) : BufTy := match i % 128 with
  | 0 => ⟨S50000x128, .f32⟩
  | 1 => ⟨S128x64, .f32⟩
  | 2 => ⟨S50000x64, .f32⟩
  | 3 => ⟨S1x64, .f32⟩
  | 4 => ⟨S50000x64, .f32⟩
  | 5 => ⟨S50000x64, .f32⟩
  | 6 => ⟨S128x64, .f32⟩
  | 7 => ⟨S50000x64, .f32⟩
  | 8 => ⟨S50000x64, .f32⟩
  | 9 => ⟨S_, .i32⟩
  | 10 => ⟨S600000, .i32⟩
  | 11 => ⟨S600000, .i1⟩
  | 12 => ⟨S_, .i32⟩
  | 13 => ⟨S600000, .i32⟩
  | 14 => ⟨S600000, .i32⟩
  | 15 => ⟨S600000, .i32⟩
  | 16 => ⟨S600000x1, .i32⟩
  | 17 => ⟨S600000x128, .f32⟩
  | 18 => ⟨S_, .f32⟩
  | 19 => ⟨S100000x128, .f32⟩
  | 20 => ⟨S600000x1, .i32⟩
  | 21 => ⟨S100000x128, .f32⟩
  | 22 => ⟨S_, .f32⟩
  | 23 => ⟨S600000, .f32⟩
  | 24 => ⟨S_, .f32⟩
  | 25 => ⟨S100000, .f32⟩
  | 26 => ⟨S600000x1, .i32⟩
  | 27 => ⟨S100000, .f32⟩
  | 28 => ⟨S_, .f32⟩
  | 29 => ⟨S100000, .f32⟩
  | 30 => ⟨S100000, .f32⟩
  | 31 => ⟨S100000x1, .f32⟩
  | 32 => ⟨S100000x128, .f32⟩
  | 33 => ⟨S100000x128, .f32⟩
  | 34 => ⟨S128x64, .f32⟩
  | 35 => ⟨S100000x64, .f32⟩
  | 36 => ⟨S1x64, .f32⟩
  | 37 => ⟨S100000x64, .f32⟩
  | 38 => ⟨S100000x64, .f32⟩
  | 39 => ⟨S128x64, .f32⟩
  | 40 => ⟨S100000x64, .f32⟩
  | 41 => ⟨S100000x64, .f32⟩
  | 42 => ⟨S_, .i32⟩
  | 43 => ⟨S200000, .i32⟩
  | 44 => ⟨S200000, .i1⟩
  | 45 => ⟨S_, .i32⟩
  | 46 => ⟨S200000, .i32⟩
  | 47 => ⟨S200000, .i32⟩
  | 48 => ⟨S200000, .i32⟩
  | 49 => ⟨S200000x1, .i32⟩
  | 50 => ⟨S200000x64, .f32⟩
  | 51 => ⟨S_, .i32⟩
  | 52 => ⟨S200000, .i32⟩
  | 53 => ⟨S200000, .i1⟩
  | 54 => ⟨S_, .i32⟩
  | 55 => ⟨S200000, .i32⟩
  | 56 => ⟨S200000, .i32⟩
  | 57 => ⟨S200000, .i32⟩
  | 58 => ⟨S200000x1, .i32⟩
  | 59 => ⟨S200000x64, .f32⟩
  | 60 => ⟨S200000x64, .f32⟩
  | 61 => ⟨S_, .f32⟩
  | 62 => ⟨S200000, .f32⟩
  | 63 => ⟨S200000x1, .f32⟩
  | 64 => ⟨S200000x1, .f32⟩
  | 65 => ⟨S_, .f32⟩
  | 66 => ⟨S200000x1, .f32⟩
  | 67 => ⟨S200000x1, .f32⟩
  | 68 => ⟨S200000x64, .f32⟩
  | 69 => ⟨S200000x64, .f32⟩
  | 70 => ⟨S200000x64, .f32⟩
  | 71 => ⟨S_, .f32⟩
  | 72 => ⟨S200000, .f32⟩
  | 73 => ⟨S200000x1, .f32⟩
  | 74 => ⟨S200000x1, .f32⟩
  | 75 => ⟨S_, .f32⟩
  | 76 => ⟨S200000x1, .f32⟩
  | 77 => ⟨S200000x1, .f32⟩
  | 78 => ⟨S200000x64, .f32⟩
  | 79 => ⟨S200000x64, .f32⟩
  | 80 => ⟨S200000x64, .f32⟩
  | 81 => ⟨S_, .f32⟩
  | 82 => ⟨S200000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_c : Ref sig .tc := ⟨.hbm, 32, rfl⟩
abbrev main_v10 : Ref sig .tc := ⟨.hbm, 33, rfl⟩
abbrev main_v11 : Ref sig .tc := ⟨.hbm, 34, rfl⟩
abbrev main_c_0 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_cst : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_cst_1 : Ref sig .tc := ⟨.hbm, 45, rfl⟩
abbrev main_v20 : Ref sig .tc := ⟨.hbm, 46, rfl⟩
abbrev main_cst_2 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_cst_3 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_call0_cst : Ref sig .tc := ⟨.hbm, 65, rfl⟩
abbrev main_call0_v0 : Ref sig .tc := ⟨.hbm, 66, rfl⟩
abbrev main_v37 : Ref sig .tc := ⟨.hbm, 67, rfl⟩
abbrev main_c_4 : Ref sig .tc := ⟨.hbm, 68, rfl⟩
abbrev main_v38 : Ref sig .tc := ⟨.hbm, 69, rfl⟩
abbrev main_v39 : Ref sig .tc := ⟨.hbm, 70, rfl⟩
abbrev main_c_5 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_cst_6 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_cst_7 : Ref sig .tc := ⟨.hbm, 81, rfl⟩
abbrev main_v48 : Ref sig .tc := ⟨.hbm, 82, rfl⟩
abbrev main_cst_8 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_cst_9 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_call1_cst : Ref sig .tc := ⟨.hbm, 101, rfl⟩
abbrev main_call1_v0 : Ref sig .tc := ⟨.hbm, 102, rfl⟩
abbrev main_v65 : Ref sig .tc := ⟨.hbm, 103, rfl⟩
abbrev main_c_10 : Ref sig .tc := ⟨.hbm, 104, rfl⟩
abbrev main_v66 : Ref sig .tc := ⟨.hbm, 105, rfl⟩
abbrev main_v67 : Ref sig .tc := ⟨.hbm, 106, rfl⟩
abbrev main_c_11 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_cst_12 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_cst_13 : Ref sig .tc := ⟨.hbm, 117, rfl⟩
abbrev main_v76 : Ref sig .tc := ⟨.hbm, 118, rfl⟩
abbrev main_cst_14 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_cst_15 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_c_16 : Ref sig .tc := ⟨.hbm, 137, rfl⟩
abbrev main_v93 : Ref sig .tc := ⟨.hbm, 138, rfl⟩
abbrev main_v94 : Ref sig .tc := ⟨.hbm, 139, rfl⟩
abbrev main_c_17 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_cst_18 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_cst_19 : Ref sig .tc := ⟨.hbm, 150, rfl⟩
abbrev main_v103 : Ref sig .tc := ⟨.hbm, 151, rfl⟩
abbrev main_cst_20 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_cst_21 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_c_22 : Ref sig .tc := ⟨.hbm, 170, rfl⟩
abbrev main_v120 : Ref sig .tc := ⟨.hbm, 171, rfl⟩
abbrev main_v121 : Ref sig .tc := ⟨.hbm, 172, rfl⟩
abbrev main_c_23 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_c_24 : Ref sig .tc := ⟨.hbm, 179, rfl⟩
abbrev main_v127 : Ref sig .tc := ⟨.hbm, 180, rfl⟩
abbrev main_v128 : Ref sig .tc := ⟨.hbm, 181, rfl⟩
abbrev main_c_25 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_call2_v0 : Ref sig .tc := ⟨.hbm, 188, rfl⟩
abbrev main_call2_cst : Ref sig .tc := ⟨.hbm, 189, rfl⟩
abbrev main_call2_v1 : Ref sig .tc := ⟨.hbm, 190, rfl⟩
abbrev main_call2_v2 : Ref sig .tc := ⟨.hbm, 191, rfl⟩
abbrev main_v134 : Ref sig .tc := ⟨.hbm, 192, rfl⟩
abbrev main_cst_26 : Ref sig .tc := ⟨.hbm, 193, rfl⟩
abbrev main_v135 : Ref sig .tc := ⟨.hbm, 194, rfl⟩
abbrev main_v136 : Ref sig .tc := ⟨.hbm, 195, rfl⟩
abbrev main_v137 : Ref sig .tc := ⟨.hbm, 196, rfl⟩
abbrev main_v138 : Ref sig .tc := ⟨.hbm, 197, rfl⟩
abbrev main_call3_v0 : Ref sig .tc := ⟨.hbm, 198, rfl⟩
abbrev main_call3_cst : Ref sig .tc := ⟨.hbm, 199, rfl⟩
abbrev main_call3_v1 : Ref sig .tc := ⟨.hbm, 200, rfl⟩
abbrev main_call3_v2 : Ref sig .tc := ⟨.hbm, 201, rfl⟩
abbrev main_v139 : Ref sig .tc := ⟨.hbm, 202, rfl⟩
abbrev main_cst_27 : Ref sig .tc := ⟨.hbm, 203, rfl⟩
abbrev main_v140 : Ref sig .tc := ⟨.hbm, 204, rfl⟩
abbrev main_v141 : Ref sig .tc := ⟨.hbm, 205, rfl⟩
abbrev main_v142 : Ref sig .tc := ⟨.hbm, 206, rfl⟩
abbrev main_v143 : Ref sig .tc := ⟨.hbm, 207, rfl⟩
abbrev main_v144 : Ref sig .tc := ⟨.hbm, 208, rfl⟩
abbrev main_cst_28 : Ref sig .tc := ⟨.hbm, 209, rfl⟩
abbrev main_v145 : Ref sig .tc := ⟨.hbm, 210, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  transposes_S128x256_S256x128_1_0 : S128x256.Transposes [1, 0] S256x128
  bcast_S1x128_S50000x128_0_1 : S1x128.BroadcastsInDim S50000x128 (![0, 1] : Fin 2 → Fin S50000x128.rank)
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S64x128_S128x64_1_0 : S64x128.Transposes [1, 0] S128x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S1x64_S100000x64_0_1 : S1x64.BroadcastsInDim S100000x64 (![0, 1] : Fin 2 → Fin S100000x64.rank)
  bcast_S_S200000 : S_.BroadcastsInDim S200000 (![] : Fin 0 → Fin S200000.rank)
  bcast_S200000_S200000x1_0 : S200000.BroadcastsInDim S200000x1 (![0] : Fin 1 → Fin S200000x1.rank)
  reducesTo_S200000x64_S200000_d1 : S200000x64.ReducesTo [1] S200000
  h_S_ : 0 < S_.numel
  bcast_S_S200000x1 : S_.BroadcastsInDim S200000x1 (![] : Fin 0 → Fin S200000x1.rank)
  bcast_S200000x1_S200000x64_0_1 : S200000x1.BroadcastsInDim S200000x64 (![0, 1] : Fin 2 → Fin S200000x64.rank)
  dot_S100000x128_S128x128_S100000x128_1_0_0_1_n_n_wf : DotDims.WF S100000x128 S128x128 S100000x128 [1] [0] [0] [1] [] []
  dot_S50000x256_S256x128_S50000x128_1_0_0_1_n_n_wf : DotDims.WF S50000x256 S256x128 S50000x128 [1] [0] [0] [1] [] []
  gather_S100000x128_S600000x1_S600000x128_1_0_n_n_0_1_1128_wf : GatherDims.WF S100000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S50000x128_S128x128_S50000x128_1_0_0_1_n_n_wf : DotDims.WF S50000x128 S128x128 S50000x128 [1] [0] [0] [1] [] []
  gather_S50000x128_S600000x1_S600000x128_1_0_n_n_0_1_1128_wf : GatherDims.WF S50000x128 S600000x1 S600000x128 [1] [0] [] [0] [] 1 ![1, 128]
  scatter_S100000x128_S600000x1_S600000x128_1_0_0_1_wf : ScatterDims.WF S100000x128 S600000x1 S600000x128 [1] [0] [0] 1
  scatter_S100000_S600000x1_S600000_n_0_0_1_wf : ScatterDims.WF S100000 S600000x1 S600000 [] [0] [0] 1
  dot_S50000x128_S128x64_S50000x64_1_0_0_1_n_n_wf : DotDims.WF S50000x128 S128x64 S50000x64 [1] [0] [0] [1] [] []
  dot_S100000x128_S128x64_S100000x64_1_0_0_1_n_n_wf : DotDims.WF S100000x128 S128x64 S100000x64 [1] [0] [0] [1] [] []
  gather_S100000x64_S200000x1_S200000x64_1_0_n_n_0_1_164_wf : GatherDims.WF S100000x64 S200000x1 S200000x64 [1] [0] [] [0] [] 1 ![1, 64]
  gather_S50000x64_S200000x1_S200000x64_1_0_n_n_0_1_164_wf : GatherDims.WF S50000x64 S200000x1 S200000x64 [1] [0] [] [0] [] 1 ![1, 64]

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S200000x1_S200000x64_1_0_n_n_0_1_164 : GatherDims S100000x64 S200000x1 S200000x64 where
  offsetDims := [1]
  collapsedSliceDims := [0]
  operandBatchingDims := []
  startIndicesBatchingDims := []
  startIndexMap := [0]
  indexVectorDim := 1
  sliceSizes := ![1, 64]
  wf := gather_S100000x64_S200000x1_S200000x64_1_0_n_n_0_1_164_wf
def gather_S50000x64_S200000x1_S200000x64_1_0_n_n_0_1_164 : GatherDims S50000x64 S200000x1 S200000x64 where
  offsetDims := [1]
  collapsedSliceDims := [0]
  operandBatchingDims := []
  startIndicesBatchingDims := []
  startIndexMap := [0]
  indexVectorDim := 1
  sliceSizes := ![1, 64]
  wf := gather_S50000x64_S200000x1_S200000x64_1_0_n_n_0_1_164_wf

class Facts : Prop extends Facts₀ where

variable [Facts]
-- ==== Proof.KRun.lean ====
/-
  The whole program's run with its result named.

  The program is seven kernel launches among stretches of host operations.  Folding the buffer contents through the
  segments from the launch memory gives the contents at the return; every weakly fair execution terminates there without
  a fault, so the result buffer ends at the folded contents and every argument array ends as launched.
-/
import proofs.«159460_j70523363000941_2_alg».proof.Proof.Gen.KernelIdeal.Frame

set_option maxRecDepth 16384

noncomputable section

namespace Cert.KernelIdeal.KRun

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last boundary's folded
    contents and the argument arrays as launched. -/
theorem run : θ_run defs (onTc (τ := τ) (main (F := F))) ⟨m, fun _ => 0, ρ⟩ (fun r => ∀ c : Dev nD,
      r.2.mem ((c.tc : Thread nD τ).loc main_v100) = W18 m ρ c (Proc.devRef .tc main_v100)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h c =>
      ⟨h c _ (mem_uc main_v100 (by decide)),
       (h c _ (mem_uc main_arg0 (by decide))).trans (W18_main_arg0 m ρ c),
       (h c _ (mem_uc main_arg1 (by decide))).trans (W18_main_arg1 m ρ c),
       (h c _ (mem_uc main_arg2 (by decide))).trans (W18_main_arg2 m ρ c),
       (h c _ (mem_uc main_arg3 (by decide))).trans (W18_main_arg3 m ρ c),
       (h c _ (mem_uc main_arg4 (by decide))).trans (W18_main_arg4 m ρ c),
       (h c _ (mem_uc main_arg5 (by decide))).trans (W18_main_arg5 m ρ c),
       (h c _ (mem_uc main_arg6 (by decide))).trans (W18_main_arg6 m ρ c),
       (h c _ (mem_uc main_arg7 (by decide))).trans (W18_main_arg7 m ρ c),
       (h c _ (mem_uc main_arg8 (by decide))).trans (W18_main_arg8 m ρ c),
       (h c _ (mem_uc main_arg9 (by decide))).trans (W18_main_arg9 m ρ c),
       (h c _ (mem_uc main_arg10 (by decide))).trans (W18_main_arg10 m ρ c),
       (h c _ (mem_uc main_arg11 (by decide))).trans (W18_main_arg11 m ρ c),
       (h c _ (mem_uc main_arg12 (by decide))).trans (W18_main_arg12 m ρ c),
       (h c _ (mem_uc main_arg13 (by decide))).trans (W18_main_arg13 m ρ c),
       (h c _ (mem_uc main_arg14 (by decide))).trans (W18_main_arg14 m ρ c),
       (h c _ (mem_uc main_arg15 (by decide))).trans (W18_main_arg15 m ρ c),
       (h c _ (mem_uc main_arg16 (by decide))).trans (W18_main_arg16 m ρ c),
       (h c _ (mem_uc main_arg17 (by decide))).trans (W18_main_arg17 m ρ c),
       (h c _ (mem_uc main_arg18 (by decide))).trans (W18_main_arg18 m ρ c),
       (h c _ (mem_uc main_arg19 (by decide))).trans (W18_main_arg19 m ρ c),
       (h c _ (mem_uc main_arg20 (by decide))).trans (W18_main_arg20 m ρ c),
       (h c _ (mem_uc main_arg21 (by decide))).trans (W18_main_arg21 m ρ c)⟩)

end Cert.KernelIdeal.KRun

end
-- ==== Proof.LibPlainDot.lean ====
/-
  A plain matrix product, read at one entry.

  A contraction with the dimension numbers of "rows of an [n, k] matrix against columns of a [k, d] matrix" (contract
  axis 1 of the left with axis 0 of the right, no batch axis) sums, at entry (p, o), the products of row p of the left
  operand with column o of the right: the sum over j of lhs(p, j) · rhs(j, o).  This holds for any record of those
  dimension numbers, whatever its extents and formats, and gives the same reading of a matrix unit's product into the
  zero accumulator and of the host's dot_general, on the extended reals.
-/
import Idealize.ShloMosaic.PureOps.Ideal.Laws
import Idealize.ShloMosaic.Lib.ValueIdx

noncomputable section

namespace Cert.LibPlainDot

open Idealize.ShloMosaic Idealize.ShloMosaic.ValueIdx

/-- The sum over the contraction index is the sum over the one contracted coordinate j, the left operand read at
    (p, j) and the right at (j, o). -/
theorem sum_contr_plain {n k d : ℕ} (D : DotDims ⟨2, ![n, k]⟩ ⟨2, ![k, d]⟩ ⟨2, ![n, d]⟩)
    (hlc : D.lhsContracting = [1]) (hrc : D.rhsContracting = [0]) (hln : D.lhsNonContracting = [0]) (hrn : D.rhsNonContracting = [1])
    (hlb : D.lhsBatch = []) (hrb : D.rhsBatch = [])
    (lhs : (⟨2, ![n, k]⟩ : Shape).Idx → EReal) (rhs : (⟨2, ![k, d]⟩ : Shape).Idx → EReal) (p : Fin n) (o : Fin d) :
    ∑ q : D.contr.Idx, lhs (D.lhsIdx (ix2 p o) q) * rhs (D.rhsIdx (ix2 p o) q) = ∑ j : Fin k, lhs (ix2 p j) * rhs (ix2 j o) := by
  obtain ⟨lc, rc, ln, rn, lb, rb, wf⟩ := D
  simp only at hlc hrc hln hrn hlb hrb
  subst hlc hrc hln hrn hlb hrb
  rw [← Equiv.sum_comp (contrEquiv1 (DotDims.mk [1] [0] [0] [1] [] [] wf) k rfl rfl).symm]
  refine Finset.sum_congr rfl fun j _ => ?_
  have hk := contrEquiv1_symm_val (DotDims.mk [1] [0] [0] [1] [] [] wf) k rfl rfl j
  have el : (DotDims.mk [1] [0] [0] [1] [] [] wf).lhsIdx (ix2 p o) ((contrEquiv1 (DotDims.mk [1] [0] [0] [1] [] [] wf) k rfl rfl).symm j) = ix2 p j :=
    funext fun a => Fin.ext (by
      match a with
      | ⟨0, _⟩ => rfl
      | ⟨1, _⟩ => exact ((DotDims.mk [1] [0] [0] [1] [] [] wf).lhsIdx_val_of_single rfl _ _).trans hk)
  have er : (DotDims.mk [1] [0] [0] [1] [] [] wf).rhsIdx (ix2 p o) ((contrEquiv1 (DotDims.mk [1] [0] [0] [1] [] [] wf) k rfl rfl).symm j) = ix2 j o :=
    funext fun a => Fin.ext (by
      match a with
      | ⟨0, _⟩ => exact ((DotDims.mk [1] [0] [0] [1] [] [] wf).rhsIdx_val_of_single rfl _ _).trans hk
      | ⟨1, _⟩ => rfl)
  rw [el, er]

/-- A matrix unit's product into the zero accumulator, at (p, o). -/
theorem matmul_zero_apply {n k d : ℕ} {φ₁ φ₂ : FTy} (D : DotDims ⟨2, ![n, k]⟩ ⟨2, ![k, d]⟩ ⟨2, ![n, d]⟩)
    (hlc : D.lhsContracting = [1]) (hrc : D.rhsContracting = [0]) (hln : D.lhsNonContracting = [0]) (hrn : D.rhsNonContracting = [1])
    (hlb : D.lhsBatch = []) (hrb : D.rhsBatch = []) (prec : Option ContractPrecision)
    (lhs : FVec Ideal ⟨2, ![n, k]⟩ φ₁) (rhs : FVec Ideal ⟨2, ![k, d]⟩ φ₂) (p : Fin n) (o : Fin d) :
    FloatOps.matmul D prec lhs rhs (constant ⟨2, ![n, d]⟩ .f32 0x00000000#32) (ix2 p o) = ∑ j : Fin k, lhs (ix2 p j) * rhs (ix2 j o) :=
  (Ideal.matmul_constant_zero_apply D prec lhs rhs (ix2 p o)).trans (sum_contr_plain D hlc hrc hln hrn hlb hrb lhs rhs p o)

/-- The host's dot_general, at (p, o). -/
theorem dotGeneral_apply {n k d : ℕ} {φ₁ φ₂ : FTy} (D : DotDims ⟨2, ![n, k]⟩ ⟨2, ![k, d]⟩ ⟨2, ![n, d]⟩)
    (hlc : D.lhsContracting = [1]) (hrc : D.rhsContracting = [0]) (hln : D.lhsNonContracting = [0]) (hrn : D.rhsNonContracting = [1])
    (hlb : D.lhsBatch = []) (hrb : D.rhsBatch = []) (prec : Option ContractPrecision) (sched : HostSchedule)
    (lhs : FVec Ideal ⟨2, ![n, k]⟩ φ₁) (rhs : FVec Ideal ⟨2, ![k, d]⟩ φ₂) (p : Fin n) (o : Fin d) :
    FloatOps.dotGeneral D prec sched lhs rhs (ix2 p o) = ∑ j : Fin k, lhs (ix2 p j) * rhs (ix2 j o) :=
  (Ideal.dotGeneral_apply D prec sched lhs rhs (ix2 p o)).trans (sum_contr_plain D hlc hrc hln hrn hlb hrb lhs rhs p o)

end Cert.LibPlainDot

end
-- ==== Proof.LibBiasRow.lean ====
/-
  A bias vector laid along the rows of a matrix, read at an entry.

  A vector [D] reshaped to the one-row matrix [1, D] has the vector's element k at (0, k); that row spread over N rows has,
  at (p, k), the row's element (0, k).  Together: adding a bias vector to every row of an [N, D] matrix adds element k of the
  vector at column k.  General in the extents and the element type.
-/
import Idealize.ShloMosaic.Lib.ValueIdx
import Idealize.ShloMosaic.Lib.Pipeline.Value

noncomputable section

namespace Cert.LibBiasRow

open Idealize.ShloMosaic Idealize.ShloMosaic.ValueIdx

/-- A vector reshaped to a one-row matrix: element (u, k) of the row is element k of the vector. -/
theorem vec_as_row_apply {α : Type} {D : ℕ} (h : (⟨1, ![D]⟩ : Shape).ShapeCasts ⟨2, ![1, D]⟩)
    (v : (⟨1, ![D]⟩ : Shape).Idx → α) (u : Fin 1) (k : Fin D) :
    shapeCast ⟨2, ![1, D]⟩ v h (ix2 u k) = v (ix1 k) := by
  refine (shapeCast_addUnit_apply (n := 1) ![D] v h (ix2 u k)).trans (congrArg v ?_)
  funext a
  match a with
  | ⟨0, _⟩ => rfl

/-- A one-row matrix spread over N rows: element (p, k) is the row's element (0, k) (the first axis is a unit axis; the
    second is read at the column, also when D = 1). -/
theorem row_spread_apply {α : Type} {N D : ℕ} (h : (⟨2, ![1, D]⟩ : Shape).Broadcasts ⟨2, ![N, D]⟩)
    (v : (⟨2, ![1, D]⟩ : Shape).Idx → α) (p : Fin N) (k : Fin D) :
    broadcastTo ⟨2, ![N, D]⟩ v h (ix2 p k) = v (ix2 (0 : Fin 1) k) :=
  broadcastTo_apply v h (ix2 p k) (ix2 (0 : Fin 1) k) (fun a => by
    match a with
    | ⟨0, _⟩ => rfl
    | ⟨1, _⟩ =>
      show k.val = if D = 1 then 0 else k.val
      split
      · have := k.isLt; omega
      · rfl)

/-- The two together: a vector reshaped to a row and spread over N rows reads, at (p, k), the vector's element k. -/
theorem vec_spread_apply {α : Type} {N D : ℕ} (h₁ : (⟨1, ![D]⟩ : Shape).ShapeCasts ⟨2, ![1, D]⟩)
    (h₂ : (⟨2, ![1, D]⟩ : Shape).Broadcasts ⟨2, ![N, D]⟩) (v : (⟨1, ![D]⟩ : Shape).Idx → α) (p : Fin N) (k : Fin D) :
    broadcastTo ⟨2, ![N, D]⟩ (shapeCast ⟨2, ![1, D]⟩ v h₁) h₂ (ix2 p k) = v (ix1 k) :=
  (row_spread_apply h₂ _ p k).trans (vec_as_row_apply h₁ v 0 k)

end Cert.LibBiasRow

end
-- ==== Proof.LibRowBroadcast.lean ====
/-
  Two more `broadcastInDim` forms read at an index: a vector [D] placed as the one row of a [1, D] matrix (the operand's
  axis sent to the result's axis 1), and a [1, D] row spread over N rows. General in the extents and the element type.
-/
import Idealize.ShloMosaic.Lib.ValueIdx
import Idealize.ShloMosaic.Lib.Pipeline.Value

noncomputable section

namespace Cert.LibRowBroadcast

open Idealize.ShloMosaic Idealize.ShloMosaic.ValueIdx

/-- A vector as a row: element (u, o) of the row is element o of the vector (also when D = 1, where the operand's one
    axis is a unit axis read at 0 = o). -/
theorem vec_row_apply {α : Type} {D : ℕ} (h : (⟨1, ![D]⟩ : Shape).BroadcastsInDim ⟨2, ![1, D]⟩ ![1])
    (v : (⟨1, ![D]⟩ : Shape).Idx → α) (u : Fin 1) (o : Fin D) :
    broadcastInDim ⟨2, ![1, D]⟩ ![1] h v (ix2 u o) = v (ix1 o) :=
  broadcastInDim_apply ![1] h v (ix2 u o) (ix1 o) (fun a => by
    match a with
    | ⟨0, _⟩ =>
      show o.val = if D = 1 then 0 else o.val
      split
      · have := o.isLt; omega
      · rfl)

/-- A row spread over N rows: element (p, o) is the row's element (0, o) (the operand's first axis is a unit axis; its
    second is read at the column, also when D = 1). -/
theorem row_mat_apply {α : Type} {N D : ℕ} (h : (⟨2, ![1, D]⟩ : Shape).BroadcastsInDim ⟨2, ![N, D]⟩ ![0, 1])
    (v : (⟨2, ![1, D]⟩ : Shape).Idx → α) (p : Fin N) (o : Fin D) :
    broadcastInDim ⟨2, ![N, D]⟩ ![0, 1] h v (ix2 p o) = v (ix2 (0 : Fin 1) o) :=
  broadcastInDim_apply ![0, 1] h v (ix2 p o) (ix2 (0 : Fin 1) o) (fun a => by
    match a with
    | ⟨0, _⟩ => rfl
    | ⟨1, _⟩ =>
      show o.val = if D = 1 then 0 else o.val
      split
      · have := o.isLt; omega
      · rfl)

end Cert.LibRowBroadcast

end
-- ==== Proof.LibRowStages.lean ====
/-
  Row-wise stages on matrices of extended reals: the matrix product, a bias row added to every row, the floor at zero.

  On the extended reals an [n, k] matrix times a [k, d] matrix has at (p, o) the sum over j of a(p, j) * w(j, o); adding a
  one-row matrix to every row adds b(0, j) at (p, j); flooring takes the maximum with what the zero word of the 32-bit
  float format denotes.  Each of the three works one row at a time: row p of the result depends on row p of the matrix
  operand only.  So if row q of a matrix ab is row p of a matrix a, the same holds of their images under any of the three
  (`RowEq`, `mm_row`, `addRow_row`, `relu_row`), hence under any composition: a stage computed on a block of rows is the
  same rows of the stage of the whole matrix.  Nothing is distributed or cancelled, so this holds at the infinities too.

  The operations a vector unit and a host program apply are these functions, entry by entry: a matrix unit's product into
  the zero accumulator and the host's contraction with the same dimension numbers are `mm` whatever the operands' float
  formats; a bias row spread over the rows and added is `addRow` (for the unit's spread of a one-row matrix, and for the
  host's vector placed as a row and then spread); the maximum against a splat of the zero word is `relu` (splat from a
  scalar constant by the unit, from a scalar array by the host); a change to a narrower float format changes nothing.
-/
import Idealize.ShloMosaic.PureOps.Ideal
import Idealize.ShloMosaic.PureOps.Ideal.Laws
import Idealize.ShloMosaic.Lib.ValueIdx
import Idealize.ShloMosaic.Lib.Pipeline.Value
import proofs.«159460_j70523363000941_2_alg».proof.Proof.LibPlainDot
import proofs.«159460_j70523363000941_2_alg».proof.Proof.LibBiasRow
import proofs.«159460_j70523363000941_2_alg».proof.Proof.LibRowBroadcast

noncomputable section

open scoped BigOperators

namespace Cert.LibRowStages

open Idealize.ShloMosaic Idealize.ShloMosaic.ValueIdx

/-- An [a, b] matrix of extended reals. -/
abbrev Mat (a b : ℕ) : Type := (⟨2, ![a, b]⟩ : Shape).Idx → EReal

/-- The floor of the rectifier: what the zero word of the 32-bit float format denotes (never evaluated: the same word
    stands on both sides of every equation). -/
def floor0 : EReal := Ideal.ofBits .f32 0x00000000#32

/-- The matrix product: entry (p, o) is the sum over j of a(p, j) * w(j, o). -/
def mm {n k d : ℕ} (a : Mat n k) (w : Mat k d) : Mat n d :=
  fun i => ∑ j : Fin k, a (ix2 (i 0) j) * w (ix2 j (i 1))

/-- A one-row matrix added to every row: entry (p, j) gains b(0, j). -/
def addRow {n k : ℕ} (a : Mat n k) (b : Mat 1 k) : Mat n k :=
  fun i => a i + b (ix2 (0 : Fin 1) (i 1))

/-- Every entry floored at zero. -/
def relu {n k : ℕ} (a : Mat n k) : Mat n k := fun i => max (a i) floor0

/-! ## One row at a time -/

/-- Row q of ab is row p of a. -/
def RowEq {m n k : ℕ} (ab : Mat m k) (q : Fin m) (a : Mat n k) (p : Fin n) : Prop :=
  ∀ j : Fin k, ab (ix2 q j) = a (ix2 p j)

theorem mm_row {m n k d : ℕ} {ab : Mat m k} {q : Fin m} {a : Mat n k} {p : Fin n} (h : RowEq ab q a p) (w : Mat k d) :
    RowEq (mm ab w) q (mm a w) p := fun o => by
  show ∑ j : Fin k, ab (ix2 q j) * w (ix2 j o) = ∑ j : Fin k, a (ix2 p j) * w (ix2 j o)
  exact Finset.sum_congr rfl fun j _ => by rw [h j]

theorem addRow_row {m n k : ℕ} {ab : Mat m k} {q : Fin m} {a : Mat n k} {p : Fin n} (h : RowEq ab q a p) (b : Mat 1 k) :
    RowEq (addRow ab b) q (addRow a b) p := fun j => by
  show ab (ix2 q j) + b (ix2 (0 : Fin 1) j) = a (ix2 p j) + b (ix2 (0 : Fin 1) j)
  rw [h j]

theorem relu_row {m n k : ℕ} {ab : Mat m k} {q : Fin m} {a : Mat n k} {p : Fin n} (h : RowEq ab q a p) :
    RowEq (relu ab) q (relu a) p := fun j => by
  show max (ab (ix2 q j)) floor0 = max (a (ix2 p j)) floor0
  rw [h j]

/-! ## The machine's operations are these functions -/

/-- A matrix unit's product into the zero accumulator is the matrix product, whatever the operands' formats. -/
theorem matmul_eq_mm {n k d : ℕ} {φ₁ φ₂ : FTy} (D : DotDims ⟨2, ![n, k]⟩ ⟨2, ![k, d]⟩ ⟨2, ![n, d]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![n, k]⟩ φ₁) (r : FVec Ideal ⟨2, ![k, d]⟩ φ₂) :
    matmul D prec l r (constant ⟨2, ![n, d]⟩ .f32 0x00000000#32) = mm l r := by
  funext i
  obtain ⟨p, o, rfl⟩ : ∃ (p : Fin n) (o : Fin d), i = ix2 p o := ⟨i 0, i 1, eq_ix2 i⟩
  exact Cert.LibPlainDot.matmul_zero_apply D hlc hrc hln hrn hlb hrb prec l r p o

/-- The host's contraction with the same dimension numbers is the matrix product. -/
theorem dotGeneral_eq_mm {n k d : ℕ} {φ₁ φ₂ : FTy} (D : DotDims ⟨2, ![n, k]⟩ ⟨2, ![k, d]⟩ ⟨2, ![n, d]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![n, k]⟩ φ₁) (r : FVec Ideal ⟨2, ![k, d]⟩ φ₂) :
    Host.dotGeneral D prec l r = mm l r := by
  funext i
  obtain ⟨p, o, rfl⟩ : ∃ (p : Fin n) (o : Fin d), i = ix2 p o := ⟨i 0, i 1, eq_ix2 i⟩
  exact Cert.LibPlainDot.dotGeneral_apply D hlc hrc hln hrn hlb hrb prec .single l r p o

/-- Adding a one-row matrix spread over the rows is `addRow`. -/
theorem addf_spread_eq_addRow {n k : ℕ} (h : (⟨2, ![1, k]⟩ : Shape).Broadcasts ⟨2, ![n, k]⟩)
    (a : FVec Ideal ⟨2, ![n, k]⟩ .f32) (b : FVec Ideal ⟨2, ![1, k]⟩ .f32) :
    addf a (broadcastTo ⟨2, ![n, k]⟩ b h) = addRow a b := by
  funext i
  obtain ⟨p, j, rfl⟩ : ∃ (p : Fin n) (j : Fin k), i = ix2 p j := ⟨i 0, i 1, eq_ix2 i⟩
  show a (ix2 p j) + broadcastTo ⟨2, ![n, k]⟩ b h (ix2 p j) = a (ix2 p j) + b (ix2 (0 : Fin 1) j)
  rw [Cert.LibBiasRow.row_spread_apply h b p j]

/-- The maximum against a splat of the zero word is `relu`. -/
theorem maximumf_zero_eq_relu {n k : ℕ} (a : FVec Ideal ⟨2, ![n, k]⟩ .f32) :
    maximumf a (broadcast ⟨2, ![n, k]⟩ (Scalar.ofBits (F := Ideal) .f32 0x00000000#32)) = relu a := rfl

/-- A change to a narrower float format changes no extended real. -/
theorem truncf_eq {s : Shape} {φ ψ : FTy} (a : FVec Ideal s φ) (h : ψ.bits < φ.bits) :
    (truncf ψ a h : FVec Ideal s ψ) = a := rfl

/-! ## The host program's spellings -/

/-- Adding a vector placed as a row and spread over the rows is `addRow` of the vector reshaped to a row. -/
theorem addf_hostBias_eq_addRow {n k : ℕ} (h1 : (⟨1, ![k]⟩ : Shape).BroadcastsInDim ⟨2, ![1, k]⟩ ![1])
    (h2 : (⟨2, ![1, k]⟩ : Shape).BroadcastsInDim ⟨2, ![n, k]⟩ ![0, 1]) (hc : (⟨1, ![k]⟩ : Shape).ShapeCasts ⟨2, ![1, k]⟩)
    (a : FVec Ideal ⟨2, ![n, k]⟩ .f32) (v : FVec Ideal ⟨1, ![k]⟩ .f32) :
    addf a (broadcastInDim ⟨2, ![n, k]⟩ ![0, 1] h2 (broadcastInDim ⟨2, ![1, k]⟩ ![1] h1 v))
      = addRow a (shapeCast ⟨2, ![1, k]⟩ v hc) := by
  funext i
  obtain ⟨p, j, rfl⟩ : ∃ (p : Fin n) (j : Fin k), i = ix2 p j := ⟨i 0, i 1, eq_ix2 i⟩
  show a (ix2 p j) + broadcastInDim ⟨2, ![n, k]⟩ ![0, 1] h2 (broadcastInDim ⟨2, ![1, k]⟩ ![1] h1 v) (ix2 p j)
    = a (ix2 p j) + shapeCast ⟨2, ![1, k]⟩ v hc (ix2 (0 : Fin 1) j)
  rw [Cert.LibRowBroadcast.row_mat_apply h2 _ p j, Cert.LibRowBroadcast.vec_row_apply h1 v 0 j,
    Cert.LibBiasRow.vec_as_row_apply hc v 0 j]

/-- The maximum against the zero word spread from a scalar is `relu`. -/
theorem maximumf_hostZero_eq_relu {n k : ℕ} (h : (⟨0, ![]⟩ : Shape).BroadcastsInDim ⟨2, ![n, k]⟩ ![])
    (a : FVec Ideal ⟨2, ![n, k]⟩ .f32) :
    maximumf a (broadcastInDim ⟨2, ![n, k]⟩ ![] h (constant (F := Ideal) ⟨0, ![]⟩ .f32 0x00000000#32)) = relu a := by
  funext i
  show max (a i) (broadcastInDim ⟨2, ![n, k]⟩ ![] h (constant (F := Ideal) ⟨0, ![]⟩ .f32 0x00000000#32) i) = max (a i) floor0
  rw [broadcastInDim_apply ![] h _ i ix0 (fun a => a.elim0)]
  rfl

end Cert.LibRowStages

end
-- ==== Proof.Stages.lean ====
/-
  The stages of the two-layer bipartite graph convolution, as functions on matrices of extended reals.

  A linear stage is a matrix product plus a bias row.  A convolution stage takes the neighbour sums agg, scales row p by
  the reciprocal degree s(p, 0), multiplies by the left weights, adds the bias row, and adds the destination features
  times the right weights.  Every such stage works one row at a time: row p of the result depends on row p of each
  matrix operand (and on the whole weight matrices), so a stage computed on a block of rows is the same rows of the
  stage of the whole matrices.  Nothing is distributed or cancelled, so all of this holds at the infinities too.

  The mean of the neighbour sums is spelt in two ways: the product with the reciprocal 1 / c, and the quotient by c.  On
  the extended reals the two agree as soon as c is not zero, and a degree floored at one never is.
-/
import Idealize.ShloMosaic.PureOps.Ideal
import Idealize.ShloMosaic.PureOps.Ideal.Laws
import Idealize.ShloMosaic.Lib.ValueIdx
import proofs.«159460_j70523363000941_2_alg».proof.Proof.LibRowStages

noncomputable section

open scoped BigOperators

namespace Cert.Stages

open Idealize.ShloMosaic Idealize.ShloMosaic.ValueIdx Cert.LibRowStages

/-- Row p scaled by its own factor s(p, 0). -/
def scaleRows {n k : ℕ} (a : Mat n k) (s : Mat n 1) : Mat n k :=
  fun i => a i * s (ix2 (i 0) (0 : Fin 1))

/-- The entrywise sum of two matrices. -/
def addM {n k : ℕ} (a b : Mat n k) : Mat n k := fun i => a i + b i

/-- A linear stage: x · wt plus the bias row. -/
def lin {n k d : ℕ} (x : Mat n k) (wt : Mat k d) (b : Mat 1 d) : Mat n d := addRow (mm x wt) b

/-- A convolution stage: (agg scaled row by row by s) · wl plus the bias row, plus xd · wr. -/
def comb {n k d : ℕ} (agg : Mat n k) (s : Mat n 1) (xd : Mat n k) (wl : Mat k d) (bl : Mat 1 d) (wr : Mat k d) : Mat n d :=
  addM (addRow (mm (scaleRows agg s) wl) bl) (mm xd wr)

theorem scaleRows_row {m n k : ℕ} {ab : Mat m k} {sb : Mat m 1} {q : Fin m} {a : Mat n k} {s : Mat n 1} {p : Fin n}
    (h : RowEq ab q a p) (hs : RowEq sb q s p) : RowEq (scaleRows ab sb) q (scaleRows a s) p := fun j => by
  show ab (ix2 q j) * sb (ix2 q (0 : Fin 1)) = a (ix2 p j) * s (ix2 p (0 : Fin 1))
  rw [h j, hs 0]

theorem addM_row {m n k : ℕ} {ab bb : Mat m k} {q : Fin m} {a b : Mat n k} {p : Fin n}
    (h : RowEq ab q a p) (h' : RowEq bb q b p) : RowEq (addM ab bb) q (addM a b) p := fun j => by
  show ab (ix2 q j) + bb (ix2 q j) = a (ix2 p j) + b (ix2 p j)
  rw [h j, h' j]

theorem lin_row {m n k d : ℕ} {xb : Mat m k} {q : Fin m} {x : Mat n k} {p : Fin n} (h : RowEq xb q x p)
    (wt : Mat k d) (b : Mat 1 d) : RowEq (lin xb wt b) q (lin x wt b) p :=
  addRow_row (mm_row h wt) b

theorem comb_row {m n k d : ℕ} {aggb : Mat m k} {sb : Mat m 1} {xdb : Mat m k} {q : Fin m}
    {agg : Mat n k} {s : Mat n 1} {xd : Mat n k} {p : Fin n}
    (h : RowEq aggb q agg p) (hs : RowEq sb q s p) (hx : RowEq xdb q xd p) (wl : Mat k d) (bl : Mat 1 d) (wr : Mat k d) :
    RowEq (comb aggb sb xdb wl bl wr) q (comb agg s xd wl bl wr) p :=
  addM_row (addRow_row (mm_row (scaleRows_row h hs) wl) bl) (mm_row hx wr)

/-- The product with the reciprocal of c is the quotient by c, for c not zero (at the infinities too). -/
theorem mul_recip_eq_div (x one c : EReal) (h1 : one = 1) (hc : c ≠ 0) : x * Ideal.div one c = Ideal.div x c := by
  subst h1
  unfold Ideal.div
  rw [if_neg hc, if_neg hc, one_mul]

/-- A number floored at a positive one is not zero. -/
theorem max_ne_zero (x one : EReal) (h1 : 0 < one) : max x one ≠ 0 :=
  ne_of_gt (lt_of_lt_of_le h1 (le_max_right x one))

/-- The normalized inner product of two rows: each row divided by its norm floored at eps, then multiplied entry by
    entry and summed. -/
def decodeRow {d : ℕ} (eps : EReal) (a b : Fin d → EReal) : EReal :=
  ∑ o : Fin d, Ideal.div (a o) (max (Ideal.sqrt (∑ o' : Fin d, a o' * a o')) eps)
    * Ideal.div (b o) (max (Ideal.sqrt (∑ o' : Fin d, b o' * b o')) eps)

/-- Row p of a matrix. -/
def rowOf {n d : ℕ} (a : Mat n d) (p : Fin n) : Fin d → EReal := fun o => a (ix2 p o)

end Cert.Stages

end
-- ==== Proof.LibBroadcastInDim.lean ====
/-
  THREE BROADCASTS READ AT AN INDEX. A vector `[E]` laid as a column `[E, 1]` reads the vector at the row; a column
  `[E, 1]` spread over `D` columns reads the column at the row, whatever the column; a scalar spread over any shape
  reads the scalar. Each is the library's `broadcastInDim_apply` with the operand index named and its coordinates
  discharged axis by axis (the scalar has no axis; the library's `broadcastInDim_scalar_apply` is the same fact at
  the empty vector literal for `dims`).
-/
import Idealize.ShloMosaic.Lib.ValueIdx
import Idealize.ShloMosaic.Lib.Pipeline.Value

namespace Cert.LibBroadcastInDim

open Idealize.ShloMosaic Idealize.ShloMosaic.ValueIdx

/-- A vector as a column: element `(e, u)` of the column is element `e` of the vector (also when `E = 1`, where the
    operand's one axis is a unit axis read at `0 = e`). -/
theorem vec_col_apply {α : Type} {E : ℕ} (h : (⟨1, ![E]⟩ : Shape).BroadcastsInDim ⟨2, ![E, 1]⟩ ![0])
    (v : (⟨1, ![E]⟩ : Shape).Idx → α) (e : Fin E) (u : Fin 1) :
    broadcastInDim ⟨2, ![E, 1]⟩ ![0] h v (ix2 e u) = v (ix1 e) :=
  broadcastInDim_apply ![0] h v (ix2 e u) (ix1 e) (fun a => by
    match a with
    | ⟨0, _⟩ =>
      show e.val = if E = 1 then 0 else e.val
      split
      · have := e.isLt; omega
      · rfl)

/-- A column spread over `D` columns: element `(e, f)` is the column's element `(e, 0)` (the operand's second axis is a
    unit axis; its first is read at the row, also when `E = 1`). -/
theorem col_mat_apply {α : Type} {E D : ℕ} (h : (⟨2, ![E, 1]⟩ : Shape).BroadcastsInDim ⟨2, ![E, D]⟩ ![0, 1])
    (v : (⟨2, ![E, 1]⟩ : Shape).Idx → α) (e : Fin E) (f : Fin D) :
    broadcastInDim ⟨2, ![E, D]⟩ ![0, 1] h v (ix2 e f) = v (ix2 e (0 : Fin 1)) :=
  broadcastInDim_apply ![0, 1] h v (ix2 e f) (ix2 e (0 : Fin 1)) (fun a => by
    match a with
    | ⟨0, _⟩ =>
      show e.val = if E = 1 then 0 else e.val
      split
      · have := e.isLt; omega
      · rfl
    | ⟨1, _⟩ => rfl)

/-- A scalar spread over any shape reads the scalar: there is one map from no axes, so `dims` is the empty one. -/
theorem scalar_apply {α : Type} {t : Shape} (dims : Fin 0 → Fin t.rank)
    (h : (⟨0, ![]⟩ : Shape).BroadcastsInDim t dims) (v : (⟨0, ![]⟩ : Shape).Idx → α) (j : t.Idx) :
    broadcastInDim t dims h v j = v ix0 :=
  broadcastInDim_apply dims h v j ix0 (fun a => a.elim0)

end Cert.LibBroadcastInDim
-- ==== Proof.LibKeepdims.lean ====
/-
  Two layout operations of a "keep the reduced axis" column, read at an index: a vector [a] cast to a column [a, 1],
  and a column [a, 1] broadcast along a second axis to [a, b]. General in the extents and in the element type.
-/
import Idealize.ShloMosaic.Lib.Pipeline.Value
import Idealize.ShloMosaic.Lib.ValueIdx

noncomputable section

namespace Cert.LibKeepdims

open Idealize.ShloMosaic Idealize.ShloMosaic.ValueIdx

variable {α : Type}

/-- An `[a]` array cast to the column `[a, 1]` reads, at `(i, 0)`, the operand at `i`: both sit at row-major
    position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : Fin 1).val = if (1 : ℕ) = 1 then 0 else c.val
    rw [if_pos rfl]; rfl

end Cert.LibKeepdims

end
-- ==== Proof.MeanLaw.lean ====
/-
  The mean of the neighbour sums, spelt by the host as a quotient and by the kernel as a product.

  The host divides row p of the sums by the degree of p floored at one, spread along the row.  The kernel multiplies row
  p by the reciprocal of that floored degree, kept as a one-column matrix.  The word 0x3F800000 of the 32-bit float format
  denotes the number one, a number floored at one is not zero, and off zero the quotient by c is the product with the
  reciprocal of c on all of the extended reals.  So the two matrices agree entry by entry.
-/
import Idealize.ShloMosaic.PureOps.Ideal
import Idealize.ShloMosaic.PureOps.Ideal.Laws
import Idealize.ShloMosaic.Lib.ValueIdx
import Idealize.ShloMosaic.Lib.Pipeline.Value
import proofs.«159460_j70523363000941_2_alg».proof.Proof.Stages
import proofs.«159460_j70523363000941_2_alg».proof.Proof.LibBroadcastInDim
import proofs.«159460_j70523363000941_2_alg».proof.Proof.LibKeepdims

noncomputable section

open scoped BigOperators

namespace Cert.MeanLaw

open Idealize.ShloMosaic Idealize.ShloMosaic.ValueIdx Cert.LibRowStages Cert.Stages

/-- The word 0x3F800000 of the 32-bit float format denotes one. -/
theorem ofBits_one_f32 : Ideal.ofBits .f32 0x3F800000#32 = 1 := by
  simp [Ideal.ofBits, Ideal.ieee]
  rw [← EReal.coe_mul]
  norm_num

/-- Row p of agg divided by the degree of p floored at one (spread to a column, then along the row) is row p of agg
    scaled by the reciprocal of the floored degree, read from the column the reciprocals are reshaped to. -/
theorem hostMean_eq {n k : ℕ} (h1 : (⟨1, ![n]⟩ : Shape).BroadcastsInDim ⟨2, ![n, 1]⟩ ![0])
    (h2 : (⟨2, ![n, 1]⟩ : Shape).BroadcastsInDim ⟨2, ![n, k]⟩ ![0, 1])
    (h0 : (⟨0, ![]⟩ : Shape).BroadcastsInDim ⟨1, ![n]⟩ ![]) (hc : (⟨1, ![n]⟩ : Shape).ShapeCasts ⟨2, ![n, 1]⟩)
    (agg : FVec Ideal ⟨2, ![n, k]⟩ .f32) (cnt : FVec Ideal ⟨1, ![n]⟩ .f32) :
    Host.divf agg (broadcastInDim ⟨2, ![n, k]⟩ ![0, 1] h2 (broadcastInDim ⟨2, ![n, 1]⟩ ![0] h1
        (maximumf cnt (broadcastInDim ⟨1, ![n]⟩ ![] h0 (constant (F := Ideal) ⟨0, ![]⟩ .f32 0x3F800000#32)))))
      = scaleRows agg (shapeCast ⟨2, ![n, 1]⟩ (Host.divf (broadcastInDim ⟨1, ![n]⟩ ![] h0 (constant (F := Ideal) ⟨0, ![]⟩ .f32 0x3F800000#32))
          (maximumf cnt (broadcastInDim ⟨1, ![n]⟩ ![] h0 (constant (F := Ideal) ⟨0, ![]⟩ .f32 0x3F800000#32)))) hc) := by
  funext i
  obtain ⟨p, j, rfl⟩ : ∃ (p : Fin n) (j : Fin k), i = ix2 p j := ⟨i 0, i 1, eq_ix2 i⟩
  show Ideal.div (agg (ix2 p j)) (broadcastInDim ⟨2, ![n, k]⟩ ![0, 1] h2 (broadcastInDim ⟨2, ![n, 1]⟩ ![0] h1
        (maximumf cnt (broadcastInDim ⟨1, ![n]⟩ ![] h0 (constant (F := Ideal) ⟨0, ![]⟩ .f32 0x3F800000#32)))) (ix2 p j))
    = agg (ix2 p j) * shapeCast ⟨2, ![n, 1]⟩ (Host.divf (broadcastInDim ⟨1, ![n]⟩ ![] h0 (constant (F := Ideal) ⟨0, ![]⟩ .f32 0x3F800000#32))
          (maximumf cnt (broadcastInDim ⟨1, ![n]⟩ ![] h0 (constant (F := Ideal) ⟨0, ![]⟩ .f32 0x3F800000#32)))) hc (ix2 p (0 : Fin 1))
  rw [Cert.LibBroadcastInDim.col_mat_apply h2 _ p j, Cert.LibBroadcastInDim.vec_col_apply h1 _ p 0,
    Cert.LibKeepdims.shapeCast_a_a1_apply _ hc p 0]
  show Ideal.div (agg (ix2 p j)) (max (cnt (ix1 p)) (broadcastInDim ⟨1, ![n]⟩ ![] h0 (constant (F := Ideal) ⟨0, ![]⟩ .f32 0x3F800000#32) (ix1 p)))
    = agg (ix2 p j) * Ideal.div (broadcastInDim ⟨1, ![n]⟩ ![] h0 (constant (F := Ideal) ⟨0, ![]⟩ .f32 0x3F800000#32) (ix1 p))
        (max (cnt (ix1 p)) (broadcastInDim ⟨1, ![n]⟩ ![] h0 (constant (F := Ideal) ⟨0, ![]⟩ .f32 0x3F800000#32) (ix1 p)))
  rw [Cert.LibBroadcastInDim.scalar_apply ![] h0 _ (ix1 p)]
  have h1' : (constant (F := Ideal) ⟨0, ![]⟩ .f32 0x3F800000#32 ix0 : EReal) = 1 := ofBits_one_f32
  rw [h1']
  exact (mul_recip_eq_div _ 1 _ rfl (max_ne_zero _ 1 zero_lt_one)).symm

end Cert.MeanLaw

end
-- ==== Proof.RefStages.lean ====
/-
  The reference's stages, each as one of the row-wise stage functions of the arguments.

  The reference program computes every layer on the host: a contraction with the transposed weights, a bias vector placed
  as a row and spread over the rows, a division of the neighbour sums by the floored degree spread along the rows, the
  sum with the destination features' contraction, and for the first layer the floor at zero.  Entry by entry these are the
  linear stage and the convolution stage on matrices of extended reals; the quotient by the floored degree is the product
  with its reciprocal (the degree floored at one is never zero).  The second layer recomputes the degrees that the first
  layer already used: the same scatter of ones, so the same numbers.
-/
import proofs.«159460_j70523363000941_2_alg».proof.Proof.Gen.KernelIdeal
import proofs.«159460_j70523363000941_2_alg».proof.Proof.Gen.ReferenceIdeal.Read
import proofs.«159460_j70523363000941_2_alg».proof.Proof.Stages
import proofs.«159460_j70523363000941_2_alg».proof.Proof.MeanLaw

set_option maxRecDepth 16384

noncomputable section

namespace Cert.RefStages

open Idealize.ShloMosaic Idealize.ShloMosaic.ValueIdx
open Cert.KernelIdeal Cert.KernelIdeal.Gen
open Cert.ReferenceIdeal.Read
open Cert.Stages Cert.LibRowStages Cert.MeanLaw

/-- The user projection: x_user · Wuᵀ plus the bias row. -/
theorem ref_v4 (x0 : (⟨S100000x128, .f32⟩ : BufTy).Contents (Elt Ideal)) (x6 : (⟨S128x128, .f32⟩ : BufTy).Contents (Elt Ideal)) (x7 : (⟨S128, .f32⟩ : BufTy).Contents (Elt Ideal)) :
    val_main_v4 (F := Ideal) x0 x6 x7 = lin (n := 100000) (k := 128) (d := 128) x0 (transpose S128x128 [1, 0] x6 transposes_S128x128_S128x128_1_0) (shapeCast S1x128 x7 shapeCasts_S128_S1x128) := by
  unfold val_main_v4 val_main_v3 val_main_v2 val_main_v1 val_main_v0
  rw [dotGeneral_eq_mm _ rfl rfl rfl rfl rfl rfl, addf_hostBias_eq_addRow _ _ shapeCasts_S128_S1x128]
  rfl

/-- The recipe projection: x_recipe · Wrecᵀ plus the bias row. -/
theorem ref_v9 (x1 : (⟨S50000x256, .f32⟩ : BufTy).Contents (Elt Ideal)) (x8 : (⟨S128x256, .f32⟩ : BufTy).Contents (Elt Ideal)) (x9 : (⟨S128, .f32⟩ : BufTy).Contents (Elt Ideal)) :
    val_main_v9 (F := Ideal) x1 x8 x9 = lin (n := 50000) (k := 256) (d := 128) x1 (transpose S256x128 [1, 0] x8 transposes_S128x256_S256x128_1_0) (shapeCast S1x128 x9 shapeCasts_S128_S1x128) := by
  unfold val_main_v9 val_main_v8 val_main_v7 val_main_v6 val_main_v5
  rw [dotGeneral_eq_mm _ rfl rfl rfl rfl rfl rfl, addf_hostBias_eq_addRow _ _ shapeCasts_S128_S1x128]
  rfl

/-- Layer one at the recipes: the floor at zero of the convolution stage of the user features' neighbour sums. -/
theorem ref_v37 (x0 : (⟨S100000x128, .f32⟩ : BufTy).Contents (Elt Ideal)) (x1 : (⟨S50000x256, .f32⟩ : BufTy).Contents (Elt Ideal)) (x2 : (⟨S600000, .i32⟩ : BufTy).Contents (Elt Ideal)) (x3 : (⟨S600000, .i32⟩ : BufTy).Contents (Elt Ideal)) (x6 : (⟨S128x128, .f32⟩ : BufTy).Contents (Elt Ideal)) (x7 : (⟨S128, .f32⟩ : BufTy).Contents (Elt Ideal)) (x8 : (⟨S128x256, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) (x12 : (⟨S128x128, .f32⟩ : BufTy).Contents (Elt Ideal)) :
    val_main_v37 (F := Ideal) x0 x1 x2 x3 x6 x7 x8 x9 x10 x11 x12
      = relu (comb (n := 50000) (k := 128) (d := 128) (val_main_v19 (F := Ideal) x0 x2 x3 x6 x7)
          (shapeCast S50000x1 (Host.divf (broadcastInDim S50000 ![] bcast_S_S50000 (constant (F := Ideal) S_ .f32 0x3F800000#32)) (val_main_v25 (F := Ideal) x3)) shapeCasts_S50000_S50000x1) (val_main_v9 (F := Ideal) x1 x8 x9)
          (transpose S128x128 [1, 0] x10 transposes_S128x128_S128x128_1_0) (shapeCast S1x128 x11 shapeCasts_S128_S1x128) (transpose S128x128 [1, 0] x12 transposes_S128x128_S128x128_1_0)) := by
  unfold val_main_v37 val_main_call0_v0 val_main_call0_cst val_main_v36 val_main_v35 val_main_v34 val_main_v33 val_main_v32 val_main_v31
    val_main_v30 val_main_v29 val_main_v28 val_main_v27 val_main_v26 val_main_v25 val_main_v24 val_main_cst_3
  rw [maximumf_hostZero_eq_relu, dotGeneral_eq_mm _ rfl rfl rfl rfl rfl rfl, dotGeneral_eq_mm _ rfl rfl rfl rfl rfl rfl, addf_hostBias_eq_addRow _ _ shapeCasts_S128_S1x128,
    hostMean_eq _ _ _ shapeCasts_S50000_S50000x1]
  rfl

/-- Layer one at the users. -/
theorem ref_v65 (x0 : (⟨S100000x128, .f32⟩ : BufTy).Contents (Elt Ideal)) (x1 : (⟨S50000x256, .f32⟩ : BufTy).Contents (Elt Ideal)) (x2 : (⟨S600000, .i32⟩ : BufTy).Contents (Elt Ideal)) (x3 : (⟨S600000, .i32⟩ : BufTy).Contents (Elt Ideal)) (x6 : (⟨S128x128, .f32⟩ : BufTy).Contents (Elt Ideal)) (x7 : (⟨S128, .f32⟩ : BufTy).Contents (Elt Ideal)) (x8 : (⟨S128x256, .f32⟩ : BufTy).Contents (Elt Ideal)) (x9 : (⟨S128, .f32⟩ : BufTy).Contents (Elt Ideal)) (x13 : (⟨S128x128, .f32⟩ : BufTy).Contents (Elt Ideal)) (x14 : (⟨S128, .f32⟩ : BufTy).Contents (Elt Ideal)) (x15 : (⟨S128x128, .f32⟩ : BufTy).Contents (Elt Ideal)) :
    val_main_v65 (F := Ideal) x0 x1 x2 x3 x6 x7 x8 x9 x13 x14 x15
      = relu (comb (n := 100000) (k := 128) (d := 128) (val_main_v47 (F := Ideal) x1 x2 x3 x8 x9)
          (shapeCast S100000x1 (Host.divf (broadcastInDim S100000 ![] bcast_S_S100000 (constant (F := Ideal) S_ .f32 0x3F800000#32)) (val_main_v53 (F := Ideal) x2)) shapeCasts_S100000_S100000x1) (val_main_v4 (F := Ideal) x0 x6 x7)
          (transpose S128x128 [1, 0] x13 transposes_S128x128_S128x128_1_0) (shapeCast S1x128 x14 shapeCasts_S128_S1x128) (transpose S128x128 [1, 0] x15 transposes_S128x128_S128x128_1_0)) := by
  unfold val_main_v65 val_main_call1_v0 val_main_call1_cst val_main_v64 val_main_v63 val_main_v62 val_main_v61 val_main_v60 val_main_v59
    val_main_v58 val_main_v57 val_main_v56 val_main_v55 val_main_v54 val_main_v53 val_main_v52 val_main_cst_9
  rw [maximumf_hostZero_eq_relu, dotGeneral_eq_mm _ rfl rfl rfl rfl rfl rfl, dotGeneral_eq_mm _ rfl rfl rfl rfl rfl rfl, addf_hostBias_eq_addRow _ _ shapeCasts_S128_S1x128,
    hostMean_eq _ _ _ shapeCasts_S100000_S100000x1]
  rfl

/-- Layer two at the recipes (no floor): the degrees are the ones layer one used. -/
theorem ref_v92 (x0 : (⟨S100000x128, .f32⟩ : BufTy).Contents (Elt Ideal)) (x1 : (⟨S50000x256, .f32⟩ : BufTy).Contents (Elt Ideal)) (x2 : (⟨S600000, .i32⟩ : BufTy).Contents (Elt Ideal)) (x3 : (⟨S600000, .i32⟩ : BufTy).Contents (Elt Ideal)) (x6 : (⟨S128x128, .f32⟩ : BufTy).Contents (Elt Ideal)) (x7 : (⟨S128, .f32⟩ : BufTy).Contents (Elt Ideal)) (x8 : (⟨S128x256, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) (x12 : (⟨S128x128, .f32⟩ : BufTy).Contents (Elt Ideal)) (x13 : (⟨S128x128, .f32⟩ : BufTy).Contents (Elt Ideal)) (x14 : (⟨S128, .f32⟩ : BufTy).Contents (Elt Ideal)) (x15 : (⟨S128x128, .f32⟩ : BufTy).Contents (Elt Ideal)) (x16 : (⟨S64x128, .f32⟩ : BufTy).Contents (Elt Ideal)) (x17 : (⟨S64, .f32⟩ : BufTy).Contents (Elt Ideal)) (x18 : (⟨S64x128, .f32⟩ : BufTy).Contents (Elt Ideal)) :
    val_main_v92 (F := Ideal) x0 x1 x2 x3 x6 x7 x8 x9 x10 x11 x12 x13 x14 x15 x16 x17 x18
      = comb (n := 50000) (k := 128) (d := 64) (val_main_v75 (F := Ideal) x0 x1 x2 x3 x6 x7 x8 x9 x13 x14 x15)
          (shapeCast S50000x1 (Host.divf (broadcastInDim S50000 ![] bcast_S_S50000 (constant (F := Ideal) S_ .f32 0x3F800000#32)) (val_main_v25 (F := Ideal) x3)) shapeCasts_S50000_S50000x1) (val_main_v37 (F := Ideal) x0 x1 x2 x3 x6 x7 x8 x9 x10 x11 x12)
          (transpose S128x64 [1, 0] x16 transposes_S64x128_S128x64_1_0) (shapeCast S1x64 x17 shapeCasts_S64_S1x64) (transpose S128x64 [1, 0] x18 transposes_S64x128_S128x64_1_0) := by
  unfold val_main_v92 val_main_v91 val_main_v90 val_main_v89 val_main_v88 val_main_v87
    val_main_v86 val_main_v85 val_main_v84 val_main_v83 val_main_v82 val_main_v81 val_main_v80 val_main_cst_15
  rw [dotGeneral_eq_mm _ rfl rfl rfl rfl rfl rfl, dotGeneral_eq_mm _ rfl rfl rfl rfl rfl rfl, addf_hostBias_eq_addRow _ _ shapeCasts_S64_S1x64,
    hostMean_eq _ _ _ shapeCasts_S50000_S50000x1]
  rfl

/-- Layer two at the users (no floor). -/
theorem ref_v119 (x0 : (⟨S100000x128, .f32⟩ : BufTy).Contents (Elt Ideal)) (x1 : (⟨S50000x256, .f32⟩ : BufTy).Contents (Elt Ideal)) (x2 : (⟨S600000, .i32⟩ : BufTy).Contents (Elt Ideal)) (x3 : (⟨S600000, .i32⟩ : BufTy).Contents (Elt Ideal)) (x6 : (⟨S128x128, .f32⟩ : BufTy).Contents (Elt Ideal)) (x7 : (⟨S128, .f32⟩ : BufTy).Contents (Elt Ideal)) (x8 : (⟨S128x256, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) (x12 : (⟨S128x128, .f32⟩ : BufTy).Contents (Elt Ideal)) (x13 : (⟨S128x128, .f32⟩ : BufTy).Contents (Elt Ideal)) (x14 : (⟨S128, .f32⟩ : BufTy).Contents (Elt Ideal)) (x15 : (⟨S128x128, .f32⟩ : BufTy).Contents (Elt Ideal)) (x19 : (⟨S64x128, .f32⟩ : BufTy).Contents (Elt Ideal)) (x20 : (⟨S64, .f32⟩ : BufTy).Contents (Elt Ideal)) (x21 : (⟨S64x128, .f32⟩ : BufTy).Contents (Elt Ideal)) :
    val_main_v119 (F := Ideal) x0 x1 x2 x3 x6 x7 x8 x9 x10 x11 x12 x13 x14 x15 x19 x20 x21
      = comb (n := 100000) (k := 128) (d := 64) (val_main_v102 (F := Ideal) x0 x1 x2 x3 x6 x7 x8 x9 x10 x11 x12)
          (shapeCast S100000x1 (Host.divf (broadcastInDim S100000 ![] bcast_S_S100000 (constant (F := Ideal) S_ .f32 0x3F800000#32)) (val_main_v53 (F := Ideal) x2)) shapeCasts_S100000_S100000x1) (val_main_v65 (F := Ideal) x0 x1 x2 x3 x6 x7 x8 x9 x13 x14 x15)
          (transpose S128x64 [1, 0] x19 transposes_S64x128_S128x64_1_0) (shapeCast S1x64 x20 shapeCasts_S64_S1x64) (transpose S128x64 [1, 0] x21 transposes_S64x128_S128x64_1_0) := by
  unfold val_main_v119 val_main_v118 val_main_v117 val_main_v116 val_main_v115 val_main_v114
    val_main_v113 val_main_v112 val_main_v111 val_main_v110 val_main_v109 val_main_v108 val_main_v107 val_main_cst_21
  rw [dotGeneral_eq_mm _ rfl rfl rfl rfl rfl rfl, dotGeneral_eq_mm _ rfl rfl rfl rfl rfl rfl, addf_hostBias_eq_addRow _ _ shapeCasts_S64_S1x64,
    hostMean_eq _ _ _ shapeCasts_S100000_S100000x1]
  rfl

end Cert.RefStages

end
-- ==== Proof.Linear.lean ====
/-
  The two linear projections, read off the program's run.

  Each projection multiplies a feature matrix by a weight matrix and adds a bias row to every row.  The kernel does it
  5000 rows at a time: at grid point t it holds rows 5000 t … 5000 t + 4999 of the features, the whole weight matrix and
  the whole bias row, and writes the same rows of the result.  A linear stage works one row at a time — row p of the
  result depends on row p of the features only —, so the stage of a block of rows is the same rows of the stage of the
  whole matrix: point t writes block t of x · wt + b.  The blocks of the grid's points tile the result array (row r lies
  in the block of point r / 5000), so the array ends holding x · wt + b.  The changes of float format in the body change
  no extended real.
-/
import proofs.«159460_j70523363000941_2_alg».proof.Proof.Gen.KernelIdeal.Frame
import proofs.«159460_j70523363000941_2_alg».proof.Proof.Stages
import Idealize.ShloMosaic.Lib.Pipeline.Value

set_option maxRecDepth 16384

noncomputable section

namespace Cert.KValue.Linear

open Cert.KernelIdeal Cert.KernelIdeal.Gen Cert.Stages Cert.LibRowStages
open Idealize.ShloMosaic Idealize.ShloMosaic.TcCoe Idealize.ShloMosaic.ValueIdx Idealize.SL.Sem
open Idealize.ShloMosaic.Pipeline (Dat)

/-- The zero offsets of a whole-block access, however they are spelt. -/
theorem hz : (![0, 0] : Fin 2 → Nat) = fun _ => 0 := funext fun a => by fin_cases a <;> rfl

/-- Entry j of the linear stage of a block is entry i of the linear stage of the whole matrix, as soon as row j(0) of
    the block is row i(0) of the matrix and the two column coordinates agree: a linear stage works one row at a time. -/
theorem lin_at {mb n k d : ℕ} (xb : Mat mb k) (x : Mat n k) (w : Mat k d) (b : Mat 1 d)
    (jb : (⟨2, ![mb, d]⟩ : Shape).Idx) (i : (⟨2, ![n, d]⟩ : Shape).Idx)
    (hrow : ∀ o : Fin k, xb (ix2 (jb 0) o) = x (ix2 (i 0) o)) (h1 : (jb 1).val = (i 1).val) :
    lin xb w b jb = lin x w b i := by
  have e1 : jb 1 = i 1 := Fin.ext h1
  have hr : lin xb w b (ix2 (jb 0) (jb 1)) = lin x w b (ix2 (i 0) (jb 1)) :=
    lin_row (xb := xb) (q := jb 0) (x := x) (p := i 0) hrow w b (jb 1)
  calc lin xb w b jb = lin xb w b (ix2 (jb 0) (jb 1)) := congrArg _ (eq_ix2 jb)
    _ = lin x w b (ix2 (i 0) (jb 1)) := hr
    _ = lin x w b (ix2 (i 0) (i 1)) := by rw [e1]
    _ = lin x w b i := congrArg _ (eq_ix2 i).symm

/-! ## Region 0: the projection of the 100000-row feature matrix -/

/-- The body's stored value in region 0 is the linear stage of its three loaded blocks: the product into the zero
    accumulator is the matrix product, the spread bias row added is the bias added to every row. -/
theorem pay0_eq (x0 : Vec Ideal S5000x128 .f32) (x1 : Vec Ideal S128x128 .f32) (x2 : Vec Ideal S1x128 .f32) :
    k0_pay1 (F := Ideal) x0 x1 x2 = lin (n := 5000) (k := 128) (d := 128) x0 x1 x2 := by
  unfold k0_pay1
  rw [shapeCast_self, shapeCast_self]
  exact (addf_spread_eq_addRow (n := 5000) (k := 128) broadcasts_S1x128_S5000x128 _ x2).trans
    (congrArg (fun z => addRow z x2)
      (matmul_eq_mm (n := 5000) (k := 128) (d := 128) (φ₁ := .bf16) (φ₂ := .bf16) dot_S5000x128_S128x128_S5000x128_1_0_0_1_n_n rfl rfl rfl rfl rfl rfl none x0 x1))

section Region0

variable (V : (c : Dev nD) → (b : Ref sig .tc) → Buf (Elt Ideal) ((c : Thread nD τ).loc b))

/-- The index maps over the grid: the row-blocked windows move with the grid point, the whole-array windows stay. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row q of the feature block at point t is row 5000 t + q of the feature matrix. -/
theorem iblk0_0_apply (c : Dev nD) (t : Fin cfg0.N) (y : S5000x128.Idx) (i : S100000x128.Idx)
    (h0 : (i 0).val = t.val * 5000 + (y 0).val) (h1 : (i 1).val = (y 1).val) :
    (iblk0 V c 0 t : Vec Ideal S5000x128 .f32) y = (V c main_arg0 : S100000x128.Idx → EReal) i := by
  obtain ⟨e0, e1, -⟩ := idx_facts0 t
  unfold iblk0
  rw [View.read_apply]
  show V c main_arg0 _ = V c main_arg0 _
  congr 1
  funext a
  apply Fin.ext
  match a with
  | ⟨0, _⟩ => show win0_0.index t (0 : Fin 2) * 5000 + 1 * (y 0).val = (i 0).val; rw [e0, h0]; omega
  | ⟨1, _⟩ => show win0_0.index t (1 : Fin 2) * 128 + 1 * (y 1).val = (i 1).val; rw [e1, h1]; omega

/-- The weight window's block is the weight matrix at every point. -/
theorem iblk0_1_eq (c : Dev nD) (t : Fin cfg0.N) :
    (iblk0 V c 1 t : Vec Ideal S128x128 .f32) = (V c main_v0 : S128x128.Idx → EReal) := by
  obtain ⟨-, -, e0, e1, -⟩ := idx_facts0 t
  funext y
  unfold iblk0
  rw [View.read_apply]
  show V c main_v0 _ = V c main_v0 y
  congr 1
  funext a
  apply Fin.ext
  match a with
  | ⟨0, _⟩ => show win0_1.index t (0 : Fin 2) * 128 + 1 * (y 0).val = (y 0).val; rw [e0]; omega
  | ⟨1, _⟩ => show win0_1.index t (1 : Fin 2) * 128 + 1 * (y 1).val = (y 1).val; rw [e1]; omega

/-- The bias window's block is the bias row at every point. -/
theorem iblk0_2_eq (c : Dev nD) (t : Fin cfg0.N) :
    (iblk0 V c 2 t : Vec Ideal S1x128 .f32) = (V c main_v1 : S1x128.Idx → EReal) := by
  obtain ⟨-, -, -, -, e0, e1, -⟩ := idx_facts0 t
  funext y
  unfold iblk0
  rw [View.read_apply]
  show V c main_v1 _ = V c main_v1 y
  congr 1
  funext a
  apply Fin.ext
  match a with
  | ⟨0, _⟩ => show win0_2.index t (0 : Fin 2) * 1 + 1 * (y 0).val = (y 0).val; rw [e0]; omega
  | ⟨1, _⟩ => show win0_2.index t (1 : Fin 2) * 128 + 1 * (y 1).val = (y 1).val; rw [e1]; omega

set_option backward.isDefEq.respectTransparency.types false in
/-- What point t writes back to the result array is block t of the linear stage of the whole arrays. -/
theorem flushed0_eq (c : Dev nD) (t : Fin cfg0.N) :
    (dat0 (F := Ideal) V c).flushed 3 t = ((cfg0.win 3).blk t).view.read (Elt Ideal)
      (lin (n := 100000) (k := 128) (d := 128) (V c main_arg0) (V c main_v0) (V c main_v1)) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz, View.ld_unit_zero (S := S1x128) hz]
  rw [pay0_eq, iblk0_1_eq V c t, iblk0_2_eq V c t]
  obtain ⟨-, -, -, -, -, -, e0, e1⟩ := idx_facts0 t
  funext j
  show lin (n := 5000) (k := 128) (d := 128) (iblk0 V c 0 t) (V c main_v0) (V c main_v1) ((cfg0.win 3).xinj (grid0.coords t) j)
    = lin (n := 100000) (k := 128) (d := 128) (V c main_arg0) (V c main_v0) (V c main_v1) (((cfg0.win 3).blk t).view.emb j)
  refine lin_at (mb := 5000) (n := 100000) (k := 128) (d := 128) (iblk0 V c 0 t) (V c main_arg0) (V c main_v0) (V c main_v1)
    ((cfg0.win 3).xinj (grid0.coords t) j) (((cfg0.win 3).blk t).view.emb j) (fun o => ?_) ?_
  · refine iblk0_0_apply V c t _ _ ?_ rfl
    show win0_3.index t (0 : Fin 2) * 5000 + 1 * (j 0).val = t.val * 5000 + (j 0).val
    rw [e0]; omega
  · show (j 1).val = win0_3.index t (1 : Fin 2) * 128 + 1 * (j 1).val
    rw [e1]; omega

/-- An index of the result array is in point t's block iff each coordinate is in the block's range on its axis. -/
theorem mem_blk0 (t : Fin cfg0.N) (i : S100000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v2).slice (win0_3.rect t)).set ↔ _
  rw [View.set_slice_whole, Rect.mem_set_unit]
  exact Iff.rfl

/-- Row r of the result array is in the block of point r / 5000. -/
theorem cover0 (i : S100000x128.Idx) :
    ∃ t : Fin cfg0.N, (cfg0.win 3).flush t = true ∧ i ∈ ((cfg0.win 3).blk t).view.set := by
  have hN : cfg0.N = 20 := N_0
  have hi0 : (i 0).val < 100000 := (i 0).isLt
  have hi1 : (i 1).val < 128 := (i 1).isLt
  let t : Fin cfg0.N := ⟨(i 0).val / 5000, by rw [hN]; omega⟩
  have ht : t.val = (i 0).val / 5000 := rfl
  obtain ⟨-, -, -, -, -, -, e0, e1⟩ := idx_facts0 t
  refine ⟨t, flush0_3 t, ?_⟩
  rw [mem_blk0]
  intro a
  match a with
  | ⟨0, _⟩ =>
    show win0_3.index t (0 : Fin 2) * 5000 ≤ (i 0).val ∧ (i 0).val < win0_3.index t (0 : Fin 2) * 5000 + 5000
    rw [e0, ht]; omega
  | ⟨1, _⟩ =>
    show win0_3.index t (1 : Fin 2) * 128 ≤ (i 1).val ∧ (i 1).val < win0_3.index t (1 : Fin 2) * 128 + 128
    rw [e1]; omega

/-- After region 0 the result array holds the linear stage of the arrays the region found. -/
theorem final0 (c : Dev nD) : (dat0 (F := Ideal) V c).arrAt 3 cfg0.N
    = lin (n := 100000) (k := 128) (d := 128) (V c main_arg0) (V c main_v0) (V c main_v1) :=
  (dat0 V c).arrAt_eq_of_cover 3 _ (fun t _ => flushed0_eq V c t) cover0

end Region0

/-- The first projection: the 100000-row feature matrix times its weights plus its bias row. -/
theorem out0 (m : (ℓ : Loc nD τ sig) → Buf (Elt Ideal) ℓ) (ρ : Dev nD → PrngReg) (c : Dev nD) :
    Gen.W2 (F := Ideal) m ρ c (Proc.devRef .tc main_v2)
      = lin (n := 100000) (k := 128) (d := 128) (Gen.V1 m ρ c main_arg0) (Gen.V1 m ρ c main_v0) (Gen.V1 m ρ c main_v1) :=
  (Gen.W2_arr m ρ c 3).trans (final0 (Gen.V1 m ρ) c)

/-! ## Region 1: the projection of the 50000-row feature matrix -/

/-- The body's stored value in region 1 is the linear stage of its three loaded blocks. -/
theorem pay1_eq (x0 : Vec Ideal S5000x256 .f32) (x1 : Vec Ideal S256x128 .f32) (x2 : Vec Ideal S1x128 .f32) :
    k1_pay1 (F := Ideal) x0 x1 x2 = lin (n := 5000) (k := 256) (d := 128) x0 x1 x2 := by
  unfold k1_pay1
  rw [shapeCast_self, shapeCast_self]
  exact (addf_spread_eq_addRow (n := 5000) (k := 128) broadcasts_S1x128_S5000x128 _ x2).trans
    (congrArg (fun z => addRow z x2)
      (matmul_eq_mm (n := 5000) (k := 256) (d := 128) (φ₁ := .bf16) (φ₂ := .bf16) dot_S5000x256_S256x128_S5000x128_1_0_0_1_n_n rfl rfl rfl rfl rfl rfl none x0 x1))

section Region1

variable (V : (c : Dev nD) → (b : Ref sig .tc) → Buf (Elt Ideal) ((c : Thread nD τ).loc b))

/-- The index maps over the grid: the row-blocked windows move with the grid point, the whole-array windows stay. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row q of the feature block at point t is row 5000 t + q of the feature matrix. -/
theorem iblk1_0_apply (c : Dev nD) (t : Fin cfg1.N) (y : S5000x256.Idx) (i : S50000x256.Idx)
    (h0 : (i 0).val = t.val * 5000 + (y 0).val) (h1 : (i 1).val = (y 1).val) :
    (iblk1 V c 0 t : Vec Ideal S5000x256 .f32) y = (V c main_arg1 : S50000x256.Idx → EReal) i := by
  obtain ⟨e0, e1, -⟩ := idx_facts1 t
  unfold iblk1
  rw [View.read_apply]
  show V c main_arg1 _ = V c main_arg1 _
  congr 1
  funext a
  apply Fin.ext
  match a with
  | ⟨0, _⟩ => show win1_0.index t (0 : Fin 2) * 5000 + 1 * (y 0).val = (i 0).val; rw [e0, h0]; omega
  | ⟨1, _⟩ => show win1_0.index t (1 : Fin 2) * 256 + 1 * (y 1).val = (i 1).val; rw [e1, h1]; omega

/-- The weight window's block is the weight matrix at every point. -/
theorem iblk1_1_eq (c : Dev nD) (t : Fin cfg1.N) :
    (iblk1 V c 1 t : Vec Ideal S256x128 .f32) = (V c main_v3 : S256x128.Idx → EReal) := by
  obtain ⟨-, -, e0, e1, -⟩ := idx_facts1 t
  funext y
  unfold iblk1
  rw [View.read_apply]
  show V c main_v3 _ = V c main_v3 y
  congr 1
  funext a
  apply Fin.ext
  match a with
  | ⟨0, _⟩ => show win1_1.index t (0 : Fin 2) * 256 + 1 * (y 0).val = (y 0).val; rw [e0]; omega
  | ⟨1, _⟩ => show win1_1.index t (1 : Fin 2) * 128 + 1 * (y 1).val = (y 1).val; rw [e1]; omega

/-- The bias window's block is the bias row at every point. -/
theorem iblk1_2_eq (c : Dev nD) (t : Fin cfg1.N) :
    (iblk1 V c 2 t : Vec Ideal S1x128 .f32) = (V c main_v4 : S1x128.Idx → EReal) := by
  obtain ⟨-, -, -, -, e0, e1, -⟩ := idx_facts1 t
  funext y
  unfold iblk1
  rw [View.read_apply]
  show V c main_v4 _ = V c main_v4 y
  congr 1
  funext a
  apply Fin.ext
  match a with
  | ⟨0, _⟩ => show win1_2.index t (0 : Fin 2) * 1 + 1 * (y 0).val = (y 0).val; rw [e0]; omega
  | ⟨1, _⟩ => show win1_2.index t (1 : Fin 2) * 128 + 1 * (y 1).val = (y 1).val; rw [e1]; omega

set_option backward.isDefEq.respectTransparency.types false in
/-- What point t writes back to the result array is block t of the linear stage of the whole arrays. -/
theorem flushed1_eq (c : Dev nD) (t : Fin cfg1.N) :
    (dat1 (F := Ideal) V c).flushed 3 t = ((cfg1.win 3).blk t).view.read (Elt Ideal)
      (lin (n := 50000) (k := 256) (d := 128) (V c main_arg1) (V c main_v3) (V c main_v4)) := by
  show (cfg1.win 3).cut (grid1.coords t) ((dat1 V c).after 3 t) = _
  rw [after1_3]
  unfold out1_3
  rw [View.canon_unit_zero hz]
  simp only [View.ld_unit_zero (S := S5000x256) hz, View.ld_unit_zero (S := S256x128) hz, View.ld_unit_zero (S := S1x128) hz]
  rw [pay1_eq, iblk1_1_eq V c t, iblk1_2_eq V c t]
  obtain ⟨-, -, -, -, -, -, e0, e1⟩ := idx_facts1 t
  funext j
  show lin (n := 5000) (k := 256) (d := 128) (iblk1 V c 0 t) (V c main_v3) (V c main_v4) ((cfg1.win 3).xinj (grid1.coords t) j)
    = lin (n := 50000) (k := 256) (d := 128) (V c main_arg1) (V c main_v3) (V c main_v4) (((cfg1.win 3).blk t).view.emb j)
  refine lin_at (mb := 5000) (n := 50000) (k := 256) (d := 128) (iblk1 V c 0 t) (V c main_arg1) (V c main_v3) (V c main_v4)
    ((cfg1.win 3).xinj (grid1.coords t) j) (((cfg1.win 3).blk t).view.emb j) (fun o => ?_) ?_
  · refine iblk1_0_apply V c t _ _ ?_ rfl
    show win1_3.index t (0 : Fin 2) * 5000 + 1 * (j 0).val = t.val * 5000 + (j 0).val
    rw [e0]; omega
  · show (j 1).val = win1_3.index t (1 : Fin 2) * 128 + 1 * (j 1).val
    rw [e1]; omega

/-- An index of the result array is in point t's block iff each coordinate is in the block's range on its axis. -/
theorem mem_blk1 (t : Fin cfg1.N) (i : S50000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v5).slice (win1_3.rect t)).set ↔ _
  rw [View.set_slice_whole, Rect.mem_set_unit]
  exact Iff.rfl

/-- Row r of the result array is in the block of point r / 5000. -/
theorem cover1 (i : S50000x128.Idx) :
    ∃ t : Fin cfg1.N, (cfg1.win 3).flush t = true ∧ i ∈ ((cfg1.win 3).blk t).view.set := by
  have hN : cfg1.N = 10 := N_1
  have hi0 : (i 0).val < 50000 := (i 0).isLt
  have hi1 : (i 1).val < 128 := (i 1).isLt
  let t : Fin cfg1.N := ⟨(i 0).val / 5000, by rw [hN]; omega⟩
  have ht : t.val = (i 0).val / 5000 := rfl
  obtain ⟨-, -, -, -, -, -, e0, e1⟩ := idx_facts1 t
  refine ⟨t, flush1_3 t, ?_⟩
  rw [mem_blk1]
  intro a
  match a with
  | ⟨0, _⟩ =>
    show win1_3.index t (0 : Fin 2) * 5000 ≤ (i 0).val ∧ (i 0).val < win1_3.index t (0 : Fin 2) * 5000 + 5000
    rw [e0, ht]; omega
  | ⟨1, _⟩ =>
    show win1_3.index t (1 : Fin 2) * 128 ≤ (i 1).val ∧ (i 1).val < win1_3.index t (1 : Fin 2) * 128 + 128
    rw [e1]; omega

/-- After region 1 the result array holds the linear stage of the arrays the region found. -/
theorem final1 (c : Dev nD) : (dat1 (F := Ideal) V c).arrAt 3 cfg1.N
    = lin (n := 50000) (k := 256) (d := 128) (V c main_arg1) (V c main_v3) (V c main_v4) :=
  (dat1 V c).arrAt_eq_of_cover 3 _ (fun t _ => flushed1_eq V c t) cover1

end Region1

/-- The second projection: the 50000-row feature matrix times its weights plus its bias row. -/
theorem out1 (m : (ℓ : Loc nD τ sig) → Buf (Elt Ideal) ℓ) (ρ : Dev nD → PrngReg) (c : Dev nD) :
    Gen.W4 (F := Ideal) m ρ c (Proc.devRef .tc main_v5)
      = lin (n := 50000) (k := 256) (d := 128) (Gen.V3 m ρ c main_arg1) (Gen.V3 m ρ c main_v3) (Gen.V3 m ρ c main_v4) :=
  (Gen.W4_arr m ρ c 3).trans (final1 (Gen.V3 m ρ) c)

end Cert.KValue.Linear

end
-- ==== Proof.Conv.lean ====
/-
  The four convolution kernels, from blocks to arrays.

  Each kernel runs over a grid of row blocks of 5000 rows.  At a grid point it reads one block of the neighbour sums,
  of the reciprocal-degree column and of the destination features, and the whole weight matrices and bias row; it
  scales each row of the sums by its reciprocal degree, multiplies by the left weights, adds the bias row, adds the
  destination features times the right weights, and (in the first layer) floors at zero.  Every one of these works one
  row at a time, so row q of the block computed at point t is row 5000 t + q of the same stage applied to the whole
  arrays.  Point t writes its block back to rows 5000 t .. 5000 t + 4999 of the output array, every point writes back,
  and row r lies in the block of point r / 5000: so after the last point the output array is the stage of the whole
  arrays as the kernel found them.
-/
import proofs.«159460_j70523363000941_2_alg».proof.Proof.Gen.KernelIdeal.Frame
import proofs.«159460_j70523363000941_2_alg».proof.Proof.Stages
import proofs.«159460_j70523363000941_2_alg».proof.Proof.LibKeepdims
import Idealize.ShloMosaic.Lib.Pipeline.Value

set_option maxRecDepth 16384

noncomputable section

namespace Cert.KValue.Conv

open Cert.KernelIdeal Cert.KernelIdeal.Gen Cert.Stages Cert.LibRowStages
open Idealize.ShloMosaic Idealize.ShloMosaic.TcCoe Idealize.ShloMosaic.ValueIdx Idealize.SL.Sem
open Idealize.ShloMosaic.Pipeline (Dat)

/-- A matrix scaled entrywise by a column spread along the rows' entries is the matrix with each row scaled by
    its own factor. -/
theorem mulf_spread_eq_scaleRows {n k : ℕ} (h : (⟨2, ![n, 1]⟩ : Shape).Broadcasts ⟨2, ![n, k]⟩)
    (a : FVec Ideal ⟨2, ![n, k]⟩ .f32) (s : FVec Ideal ⟨2, ![n, 1]⟩ .f32) :
    mulf a (broadcastTo ⟨2, ![n, k]⟩ s h) = scaleRows a s := by
  funext i
  obtain ⟨p, j, rfl⟩ : ∃ (p : Fin n) (j : Fin k), i = ix2 p j := ⟨i 0, i 1, eq_ix2 i⟩
  show a (ix2 p j) * broadcastTo ⟨2, ![n, k]⟩ s h (ix2 p j) = a (ix2 p j) * s (ix2 p (0 : Fin 1))
  rw [Cert.LibKeepdims.broadcastTo_a1_ab_apply s h p j]

/-- The entrywise sum of two blocks is the sum of the matrices. -/
theorem addf_eq_addM {n k : ℕ} (a b : FVec Ideal ⟨2, ![n, k]⟩ .f32) : addf a b = addM a b := rfl

/-- The body of the first two convolution kernels, on whole blocks: the rectified convolution stage. -/
theorem pay2_eq (v0 : Vec Ideal S5000x128 .f32) (v2 : Vec Ideal S5000x1 .f32) (v7 : Vec Ideal S5000x128 .bf16)
    (v9 : Vec Ideal S128x128 .f32) (v12 : Vec Ideal S128x128 .f32) (v16 : Vec Ideal S1x128 .f32) :
    k2_pay1 (F := Ideal) v0 v2 v7 v9 v12 v16 = relu (comb (n := 5000) (k := 128) (d := 128) v0 v2 v7 v9 v16 v12) := by
  unfold k2_pay1
  simp only [shapeCast_self]
  have e1 := mulf_spread_eq_scaleRows broadcasts_S5000x1_S5000x128 v0 v2
  have e2 := matmul_eq_mm (φ₁ := .bf16) (φ₂ := .bf16) dot_S5000x128_S128x128_S5000x128_1_0_0_1_n_n rfl rfl rfl rfl rfl rfl none
    (scaleRows (n := 5000) (k := 128) v0 v2) v9
  have e3 := matmul_eq_mm (φ₁ := .bf16) (φ₂ := .bf16) dot_S5000x128_S128x128_S5000x128_1_0_0_1_n_n rfl rfl rfl rfl rfl rfl none v7 v12
  have e4 := addf_spread_eq_addRow broadcasts_S1x128_S5000x128 (mm (n := 5000) (k := 128) (d := 128) (scaleRows v0 v2) v9) v16
  unfold comb
  rw [← e3, ← e4, ← e2, ← e1]
  rfl

/-- The zero offsets of a whole-block access, as a constant function. -/
theorem hz : (![0, 0] : Fin 2 → Nat) = fun _ => 0 := funext fun a => by fin_cases a <;> rfl

/-- One entry of the rectified convolution stage computed on a block of rows: if row q of each row-blocked operand is
    row p of the whole matrix, the entry (q, j) of the block's result is the entry (p, j) of the whole stage. -/
theorem point2 (x0 : Vec Ideal S5000x128 .f32) (x1 : Vec Ideal S5000x1 .f32) (x2 : Vec Ideal S5000x128 .bf16)
    (x3 : Vec Ideal S128x128 .f32) (x4 : Vec Ideal S1x128 .f32) (x5 : Vec Ideal S128x128 .f32)
    {n : ℕ} (A0 : Mat n 128) (A1 : Mat n 1) (A2 : Mat n 128) (q : Fin 5000) (j : Fin 128) (p : Fin n)
    (h0 : RowEq (m := 5000) (k := 128) x0 q A0 p) (h1 : RowEq (m := 5000) (k := 1) x1 q A1 p)
    (h2 : RowEq (m := 5000) (k := 128) x2 q A2 p) :
    k2_pay1 (F := Ideal) x0 x1 x2 x3 x5 x4 (ix2 q j) = relu (comb A0 A1 A2 x3 x4 x5) (ix2 p j) := by
  rw [pay2_eq]
  exact relu_row (comb_row h0 h1 h2 x3 x4 x5) j

section Region2

variable (V : (c : Dev nD) → (b : Ref sig .tc) → Buf (Elt Ideal) ((c : Thread nD τ).loc b))

/-- The printed index maps over the ten grid points: the row-blocked windows sit at block (t, 0), the weights and the
    bias row at block (0, 0). -/
theorem idx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- The rectified convolution stage of the first kernel's whole arrays, as the kernel finds them. -/
def G2 (c : Dev nD) : Mat 50000 128 :=
  relu (comb (n := 50000) (k := 128) (d := 128) (V c main_v33) (V c main_v17) (V c main_v5) (V c main_v34) (V c main_v36) (V c main_v35))

set_option backward.isDefEq.respectTransparency.types false in
/-- What grid point t writes back is rows 5000 t .. 5000 t + 4999 of the stage of the whole arrays: each row of its
    blocks is that row of the arrays, the weights' and the bias row's blocks are the arrays, and the stage works row by row. -/
theorem flushed2_eq (c : Dev nD) (t : Fin cfg2.N) :
    (dat2 V c).flushed 6 t = ((cfg2.win 6).blk t).view.read (Elt Ideal) (G2 V c) := by
  show (cfg2.win 6).cut (grid2.coords t) ((dat2 V c).after 6 t) = _
  rw [after2_6]
  unfold out2_6
  rw [View.canon_unit_zero hz]
  simp only [View.ld_unit_zero (S := S5000x128) hz, View.ld_unit_zero (S := S5000x1) hz,
    View.ld_unit_zero (S := S128x128) hz, View.ld_unit_zero (S := S1x128) hz]
  obtain ⟨i00, i01, i10, i11, i20, i21, i30, i31, i40, i41, i50, i51, i60, i61⟩ := idx2 t
  have hN : cfg2.N = 10 := N_2
  have e3 : (iblk2 V c 3 t : Vec Ideal S128x128 .f32) = V c main_v34 := by
    funext y
    unfold iblk2
    rw [View.read_apply]
    show V c main_v34 _ = V c main_v34 y
    congr 1
    funext a; apply Fin.ext
    match a with
    | ⟨0, _⟩ => show win2_3.index t (0 : Fin 2) * 128 + 1 * (y 0).val = (y 0).val; omega
    | ⟨1, _⟩ => show win2_3.index t (1 : Fin 2) * 128 + 1 * (y 1).val = (y 1).val; omega
  have e4 : (iblk2 V c 4 t : Vec Ideal S1x128 .f32) = V c main_v36 := by
    funext y
    unfold iblk2
    rw [View.read_apply]
    show V c main_v36 _ = V c main_v36 y
    congr 1
    funext a; apply Fin.ext
    match a with
    | ⟨0, _⟩ => show win2_4.index t (0 : Fin 2) * 1 + 1 * (y 0).val = (y 0).val; omega
    | ⟨1, _⟩ => show win2_4.index t (1 : Fin 2) * 128 + 1 * (y 1).val = (y 1).val; omega
  have e5 : (iblk2 V c 5 t : Vec Ideal S128x128 .f32) = V c main_v35 := by
    funext y
    unfold iblk2
    rw [View.read_apply]
    show V c main_v35 _ = V c main_v35 y
    congr 1
    funext a; apply Fin.ext
    match a with
    | ⟨0, _⟩ => show win2_5.index t (0 : Fin 2) * 128 + 1 * (y 0).val = (y 0).val; omega
    | ⟨1, _⟩ => show win2_5.index t (1 : Fin 2) * 128 + 1 * (y 1).val = (y 1).val; omega
  refine funext fun (y : S5000x128.Idx) => ?_
  obtain ⟨q, j, rfl⟩ : ∃ (q : Fin 5000) (j : Fin 128), y = ix2 q j := ⟨y 0, y 1, eq_ix2 y⟩
  have hp : t.val * 5000 + q.val < 50000 := by have := t.isLt; have := q.isLt; omega
  show k2_pay1 (F := Ideal) (iblk2 V c 0 t) (iblk2 V c 1 t) (iblk2 V c 2 t) (iblk2 V c 3 t) (iblk2 V c 5 t) (iblk2 V c 4 t) (ix2 q j)
    = G2 V c (((cfg2.win 6).blk t).view.emb (ix2 q j))
  have hemb : ((cfg2.win 6).blk t).view.emb (ix2 q j) = ix2 (⟨t.val * 5000 + q.val, hp⟩ : Fin 50000) j := by
    funext a; apply Fin.ext
    match a with
    | ⟨0, _⟩ => show win2_6.index t (0 : Fin 2) * 5000 + 1 * q.val = t.val * 5000 + q.val; omega
    | ⟨1, _⟩ => show win2_6.index t (1 : Fin 2) * 128 + 1 * j.val = j.val; omega
  rw [hemb, e3, e4, e5]
  unfold G2
  refine point2 _ _ _ _ _ _ _ _ _ q j _ (fun j' => ?_) (fun j' => ?_) (fun j' => ?_)
  · unfold iblk2
    rw [View.read_apply]
    show V c main_v33 _ = V c main_v33 _
    congr 1
    funext a; apply Fin.ext
    match a with
    | ⟨0, _⟩ => show win2_0.index t (0 : Fin 2) * 5000 + 1 * q.val = t.val * 5000 + q.val; omega
    | ⟨1, _⟩ => show win2_0.index t (1 : Fin 2) * 128 + 1 * j'.val = j'.val; omega
  · unfold iblk2
    rw [View.read_apply]
    show V c main_v17 _ = V c main_v17 _
    congr 1
    funext a; apply Fin.ext
    match a with
    | ⟨0, _⟩ => show win2_1.index t (0 : Fin 2) * 5000 + 1 * q.val = t.val * 5000 + q.val; omega
    | ⟨1, _⟩ => show win2_1.index t (1 : Fin 2) * 1 + 1 * j'.val = j'.val; omega
  · unfold iblk2
    rw [View.read_apply]
    show V c main_v5 _ = V c main_v5 _
    congr 1
    funext a; apply Fin.ext
    match a with
    | ⟨0, _⟩ => show win2_2.index t (0 : Fin 2) * 5000 + 1 * q.val = t.val * 5000 + q.val; omega
    | ⟨1, _⟩ => show win2_2.index t (1 : Fin 2) * 128 + 1 * j'.val = j'.val; omega

/-- An index of the array is in point t's block iff each coordinate is in the block's range on its axis. -/
theorem mem_blk2 (t : Fin cfg2.N) (i : S50000x128.Idx) :
    i ∈ ((cfg2.win 6).blk t).view.set ↔ ∀ a : Fin 2, win2_6.index t a * S5000x128.size a ≤ (i a).val
      ∧ (i a).val < win2_6.index t a * S5000x128.size a + S5000x128.size a := by
  show i ∈ ((View.whole main_v37).slice (win2_6.rect t)).set ↔ _
  rw [View.set_slice_whole, Rect.mem_set_unit]
  exact Iff.rfl

/-- Every row r of the array is in the block of the point r / 5000, and every point writes back. -/
theorem cover2 (i : S50000x128.Idx) :
    ∃ t : Fin cfg2.N, (cfg2.win 6).flush t = true ∧ i ∈ ((cfg2.win 6).blk t).view.set := by
  have hN : cfg2.N = 10 := N_2
  have hi0 : (i 0).val < 50000 := (i 0).isLt
  have hi1 : (i 1).val < 128 := (i 1).isLt
  obtain ⟨t, ht⟩ : ∃ t : Fin cfg2.N, t.val = (i 0).val / 5000 := ⟨⟨(i 0).val / 5000, by rw [hN]; omega⟩, rfl⟩
  obtain ⟨-, -, -, -, -, -, -, -, -, -, -, -, i60, i61⟩ := idx2 t
  refine ⟨t, flush2_6 t, ?_⟩
  rw [mem_blk2]
  intro a
  match a with
  | ⟨0, _⟩ =>
    show win2_6.index t (0 : Fin 2) * 5000 ≤ (i 0).val ∧ (i 0).val < win2_6.index t (0 : Fin 2) * 5000 + 5000
    omega
  | ⟨1, _⟩ =>
    show win2_6.index t (1 : Fin 2) * 128 ≤ (i 1).val ∧ (i 1).val < win2_6.index t (1 : Fin 2) * 128 + 128
    omega

/-- The first kernel's output array after its last grid point: the stage of the whole arrays it found. -/
theorem final2 (c : Dev nD) : (dat2 V c).arrAt 6 cfg2.N = G2 V c :=
  (dat2 V c).arrAt_eq_of_cover 6 (G2 V c) (fun t _ => flushed2_eq V c t) cover2

end Region2

/-- The second kernel's body is the same term. -/
theorem pay3_eq (v0 : Vec Ideal S5000x128 .f32) (v2 : Vec Ideal S5000x1 .f32) (v7 : Vec Ideal S5000x128 .bf16)
    (v9 : Vec Ideal S128x128 .f32) (v12 : Vec Ideal S128x128 .f32) (v16 : Vec Ideal S1x128 .f32) :
    k3_pay1 (F := Ideal) v0 v2 v7 v9 v12 v16 = relu (comb (n := 5000) (k := 128) (d := 128) v0 v2 v7 v9 v16 v12) := by
  unfold k3_pay1
  simp only [shapeCast_self]
  have e1 := mulf_spread_eq_scaleRows broadcasts_S5000x1_S5000x128 v0 v2
  have e2 := matmul_eq_mm (φ₁ := .bf16) (φ₂ := .bf16) dot_S5000x128_S128x128_S5000x128_1_0_0_1_n_n rfl rfl rfl rfl rfl rfl none
    (scaleRows (n := 5000) (k := 128) v0 v2) v9
  have e3 := matmul_eq_mm (φ₁ := .bf16) (φ₂ := .bf16) dot_S5000x128_S128x128_S5000x128_1_0_0_1_n_n rfl rfl rfl rfl rfl rfl none v7 v12
  have e4 := addf_spread_eq_addRow broadcasts_S1x128_S5000x128 (mm (n := 5000) (k := 128) (d := 128) (scaleRows v0 v2) v9) v16
  unfold comb
  rw [← e3, ← e4, ← e2, ← e1]
  rfl

/-- One entry of the rectified convolution stage computed on a block of rows: if row q of each row-blocked operand is
    row p of the whole matrix, the entry (q, j) of the block's result is the entry (p, j) of the whole stage. -/
theorem point3 (x0 : Vec Ideal S5000x128 .f32) (x1 : Vec Ideal S5000x1 .f32) (x2 : Vec Ideal S5000x128 .bf16)
    (x3 : Vec Ideal S128x128 .f32) (x4 : Vec Ideal S1x128 .f32) (x5 : Vec Ideal S128x128 .f32)
    {n : ℕ} (A0 : Mat n 128) (A1 : Mat n 1) (A2 : Mat n 128) (q : Fin 5000) (j : Fin 128) (p : Fin n)
    (h0 : RowEq (m := 5000) (k := 128) x0 q A0 p) (h1 : RowEq (m := 5000) (k := 1) x1 q A1 p)
    (h2 : RowEq (m := 5000) (k := 128) x2 q A2 p) :
    k3_pay1 (F := Ideal) x0 x1 x2 x3 x5 x4 (ix2 q j) = relu (comb A0 A1 A2 x3 x4 x5) (ix2 p j) := by
  rw [pay3_eq]
  exact relu_row (comb_row h0 h1 h2 x3 x4 x5) j

section Region3

variable (V : (c : Dev nD) → (b : Ref sig .tc) → Buf (Elt Ideal) ((c : Thread nD τ).loc b))

/-- The printed index maps over the twenty grid points: the row-blocked windows sit at block (t, 0), the weights and the
    bias row at block (0, 0). -/
theorem idx3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- The rectified convolution stage of the second kernel's whole arrays, as the kernel finds them. -/
def G3 (c : Dev nD) : Mat 100000 128 :=
  relu (comb (n := 100000) (k := 128) (d := 128) (V c main_v48) (V c main_v22) (V c main_v2) (V c main_v49) (V c main_v51) (V c main_v50))

set_option backward.isDefEq.respectTransparency.types false in
/-- What grid point t writes back is rows 5000 t .. 5000 t + 4999 of the stage of the whole arrays, as for the first kernel. -/
theorem flushed3_eq (c : Dev nD) (t : Fin cfg3.N) :
    (dat3 V c).flushed 6 t = ((cfg3.win 6).blk t).view.read (Elt Ideal) (G3 V c) := by
  show (cfg3.win 6).cut (grid3.coords t) ((dat3 V c).after 6 t) = _
  rw [after3_6]
  unfold out3_6
  rw [View.canon_unit_zero hz]
  simp only [View.ld_unit_zero (S := S5000x128) hz, View.ld_unit_zero (S := S5000x1) hz,
    View.ld_unit_zero (S := S128x128) hz, View.ld_unit_zero (S := S1x128) hz]
  obtain ⟨i00, i01, i10, i11, i20, i21, i30, i31, i40, i41, i50, i51, i60, i61⟩ := idx3 t
  have hN : cfg3.N = 20 := N_3
  have e3 : (iblk3 V c 3 t : Vec Ideal S128x128 .f32) = V c main_v49 := by
    funext y
    unfold iblk3
    rw [View.read_apply]
    show V c main_v49 _ = V c main_v49 y
    congr 1
    funext a; apply Fin.ext
    match a with
    | ⟨0, _⟩ => show win3_3.index t (0 : Fin 2) * 128 + 1 * (y 0).val = (y 0).val; omega
    | ⟨1, _⟩ => show win3_3.index t (1 : Fin 2) * 128 + 1 * (y 1).val = (y 1).val; omega
  have e4 : (iblk3 V c 4 t : Vec Ideal S1x128 .f32) = V c main_v51 := by
    funext y
    unfold iblk3
    rw [View.read_apply]
    show V c main_v51 _ = V c main_v51 y
    congr 1
    funext a; apply Fin.ext
    match a with
    | ⟨0, _⟩ => show win3_4.index t (0 : Fin 2) * 1 + 1 * (y 0).val = (y 0).val; omega
    | ⟨1, _⟩ => show win3_4.index t (1 : Fin 2) * 128 + 1 * (y 1).val = (y 1).val; omega
  have e5 : (iblk3 V c 5 t : Vec Ideal S128x128 .f32) = V c main_v50 := by
    funext y
    unfold iblk3
    rw [View.read_apply]
    show V c main_v50 _ = V c main_v50 y
    congr 1
    funext a; apply Fin.ext
    match a with
    | ⟨0, _⟩ => show win3_5.index t (0 : Fin 2) * 128 + 1 * (y 0).val = (y 0).val; omega
    | ⟨1, _⟩ => show win3_5.index t (1 : Fin 2) * 128 + 1 * (y 1).val = (y 1).val; omega
  refine funext fun (y : S5000x128.Idx) => ?_
  obtain ⟨q, j, rfl⟩ : ∃ (q : Fin 5000) (j : Fin 128), y = ix2 q j := ⟨y 0, y 1, eq_ix2 y⟩
  have hp : t.val * 5000 + q.val < 100000 := by have := t.isLt; have := q.isLt; omega
  show k3_pay1 (F := Ideal) (iblk3 V c 0 t) (iblk3 V c 1 t) (iblk3 V c 2 t) (iblk3 V c 3 t) (iblk3 V c 5 t) (iblk3 V c 4 t) (ix2 q j)
    = G3 V c (((cfg3.win 6).blk t).view.emb (ix2 q j))
  have hemb : ((cfg3.win 6).blk t).view.emb (ix2 q j) = ix2 (⟨t.val * 5000 + q.val, hp⟩ : Fin 100000) j := by
    funext a; apply Fin.ext
    match a with
    | ⟨0, _⟩ => show win3_6.index t (0 : Fin 2) * 5000 + 1 * q.val = t.val * 5000 + q.val; omega
    | ⟨1, _⟩ => show win3_6.index t (1 : Fin 2) * 128 + 1 * j.val = j.val; omega
  rw [hemb, e3, e4, e5]
  unfold G3
  refine point3 _ _ _ _ _ _ _ _ _ q j _ (fun j' => ?_) (fun j' => ?_) (fun j' => ?_)
  · unfold iblk3
    rw [View.read_apply]
    show V c main_v48 _ = V c main_v48 _
    congr 1
    funext a; apply Fin.ext
    match a with
    | ⟨0, _⟩ => show win3_0.index t (0 : Fin 2) * 5000 + 1 * q.val = t.val * 5000 + q.val; omega
    | ⟨1, _⟩ => show win3_0.index t (1 : Fin 2) * 128 + 1 * j'.val = j'.val; omega
  · unfold iblk3
    rw [View.read_apply]
    show V c main_v22 _ = V c main_v22 _
    congr 1
    funext a; apply Fin.ext
    match a with
    | ⟨0, _⟩ => show win3_1.index t (0 : Fin 2) * 5000 + 1 * q.val = t.val * 5000 + q.val; omega
    | ⟨1, _⟩ => show win3_1.index t (1 : Fin 2) * 1 + 1 * j'.val = j'.val; omega
  · unfold iblk3
    rw [View.read_apply]
    show V c main_v2 _ = V c main_v2 _
    congr 1
    funext a; apply Fin.ext
    match a with
    | ⟨0, _⟩ => show win3_2.index t (0 : Fin 2) * 5000 + 1 * q.val = t.val * 5000 + q.val; omega
    | ⟨1, _⟩ => show win3_2.index t (1 : Fin 2) * 128 + 1 * j'.val = j'.val; omega

/-- An index of the array is in point t's block iff each coordinate is in the block's range on its axis. -/
theorem mem_blk3 (t : Fin cfg3.N) (i : S100000x128.Idx) :
    i ∈ ((cfg3.win 6).blk t).view.set ↔ ∀ a : Fin 2, win3_6.index t a * S5000x128.size a ≤ (i a).val
      ∧ (i a).val < win3_6.index t a * S5000x128.size a + S5000x128.size a := by
  show i ∈ ((View.whole main_v52).slice (win3_6.rect t)).set ↔ _
  rw [View.set_slice_whole, Rect.mem_set_unit]
  exact Iff.rfl

/-- Every row r of the array is in the block of the point r / 5000, and every point writes back. -/
theorem cover3 (i : S100000x128.Idx) :
    ∃ t : Fin cfg3.N, (cfg3.win 6).flush t = true ∧ i ∈ ((cfg3.win 6).blk t).view.set := by
  have hN : cfg3.N = 20 := N_3
  have hi0 : (i 0).val < 100000 := (i 0).isLt
  have hi1 : (i 1).val < 128 := (i 1).isLt
  obtain ⟨t, ht⟩ : ∃ t : Fin cfg3.N, t.val = (i 0).val / 5000 := ⟨⟨(i 0).val / 5000, by rw [hN]; omega⟩, rfl⟩
  obtain ⟨-, -, -, -, -, -, -, -, -, -, -, -, i60, i61⟩ := idx3 t
  refine ⟨t, flush3_6 t, ?_⟩
  rw [mem_blk3]
  intro a
  match a with
  | ⟨0, _⟩ =>
    show win3_6.index t (0 : Fin 2) * 5000 ≤ (i 0).val ∧ (i 0).val < win3_6.index t (0 : Fin 2) * 5000 + 5000
    omega
  | ⟨1, _⟩ =>
    show win3_6.index t (1 : Fin 2) * 128 ≤ (i 1).val ∧ (i 1).val < win3_6.index t (1 : Fin 2) * 128 + 128
    omega

/-- The second kernel's output array after its last grid point: the stage of the whole arrays it found. -/
theorem final3 (c : Dev nD) : (dat3 V c).arrAt 6 cfg3.N = G3 V c :=
  (dat3 V c).arrAt_eq_of_cover 6 (G3 V c) (fun t _ => flushed3_eq V c t) cover3

end Region3

variable (m : (ℓ : Loc nD τ sig) → Buf (Elt Ideal) ℓ) (ρ : Dev nD → PrngReg)

set_option backward.isDefEq.respectTransparency.types false in
/-- After the first convolution kernel its output array holds the rectified stage of the arrays it was entered with. -/
theorem out2 (c : Dev nD) : Gen.W6 (F := Ideal) m ρ c (Proc.devRef .tc main_v37)
    = relu (comb (Gen.V5 m ρ c main_v33) (Gen.V5 m ρ c main_v17) (Gen.V5 m ρ c main_v5) (Gen.V5 m ρ c main_v34)
        (Gen.V5 m ρ c main_v36) (Gen.V5 m ρ c main_v35)) :=
  (Gen.W6_arr m ρ c 6).trans (final2 (Gen.V5 m ρ) c)

set_option backward.isDefEq.respectTransparency.types false in
/-- After the second convolution kernel its output array holds the rectified stage of the arrays it was entered with. -/
theorem out3 (c : Dev nD) : Gen.W8 (F := Ideal) m ρ c (Proc.devRef .tc main_v52)
    = relu (comb (Gen.V7 m ρ c main_v48) (Gen.V7 m ρ c main_v22) (Gen.V7 m ρ c main_v2) (Gen.V7 m ρ c main_v49)
        (Gen.V7 m ρ c main_v51) (Gen.V7 m ρ c main_v50)) :=
  (Gen.W8_arr m ρ c 6).trans (final3 (Gen.V7 m ρ) c)

end Cert.KValue.Conv

end
-- ==== Proof.Conv2.lean ====
/-
  The two second-layer convolution kernels, read off the program's run.

  Each kernel runs over a grid of blocks of 5000 rows.  At grid point t it holds rows 5000 t … 5000 t + 4999 of the
  neighbour sums, of the reciprocal-degree column and of the destination features, and the whole of the two weight
  matrices and of the bias row.  It scales each row of the sums by its own reciprocal degree, multiplies by the left
  weights, adds the bias row, and adds the destination features times the right weights; nothing is floored at this
  layer.  Each of these steps works one row at a time — row p of the result depends on row p of the three row operands
  only —, so the stage of a block of rows is the same rows of the stage of the whole matrices: point t writes block t of
  the stage of the whole arrays.  The blocks of the grid's points tile the result array (row r lies in the block of
  point r / 5000), so the array ends holding the stage of the whole arrays.  The changes of float format in the body
  change no extended real.
-/
import proofs.«159460_j70523363000941_2_alg».proof.Proof.Gen.KernelIdeal.Frame
import proofs.«159460_j70523363000941_2_alg».proof.Proof.Stages
import proofs.«159460_j70523363000941_2_alg».proof.Proof.LibKeepdims
import Idealize.ShloMosaic.Lib.Pipeline.Value

set_option maxRecDepth 16384

noncomputable section

namespace Cert.KValue.Conv2

open Cert.KernelIdeal Cert.KernelIdeal.Gen Cert.Stages Cert.LibRowStages
open Idealize.ShloMosaic Idealize.ShloMosaic.TcCoe Idealize.ShloMosaic.ValueIdx Idealize.SL.Sem
open Idealize.ShloMosaic.Pipeline (Dat)

/-- The zero offsets of a whole-block access, however they are spelt. -/
theorem hz : (![0, 0] : Fin 2 → Nat) = fun _ => 0 := funext fun a => by fin_cases a <;> rfl

/-- A matrix multiplied entry by entry by a column spread along the rows is the matrix with each row scaled by its own
    factor. -/
theorem mulf_spread_eq_scaleRows {n k : ℕ} (h : (⟨2, ![n, 1]⟩ : Shape).Broadcasts ⟨2, ![n, k]⟩)
    (a : FVec Ideal ⟨2, ![n, k]⟩ .f32) (s : FVec Ideal ⟨2, ![n, 1]⟩ .f32) :
    mulf a (broadcastTo ⟨2, ![n, k]⟩ s h) = scaleRows a s := by
  funext i
  obtain ⟨p, j, rfl⟩ : ∃ (p : Fin n) (j : Fin k), i = ix2 p j := ⟨i 0, i 1, eq_ix2 i⟩
  show a (ix2 p j) * broadcastTo ⟨2, ![n, k]⟩ s h (ix2 p j) = a (ix2 p j) * s (ix2 p (0 : Fin 1))
  rw [Cert.LibKeepdims.broadcastTo_a1_ab_apply s h p j]

/-- Entry j of the convolution stage of a block is entry i of the stage of the whole matrices, as soon as row j(0) of
    each of the three row operands' blocks is row i(0) of its matrix and the two column coordinates agree: the stage
    works one row at a time. -/
theorem comb_at {mb n k d : ℕ} (aggb : Mat mb k) (sb : Mat mb 1) (xdb : Mat mb k)
    (agg : Mat n k) (s : Mat n 1) (xd : Mat n k) (wl : Mat k d) (bl : Mat 1 d) (wr : Mat k d)
    (jb : (⟨2, ![mb, d]⟩ : Shape).Idx) (i : (⟨2, ![n, d]⟩ : Shape).Idx)
    (h0 : ∀ o : Fin k, aggb (ix2 (jb 0) o) = agg (ix2 (i 0) o))
    (hs : ∀ o : Fin 1, sb (ix2 (jb 0) o) = s (ix2 (i 0) o))
    (hx : ∀ o : Fin k, xdb (ix2 (jb 0) o) = xd (ix2 (i 0) o))
    (h1 : (jb 1).val = (i 1).val) :
    comb aggb sb xdb wl bl wr jb = comb agg s xd wl bl wr i := by
  have e1 : jb 1 = i 1 := Fin.ext h1
  have hr : comb aggb sb xdb wl bl wr (ix2 (jb 0) (jb 1)) = comb agg s xd wl bl wr (ix2 (i 0) (jb 1)) :=
    comb_row (aggb := aggb) (sb := sb) (xdb := xdb) (q := jb 0) (agg := agg) (s := s) (xd := xd) (p := i 0)
      h0 hs hx wl bl wr (jb 1)
  calc comb aggb sb xdb wl bl wr jb = comb aggb sb xdb wl bl wr (ix2 (jb 0) (jb 1)) := congrArg _ (eq_ix2 jb)
    _ = comb agg s xd wl bl wr (ix2 (i 0) (jb 1)) := hr
    _ = comb agg s xd wl bl wr (ix2 (i 0) (i 1)) := by rw [e1]
    _ = comb agg s xd wl bl wr i := congrArg _ (eq_ix2 i).symm

/-! ## Region 4: the second-layer convolution onto the 50000-row node set -/

/-- The body's stored value in region 4 is the convolution stage of its six loaded blocks: the product by the spread
    column scales the rows, each product into the zero accumulator is the matrix product, the spread bias row added is
    the bias added to every row. -/
theorem pay4_eq (v0 : Vec Ideal S5000x128 .f32) (v2 : Vec Ideal S5000x1 .f32) (v7 : Vec Ideal S5000x128 .bf16)
    (v9 : Vec Ideal S128x64 .f32) (v12 : Vec Ideal S128x64 .f32) (v16 : Vec Ideal S1x64 .f32) :
    k4_pay1 (F := Ideal) v0 v2 v7 v9 v12 v16 = comb (n := 5000) (k := 128) (d := 64) v0 v2 v7 v9 v16 v12 := by
  unfold k4_pay1
  simp only [shapeCast_self]
  have e1 := mulf_spread_eq_scaleRows (n := 5000) (k := 128) broadcasts_S5000x1_S5000x128 v0 v2
  have e2 := matmul_eq_mm (n := 5000) (k := 128) (d := 64) (φ₁ := .bf16) (φ₂ := .bf16)
    dot_S5000x128_S128x64_S5000x64_1_0_0_1_n_n rfl rfl rfl rfl rfl rfl none (scaleRows (n := 5000) (k := 128) v0 v2) v9
  have e3 := matmul_eq_mm (n := 5000) (k := 128) (d := 64) (φ₁ := .bf16) (φ₂ := .bf16)
    dot_S5000x128_S128x64_S5000x64_1_0_0_1_n_n rfl rfl rfl rfl rfl rfl none v7 v12
  have e4 := addf_spread_eq_addRow (n := 5000) (k := 64) broadcasts_S1x64_S5000x64
    (mm (n := 5000) (k := 128) (d := 64) (scaleRows v0 v2) v9) v16
  unfold comb
  rw [← e3, ← e4, ← e2, ← e1]
  rfl

section Region4

variable (V : (c : Dev nD) → (b : Ref sig .tc) → Buf (Elt Ideal) ((c : Thread nD τ).loc b))

/-- The index maps over the grid: the row-blocked windows move with the grid point, the whole-array windows stay. -/
theorem idx_facts4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0 ∧ True :=
  (by decide +kernel : ∀ t : Fin grid4.N, _)

/-- Row q of the neighbour sums' block at point t is row 5000 t + q of the neighbour sums' array. -/
theorem iblk4_0_apply (c : Dev nD) (t : Fin cfg4.N) (y : S5000x128.Idx) (i : S50000x128.Idx)
    (h0 : (i 0).val = t.val * 5000 + (y 0).val) (h1 : (i 1).val = (y 1).val) :
    (iblk4 V c 0 t : Vec Ideal S5000x128 .f32) y = (V c main_v63 : S50000x128.Idx → EReal) i := by
  obtain ⟨e0, e1, -⟩ := idx_facts4 t
  unfold iblk4
  rw [View.read_apply]
  show V c main_v63 _ = V c main_v63 _
  congr 1
  funext a
  apply Fin.ext
  match a with
  | ⟨0, _⟩ => show win4_0.index t (0 : Fin 2) * 5000 + 1 * (y 0).val = (i 0).val; rw [e0, h0]; omega
  | ⟨1, _⟩ => show win4_0.index t (1 : Fin 2) * 128 + 1 * (y 1).val = (i 1).val; rw [e1, h1]; omega

/-- Row q of the reciprocal degrees' block at point t is row 5000 t + q of the reciprocal degrees' array. -/
theorem iblk4_1_apply (c : Dev nD) (t : Fin cfg4.N) (y : S5000x1.Idx) (i : S50000x1.Idx)
    (h0 : (i 0).val = t.val * 5000 + (y 0).val) (h1 : (i 1).val = (y 1).val) :
    (iblk4 V c 1 t : Vec Ideal S5000x1 .f32) y = (V c main_v17 : S50000x1.Idx → EReal) i := by
  obtain ⟨-, -, e0, e1, -⟩ := idx_facts4 t
  unfold iblk4
  rw [View.read_apply]
  show V c main_v17 _ = V c main_v17 _
  congr 1
  funext a
  apply Fin.ext
  match a with
  | ⟨0, _⟩ => show win4_1.index t (0 : Fin 2) * 5000 + 1 * (y 0).val = (i 0).val; rw [e0, h0]; omega
  | ⟨1, _⟩ => show win4_1.index t (1 : Fin 2) * 1 + 1 * (y 1).val = (i 1).val; rw [e1, h1]; omega

/-- Row q of the destination features' block at point t is row 5000 t + q of the destination features' array. -/
theorem iblk4_2_apply (c : Dev nD) (t : Fin cfg4.N) (y : S5000x128.Idx) (i : S50000x128.Idx)
    (h0 : (i 0).val = t.val * 5000 + (y 0).val) (h1 : (i 1).val = (y 1).val) :
    (iblk4 V c 2 t : Vec Ideal S5000x128 .bf16) y = (V c main_v37 : S50000x128.Idx → EReal) i := by
  obtain ⟨-, -, -, -, e0, e1, -⟩ := idx_facts4 t
  unfold iblk4
  rw [View.read_apply]
  show V c main_v37 _ = V c main_v37 _
  congr 1
  funext a
  apply Fin.ext
  match a with
  | ⟨0, _⟩ => show win4_2.index t (0 : Fin 2) * 5000 + 1 * (y 0).val = (i 0).val; rw [e0, h0]; omega
  | ⟨1, _⟩ => show win4_2.index t (1 : Fin 2) * 128 + 1 * (y 1).val = (i 1).val; rw [e1, h1]; omega

/-- The left weights' window's block is the whole left weights' array at every point. -/
theorem iblk4_3_eq (c : Dev nD) (t : Fin cfg4.N) :
    (iblk4 V c 3 t : Vec Ideal S128x64 .f32) = (V c main_v64 : S128x64.Idx → EReal) := by
  obtain ⟨-, -, -, -, -, -, e0, e1, -⟩ := idx_facts4 t
  funext y
  unfold iblk4
  rw [View.read_apply]
  show V c main_v64 _ = V c main_v64 y
  congr 1
  funext a
  apply Fin.ext
  match a with
  | ⟨0, _⟩ => show win4_3.index t (0 : Fin 2) * 128 + 1 * (y 0).val = (y 0).val; rw [e0]; omega
  | ⟨1, _⟩ => show win4_3.index t (1 : Fin 2) * 64 + 1 * (y 1).val = (y 1).val; rw [e1]; omega

/-- The bias row's window's block is the whole bias row's array at every point. -/
theorem iblk4_4_eq (c : Dev nD) (t : Fin cfg4.N) :
    (iblk4 V c 4 t : Vec Ideal S1x64 .f32) = (V c main_v66 : S1x64.Idx → EReal) := by
  obtain ⟨-, -, -, -, -, -, -, -, e0, e1, -⟩ := idx_facts4 t
  funext y
  unfold iblk4
  rw [View.read_apply]
  show V c main_v66 _ = V c main_v66 y
  congr 1
  funext a
  apply Fin.ext
  match a with
  | ⟨0, _⟩ => show win4_4.index t (0 : Fin 2) * 1 + 1 * (y 0).val = (y 0).val; rw [e0]; omega
  | ⟨1, _⟩ => show win4_4.index t (1 : Fin 2) * 64 + 1 * (y 1).val = (y 1).val; rw [e1]; omega

/-- The right weights' window's block is the whole right weights' array at every point. -/
theorem iblk4_5_eq (c : Dev nD) (t : Fin cfg4.N) :
    (iblk4 V c 5 t : Vec Ideal S128x64 .f32) = (V c main_v65 : S128x64.Idx → EReal) := by
  obtain ⟨-, -, -, -, -, -, -, -, -, -, e0, e1, -⟩ := idx_facts4 t
  funext y
  unfold iblk4
  rw [View.read_apply]
  show V c main_v65 _ = V c main_v65 y
  congr 1
  funext a
  apply Fin.ext
  match a with
  | ⟨0, _⟩ => show win4_5.index t (0 : Fin 2) * 128 + 1 * (y 0).val = (y 0).val; rw [e0]; omega
  | ⟨1, _⟩ => show win4_5.index t (1 : Fin 2) * 64 + 1 * (y 1).val = (y 1).val; rw [e1]; omega

set_option backward.isDefEq.respectTransparency.types false in
/-- What point t writes back to the result array is block t of the convolution stage of the whole arrays. -/
theorem flushed4_eq (c : Dev nD) (t : Fin cfg4.N) :
    (dat4 (F := Ideal) V c).flushed 6 t = ((cfg4.win 6).blk t).view.read (Elt Ideal)
      (comb (n := 50000) (k := 128) (d := 64) (V c main_v63) (V c main_v17) (V c main_v37) (V c main_v64) (V c main_v66) (V c main_v65)) := by
  show (cfg4.win 6).cut (grid4.coords t) ((dat4 V c).after 6 t) = _
  rw [after4_6]
  unfold out4_6
  rw [View.canon_unit_zero hz]
  simp only [View.ld_unit_zero (S := S5000x128) hz, View.ld_unit_zero (S := S5000x1) hz,
    View.ld_unit_zero (S := S128x64) hz, View.ld_unit_zero (S := S1x64) hz]
  rw [pay4_eq, iblk4_3_eq V c t, iblk4_4_eq V c t, iblk4_5_eq V c t]
  obtain ⟨-, -, -, -, -, -, -, -, -, -, -, -, e0, e1, -⟩ := idx_facts4 t
  funext j
  show comb (n := 5000) (k := 128) (d := 64) (iblk4 V c 0 t) (iblk4 V c 1 t) (iblk4 V c 2 t) (V c main_v64) (V c main_v66) (V c main_v65)
      ((cfg4.win 6).xinj (grid4.coords t) j)
    = comb (n := 50000) (k := 128) (d := 64) (V c main_v63) (V c main_v17) (V c main_v37) (V c main_v64) (V c main_v66) (V c main_v65) (((cfg4.win 6).blk t).view.emb j)
  have hrow : (((cfg4.win 6).blk t).view.emb j 0).val = t.val * 5000 + (j 0).val := by
    show win4_6.index t (0 : Fin 2) * 5000 + 1 * (j 0).val = t.val * 5000 + (j 0).val
    rw [e0]; omega
  refine comb_at (mb := 5000) (n := 50000) (k := 128) (d := 64) (iblk4 V c 0 t) (iblk4 V c 1 t) (iblk4 V c 2 t)
    (V c main_v63) (V c main_v17) (V c main_v37) (V c main_v64) (V c main_v66) (V c main_v65)
    ((cfg4.win 6).xinj (grid4.coords t) j) (((cfg4.win 6).blk t).view.emb j)
    (fun o => ?_) (fun o => ?_) (fun o => ?_) ?_
  · exact iblk4_0_apply V c t _ _ hrow rfl
  · exact iblk4_1_apply V c t _ _ hrow rfl
  · exact iblk4_2_apply V c t _ _ hrow rfl
  · show (j 1).val = win4_6.index t (1 : Fin 2) * 64 + 1 * (j 1).val
    rw [e1]; omega

/-- An index of the result array is in point t's block iff each coordinate is in the block's range on its axis. -/
theorem mem_blk4 (t : Fin cfg4.N) (i : S50000x64.Idx) :
    i ∈ ((cfg4.win 6).blk t).view.set ↔ ∀ a : Fin 2, win4_6.index t a * S5000x64.size a ≤ (i a).val
      ∧ (i a).val < win4_6.index t a * S5000x64.size a + S5000x64.size a := by
  show i ∈ ((View.whole main_v67).slice (win4_6.rect t)).set ↔ _
  rw [View.set_slice_whole, Rect.mem_set_unit]
  exact Iff.rfl

/-- Row r of the result array is in the block of point r / 5000. -/
theorem cover4 (i : S50000x64.Idx) :
    ∃ t : Fin cfg4.N, (cfg4.win 6).flush t = true ∧ i ∈ ((cfg4.win 6).blk t).view.set := by
  have hN : cfg4.N = 10 := N_4
  have hi0 : (i 0).val < 50000 := (i 0).isLt
  have hi1 : (i 1).val < 64 := (i 1).isLt
  let t : Fin cfg4.N := ⟨(i 0).val / 5000, by rw [hN]; omega⟩
  have ht : t.val = (i 0).val / 5000 := rfl
  obtain ⟨-, -, -, -, -, -, -, -, -, -, -, -, e0, e1, -⟩ := idx_facts4 t
  refine ⟨t, flush4_6 t, ?_⟩
  rw [mem_blk4]
  intro a
  match a with
  | ⟨0, _⟩ =>
    show win4_6.index t (0 : Fin 2) * 5000 ≤ (i 0).val ∧ (i 0).val < win4_6.index t (0 : Fin 2) * 5000 + 5000
    rw [e0, ht]; omega
  | ⟨1, _⟩ =>
    show win4_6.index t (1 : Fin 2) * 64 ≤ (i 1).val ∧ (i 1).val < win4_6.index t (1 : Fin 2) * 64 + 64
    rw [e1]; omega

/-- After region 4 the result array holds the convolution stage of the arrays the region found. -/
theorem final4 (c : Dev nD) : (dat4 (F := Ideal) V c).arrAt 6 cfg4.N
    = comb (n := 50000) (k := 128) (d := 64) (V c main_v63) (V c main_v17) (V c main_v37) (V c main_v64) (V c main_v66) (V c main_v65) :=
  (dat4 V c).arrAt_eq_of_cover 6 _ (fun t _ => flushed4_eq V c t) cover4

end Region4

/-- The second-layer convolution onto the 50000-row node set, over the arrays the program holds when the region is entered. -/
theorem out4 (m : (ℓ : Loc nD τ sig) → Buf (Elt Ideal) ℓ) (ρ : Dev nD → PrngReg) (c : Dev nD) :
    Gen.W10 (F := Ideal) m ρ c (Proc.devRef .tc main_v67)
      = comb (n := 50000) (k := 128) (d := 64) (Gen.V9 m ρ c main_v63) (Gen.V9 m ρ c main_v17) (Gen.V9 m ρ c main_v37)
          (Gen.V9 m ρ c main_v64) (Gen.V9 m ρ c main_v66) (Gen.V9 m ρ c main_v65) :=
  (Gen.W10_arr m ρ c 6).trans (final4 (Gen.V9 m ρ) c)

/-! ## Region 5: the second-layer convolution onto the 100000-row node set -/

/-- The body's stored value in region 5 is the convolution stage of its six loaded blocks: the product by the spread
    column scales the rows, each product into the zero accumulator is the matrix product, the spread bias row added is
    the bias added to every row. -/
theorem pay5_eq (v0 : Vec Ideal S5000x128 .f32) (v2 : Vec Ideal S5000x1 .f32) (v7 : Vec Ideal S5000x128 .bf16)
    (v9 : Vec Ideal S128x64 .f32) (v12 : Vec Ideal S128x64 .f32) (v16 : Vec Ideal S1x64 .f32) :
    k5_pay1 (F := Ideal) v0 v2 v7 v9 v12 v16 = comb (n := 5000) (k := 128) (d := 64) v0 v2 v7 v9 v16 v12 := by
  unfold k5_pay1
  simp only [shapeCast_self]
  have e1 := mulf_spread_eq_scaleRows (n := 5000) (k := 128) broadcasts_S5000x1_S5000x128 v0 v2
  have e2 := matmul_eq_mm (n := 5000) (k := 128) (d := 64) (φ₁ := .bf16) (φ₂ := .bf16)
    dot_S5000x128_S128x64_S5000x64_1_0_0_1_n_n rfl rfl rfl rfl rfl rfl none (scaleRows (n := 5000) (k := 128) v0 v2) v9
  have e3 := matmul_eq_mm (n := 5000) (k := 128) (d := 64) (φ₁ := .bf16) (φ₂ := .bf16)
    dot_S5000x128_S128x64_S5000x64_1_0_0_1_n_n rfl rfl rfl rfl rfl rfl none v7 v12
  have e4 := addf_spread_eq_addRow (n := 5000) (k := 64) broadcasts_S1x64_S5000x64
    (mm (n := 5000) (k := 128) (d := 64) (scaleRows v0 v2) v9) v16
  unfold comb
  rw [← e3, ← e4, ← e2, ← e1]
  rfl

section Region5

variable (V : (c : Dev nD) → (b : Ref sig .tc) → Buf (Elt Ideal) ((c : Thread nD τ).loc b))

/-- The index maps over the grid: the row-blocked windows move with the grid point, the whole-array windows stay. -/
theorem idx_facts5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = t.val ∧ win5_6.index t (1 : Fin 2) = 0 ∧ True :=
  (by decide +kernel : ∀ t : Fin grid5.N, _)

/-- Row q of the neighbour sums' block at point t is row 5000 t + q of the neighbour sums' array. -/
theorem iblk5_0_apply (c : Dev nD) (t : Fin cfg5.N) (y : S5000x128.Idx) (i : S100000x128.Idx)
    (h0 : (i 0).val = t.val * 5000 + (y 0).val) (h1 : (i 1).val = (y 1).val) :
    (iblk5 V c 0 t : Vec Ideal S5000x128 .f32) y = (V c main_v78 : S100000x128.Idx → EReal) i := by
  obtain ⟨e0, e1, -⟩ := idx_facts5 t
  unfold iblk5
  rw [View.read_apply]
  show V c main_v78 _ = V c main_v78 _
  congr 1
  funext a
  apply Fin.ext
  match a with
  | ⟨0, _⟩ => show win5_0.index t (0 : Fin 2) * 5000 + 1 * (y 0).val = (i 0).val; rw [e0, h0]; omega
  | ⟨1, _⟩ => show win5_0.index t (1 : Fin 2) * 128 + 1 * (y 1).val = (i 1).val; rw [e1, h1]; omega

/-- Row q of the reciprocal degrees' block at point t is row 5000 t + q of the reciprocal degrees' array. -/
theorem iblk5_1_apply (c : Dev nD) (t : Fin cfg5.N) (y : S5000x1.Idx) (i : S100000x1.Idx)
    (h0 : (i 0).val = t.val * 5000 + (y 0).val) (h1 : (i 1).val = (y 1).val) :
    (iblk5 V c 1 t : Vec Ideal S5000x1 .f32) y = (V c main_v22 : S100000x1.Idx → EReal) i := by
  obtain ⟨-, -, e0, e1, -⟩ := idx_facts5 t
  unfold iblk5
  rw [View.read_apply]
  show V c main_v22 _ = V c main_v22 _
  congr 1
  funext a
  apply Fin.ext
  match a with
  | ⟨0, _⟩ => show win5_1.index t (0 : Fin 2) * 5000 + 1 * (y 0).val = (i 0).val; rw [e0, h0]; omega
  | ⟨1, _⟩ => show win5_1.index t (1 : Fin 2) * 1 + 1 * (y 1).val = (i 1).val; rw [e1, h1]; omega

/-- Row q of the destination features' block at point t is row 5000 t + q of the destination features' array. -/
theorem iblk5_2_apply (c : Dev nD) (t : Fin cfg5.N) (y : S5000x128.Idx) (i : S100000x128.Idx)
    (h0 : (i 0).val = t.val * 5000 + (y 0).val) (h1 : (i 1).val = (y 1).val) :
    (iblk5 V c 2 t : Vec Ideal S5000x128 .bf16) y = (V c main_v52 : S100000x128.Idx → EReal) i := by
  obtain ⟨-, -, -, -, e0, e1, -⟩ := idx_facts5 t
  unfold iblk5
  rw [View.read_apply]
  show V c main_v52 _ = V c main_v52 _
  congr 1
  funext a
  apply Fin.ext
  match a with
  | ⟨0, _⟩ => show win5_2.index t (0 : Fin 2) * 5000 + 1 * (y 0).val = (i 0).val; rw [e0, h0]; omega
  | ⟨1, _⟩ => show win5_2.index t (1 : Fin 2) * 128 + 1 * (y 1).val = (i 1).val; rw [e1, h1]; omega

/-- The left weights' window's block is the whole left weights' array at every point. -/
theorem iblk5_3_eq (c : Dev nD) (t : Fin cfg5.N) :
    (iblk5 V c 3 t : Vec Ideal S128x64 .f32) = (V c main_v79 : S128x64.Idx → EReal) := by
  obtain ⟨-, -, -, -, -, -, e0, e1, -⟩ := idx_facts5 t
  funext y
  unfold iblk5
  rw [View.read_apply]
  show V c main_v79 _ = V c main_v79 y
  congr 1
  funext a
  apply Fin.ext
  match a with
  | ⟨0, _⟩ => show win5_3.index t (0 : Fin 2) * 128 + 1 * (y 0).val = (y 0).val; rw [e0]; omega
  | ⟨1, _⟩ => show win5_3.index t (1 : Fin 2) * 64 + 1 * (y 1).val = (y 1).val; rw [e1]; omega

/-- The bias row's window's block is the whole bias row's array at every point. -/
theorem iblk5_4_eq (c : Dev nD) (t : Fin cfg5.N) :
    (iblk5 V c 4 t : Vec Ideal S1x64 .f32) = (V c main_v81 : S1x64.Idx → EReal) := by
  obtain ⟨-, -, -, -, -, -, -, -, e0, e1, -⟩ := idx_facts5 t
  funext y
  unfold iblk5
  rw [View.read_apply]
  show V c main_v81 _ = V c main_v81 y
  congr 1
  funext a
  apply Fin.ext
  match a with
  | ⟨0, _⟩ => show win5_4.index t (0 : Fin 2) * 1 + 1 * (y 0).val = (y 0).val; rw [e0]; omega
  | ⟨1, _⟩ => show win5_4.index t (1 : Fin 2) * 64 + 1 * (y 1).val = (y 1).val; rw [e1]; omega

/-- The right weights' window's block is the whole right weights' array at every point. -/
theorem iblk5_5_eq (c : Dev nD) (t : Fin cfg5.N) :
    (iblk5 V c 5 t : Vec Ideal S128x64 .f32) = (V c main_v80 : S128x64.Idx → EReal) := by
  obtain ⟨-, -, -, -, -, -, -, -, -, -, e0, e1, -⟩ := idx_facts5 t
  funext y
  unfold iblk5
  rw [View.read_apply]
  show V c main_v80 _ = V c main_v80 y
  congr 1
  funext a
  apply Fin.ext
  match a with
  | ⟨0, _⟩ => show win5_5.index t (0 : Fin 2) * 128 + 1 * (y 0).val = (y 0).val; rw [e0]; omega
  | ⟨1, _⟩ => show win5_5.index t (1 : Fin 2) * 64 + 1 * (y 1).val = (y 1).val; rw [e1]; omega

set_option backward.isDefEq.respectTransparency.types false in
/-- What point t writes back to the result array is block t of the convolution stage of the whole arrays. -/
theorem flushed5_eq (c : Dev nD) (t : Fin cfg5.N) :
    (dat5 (F := Ideal) V c).flushed 6 t = ((cfg5.win 6).blk t).view.read (Elt Ideal)
      (comb (n := 100000) (k := 128) (d := 64) (V c main_v78) (V c main_v22) (V c main_v52) (V c main_v79) (V c main_v81) (V c main_v80)) := by
  show (cfg5.win 6).cut (grid5.coords t) ((dat5 V c).after 6 t) = _
  rw [after5_6]
  unfold out5_6
  rw [View.canon_unit_zero hz]
  simp only [View.ld_unit_zero (S := S5000x128) hz, View.ld_unit_zero (S := S5000x1) hz,
    View.ld_unit_zero (S := S128x64) hz, View.ld_unit_zero (S := S1x64) hz]
  rw [pay5_eq, iblk5_3_eq V c t, iblk5_4_eq V c t, iblk5_5_eq V c t]
  obtain ⟨-, -, -, -, -, -, -, -, -, -, -, -, e0, e1, -⟩ := idx_facts5 t
  funext j
  show comb (n := 5000) (k := 128) (d := 64) (iblk5 V c 0 t) (iblk5 V c 1 t) (iblk5 V c 2 t) (V c main_v79) (V c main_v81) (V c main_v80)
      ((cfg5.win 6).xinj (grid5.coords t) j)
    = comb (n := 100000) (k := 128) (d := 64) (V c main_v78) (V c main_v22) (V c main_v52) (V c main_v79) (V c main_v81) (V c main_v80) (((cfg5.win 6).blk t).view.emb j)
  have hrow : (((cfg5.win 6).blk t).view.emb j 0).val = t.val * 5000 + (j 0).val := by
    show win5_6.index t (0 : Fin 2) * 5000 + 1 * (j 0).val = t.val * 5000 + (j 0).val
    rw [e0]; omega
  refine comb_at (mb := 5000) (n := 100000) (k := 128) (d := 64) (iblk5 V c 0 t) (iblk5 V c 1 t) (iblk5 V c 2 t)
    (V c main_v78) (V c main_v22) (V c main_v52) (V c main_v79) (V c main_v81) (V c main_v80)
    ((cfg5.win 6).xinj (grid5.coords t) j) (((cfg5.win 6).blk t).view.emb j)
    (fun o => ?_) (fun o => ?_) (fun o => ?_) ?_
  · exact iblk5_0_apply V c t _ _ hrow rfl
  · exact iblk5_1_apply V c t _ _ hrow rfl
  · exact iblk5_2_apply V c t _ _ hrow rfl
  · show (j 1).val = win5_6.index t (1 : Fin 2) * 64 + 1 * (j 1).val
    rw [e1]; omega

/-- An index of the result array is in point t's block iff each coordinate is in the block's range on its axis. -/
theorem mem_blk5 (t : Fin cfg5.N) (i : S100000x64.Idx) :
    i ∈ ((cfg5.win 6).blk t).view.set ↔ ∀ a : Fin 2, win5_6.index t a * S5000x64.size a ≤ (i a).val
      ∧ (i a).val < win5_6.index t a * S5000x64.size a + S5000x64.size a := by
  show i ∈ ((View.whole main_v82).slice (win5_6.rect t)).set ↔ _
  rw [View.set_slice_whole, Rect.mem_set_unit]
  exact Iff.rfl

/-- Row r of the result array is in the block of point r / 5000. -/
theorem cover5 (i : S100000x64.Idx) :
    ∃ t : Fin cfg5.N, (cfg5.win 6).flush t = true ∧ i ∈ ((cfg5.win 6).blk t).view.set := by
  have hN : cfg5.N = 20 := N_5
  have hi0 : (i 0).val < 100000 := (i 0).isLt
  have hi1 : (i 1).val < 64 := (i 1).isLt
  let t : Fin cfg5.N := ⟨(i 0).val / 5000, by rw [hN]; omega⟩
  have ht : t.val = (i 0).val / 5000 := rfl
  obtain ⟨-, -, -, -, -, -, -, -, -, -, -, -, e0, e1, -⟩ := idx_facts5 t
  refine ⟨t, flush5_6 t, ?_⟩
  rw [mem_blk5]
  intro a
  match a with
  | ⟨0, _⟩ =>
    show win5_6.index t (0 : Fin 2) * 5000 ≤ (i 0).val ∧ (i 0).val < win5_6.index t (0 : Fin 2) * 5000 + 5000
    rw [e0, ht]; omega
  | ⟨1, _⟩ =>
    show win5_6.index t (1 : Fin 2) * 64 ≤ (i 1).val ∧ (i 1).val < win5_6.index t (1 : Fin 2) * 64 + 64
    rw [e1]; omega

/-- After region 5 the result array holds the convolution stage of the arrays the region found. -/
theorem final5 (c : Dev nD) : (dat5 (F := Ideal) V c).arrAt 6 cfg5.N
    = comb (n := 100000) (k := 128) (d := 64) (V c main_v78) (V c main_v22) (V c main_v52) (V c main_v79) (V c main_v81) (V c main_v80) :=
  (dat5 V c).arrAt_eq_of_cover 6 _ (fun t _ => flushed5_eq V c t) cover5

end Region5

/-- The second-layer convolution onto the 100000-row node set, over the arrays the program holds when the region is entered. -/
theorem out5 (m : (ℓ : Loc nD τ sig) → Buf (Elt Ideal) ℓ) (ρ : Dev nD → PrngReg) (c : Dev nD) :
    Gen.W12 (F := Ideal) m ρ c (Proc.devRef .tc main_v82)
      = comb (n := 100000) (k := 128) (d := 64) (Gen.V11 m ρ c main_v78) (Gen.V11 m ρ c main_v22) (Gen.V11 m ρ c main_v52)
          (Gen.V11 m ρ c main_v79) (Gen.V11 m ρ c main_v81) (Gen.V11 m ρ c main_v80) :=
  (Gen.W12_arr m ρ c 6).trans (final5 (Gen.V11 m ρ) c)

end Cert.KValue.Conv2

end
-- ==== Proof.KChain.lean ====
/-
  The kernel program's buffers at each boundary between its launches and host stretches.

  Folding the buffer contents through the program: an argument array is never written, so at every boundary it holds what
  it held at launch; an intermediate array keeps its contents through every stretch and launch that does not write it
  (a launch leaves its own input arrays as it found them).  Each launch's output is the row-wise stage of its input
  arrays; each host stretch computes the degree reciprocals, normalises the edge indices, gathers the source rows and
  scatter-adds them by destination, with the very operations the reference program applies.  So at each boundary the
  feature matrix the kernel program holds is the reference's matrix of the same layer, as a function of the arguments.
-/
import proofs.«159460_j70523363000941_2_alg».proof.Proof.Gen.KernelIdeal.Frame
import proofs.«159460_j70523363000941_2_alg».proof.Proof.Gen.ReferenceIdeal.Read
import proofs.«159460_j70523363000941_2_alg».proof.Proof.Stages
import proofs.«159460_j70523363000941_2_alg».proof.Proof.RefStages
import proofs.«159460_j70523363000941_2_alg».proof.Proof.Linear
import proofs.«159460_j70523363000941_2_alg».proof.Proof.Conv
import proofs.«159460_j70523363000941_2_alg».proof.Proof.Conv2
import Idealize.ShloMosaic.Lib.StableHlo.Run

set_option maxRecDepth 16384

noncomputable section

namespace Cert.KChain

open Idealize.ShloMosaic Idealize.ShloMosaic.TcCoe Idealize.SL.Sem Idealize.ShloMosaic.StableHlo
open Idealize.ShloMosaic.ValueIdx
open Cert.KernelIdeal Cert.KernelIdeal.Gen
open Cert.ReferenceIdeal.Read
open Cert.Stages Cert.LibRowStages

variable (m : (ℓ : Loc nD τ sig) → Buf (Elt Ideal) ℓ) (ρ : Dev nD → PrngReg) (c : Dev nD)

/-! ## The argument arrays at each boundary: nothing writes them -/

theorem W1_a1 : Gen.W1 (F := Ideal) m ρ c (Proc.devRef .tc main_arg1) = (m ((c : Thread nD τ).loc main_arg1)) := by
  dsimp only [Gen.W1, Gen.hostOps0]
  after_results
  all_goals rfl

theorem W2_a1 : Gen.W2 (F := Ideal) m ρ c (Proc.devRef .tc main_arg1) = (m ((c : Thread nD τ).loc main_arg1)) := (Gen.W2_of_ne m ρ c main_arg1 (by decide)).trans (W1_a1 m ρ c)

theorem W3_a1 : Gen.W3 (F := Ideal) m ρ c (Proc.devRef .tc main_arg1) = (m ((c : Thread nD τ).loc main_arg1)) := by
  dsimp only [Gen.W3, Gen.hostOps1]
  after_results_simp
  exact W2_a1 m ρ c

theorem W1_a2 : Gen.W1 (F := Ideal) m ρ c (Proc.devRef .tc main_arg2) = (m ((c : Thread nD τ).loc main_arg2)) := by
  dsimp only [Gen.W1, Gen.hostOps0]
  after_results
  all_goals rfl

theorem W2_a2 : Gen.W2 (F := Ideal) m ρ c (Proc.devRef .tc main_arg2) = (m ((c : Thread nD τ).loc main_arg2)) := (Gen.W2_of_ne m ρ c main_arg2 (by decide)).trans (W1_a2 m ρ c)

theorem W3_a2 : Gen.W3 (F := Ideal) m ρ c (Proc.devRef .tc main_arg2) = (m ((c : Thread nD τ).loc main_arg2)) := by
  dsimp only [Gen.W3, Gen.hostOps1]
  after_results_simp
  exact W2_a2 m ρ c

theorem W4_a2 : Gen.W4 (F := Ideal) m ρ c (Proc.devRef .tc main_arg2) = (m ((c : Thread nD τ).loc main_arg2)) := (Gen.W4_of_ne m ρ c main_arg2 (by decide)).trans (W3_a2 m ρ c)

theorem W5_a2 : Gen.W5 (F := Ideal) m ρ c (Proc.devRef .tc main_arg2) = (m ((c : Thread nD τ).loc main_arg2)) := by
  dsimp only [Gen.W5, Gen.hostOps2]
  after_results_simp
  exact W4_a2 m ρ c

theorem W6_a2 : Gen.W6 (F := Ideal) m ρ c (Proc.devRef .tc main_arg2) = (m ((c : Thread nD τ).loc main_arg2)) := (Gen.W6_of_ne m ρ c main_arg2 (by decide)).trans (W5_a2 m ρ c)

theorem W7_a2 : Gen.W7 (F := Ideal) m ρ c (Proc.devRef .tc main_arg2) = (m ((c : Thread nD τ).loc main_arg2)) := by
  dsimp only [Gen.W7, Gen.hostOps3]
  after_results_simp
  exact W6_a2 m ρ c

theorem W8_a2 : Gen.W8 (F := Ideal) m ρ c (Proc.devRef .tc main_arg2) = (m ((c : Thread nD τ).loc main_arg2)) := (Gen.W8_of_ne m ρ c main_arg2 (by decide)).trans (W7_a2 m ρ c)

theorem W9_a2 : Gen.W9 (F := Ideal) m ρ c (Proc.devRef .tc main_arg2) = (m ((c : Thread nD τ).loc main_arg2)) := by
  dsimp only [Gen.W9, Gen.hostOps4]
  after_results_simp
  exact W8_a2 m ρ c

theorem W10_a2 : Gen.W10 (F := Ideal) m ρ c (Proc.devRef .tc main_arg2) = (m ((c : Thread nD τ).loc main_arg2)) := (Gen.W10_of_ne m ρ c main_arg2 (by decide)).trans (W9_a2 m ρ c)

theorem W1_a3 : Gen.W1 (F := Ideal) m ρ c (Proc.devRef .tc main_arg3) = (m ((c : Thread nD τ).loc main_arg3)) := by
  dsimp only [Gen.W1, Gen.hostOps0]
  after_results
  all_goals rfl

theorem W2_a3 : Gen.W2 (F := Ideal) m ρ c (Proc.devRef .tc main_arg3) = (m ((c : Thread nD τ).loc main_arg3)) := (Gen.W2_of_ne m ρ c main_arg3 (by decide)).trans (W1_a3 m ρ c)

theorem W3_a3 : Gen.W3 (F := Ideal) m ρ c (Proc.devRef .tc main_arg3) = (m ((c : Thread nD τ).loc main_arg3)) := by
  dsimp only [Gen.W3, Gen.hostOps1]
  after_results_simp
  exact W2_a3 m ρ c

theorem W4_a3 : Gen.W4 (F := Ideal) m ρ c (Proc.devRef .tc main_arg3) = (m ((c : Thread nD τ).loc main_arg3)) := (Gen.W4_of_ne m ρ c main_arg3 (by decide)).trans (W3_a3 m ρ c)

theorem W5_a3 : Gen.W5 (F := Ideal) m ρ c (Proc.devRef .tc main_arg3) = (m ((c : Thread nD τ).loc main_arg3)) := by
  dsimp only [Gen.W5, Gen.hostOps2]
  after_results_simp
  exact W4_a3 m ρ c

theorem W6_a3 : Gen.W6 (F := Ideal) m ρ c (Proc.devRef .tc main_arg3) = (m ((c : Thread nD τ).loc main_arg3)) := (Gen.W6_of_ne m ρ c main_arg3 (by decide)).trans (W5_a3 m ρ c)

theorem W7_a3 : Gen.W7 (F := Ideal) m ρ c (Proc.devRef .tc main_arg3) = (m ((c : Thread nD τ).loc main_arg3)) := by
  dsimp only [Gen.W7, Gen.hostOps3]
  after_results_simp
  exact W6_a3 m ρ c

theorem W8_a3 : Gen.W8 (F := Ideal) m ρ c (Proc.devRef .tc main_arg3) = (m ((c : Thread nD τ).loc main_arg3)) := (Gen.W8_of_ne m ρ c main_arg3 (by decide)).trans (W7_a3 m ρ c)

theorem W9_a3 : Gen.W9 (F := Ideal) m ρ c (Proc.devRef .tc main_arg3) = (m ((c : Thread nD τ).loc main_arg3)) := by
  dsimp only [Gen.W9, Gen.hostOps4]
  after_results_simp
  exact W8_a3 m ρ c

theorem W10_a3 : Gen.W10 (F := Ideal) m ρ c (Proc.devRef .tc main_arg3) = (m ((c : Thread nD τ).loc main_arg3)) := (Gen.W10_of_ne m ρ c main_arg3 (by decide)).trans (W9_a3 m ρ c)

theorem W1_a4 : Gen.W1 (F := Ideal) m ρ c (Proc.devRef .tc main_arg4) = (m ((c : Thread nD τ).loc main_arg4)) := by
  dsimp only [Gen.W1, Gen.hostOps0]
  after_results
  all_goals rfl

theorem W2_a4 : Gen.W2 (F := Ideal) m ρ c (Proc.devRef .tc main_arg4) = (m ((c : Thread nD τ).loc main_arg4)) := (Gen.W2_of_ne m ρ c main_arg4 (by decide)).trans (W1_a4 m ρ c)

theorem W3_a4 : Gen.W3 (F := Ideal) m ρ c (Proc.devRef .tc main_arg4) = (m ((c : Thread nD τ).loc main_arg4)) := by
  dsimp only [Gen.W3, Gen.hostOps1]
  after_results_simp
  exact W2_a4 m ρ c

theorem W4_a4 : Gen.W4 (F := Ideal) m ρ c (Proc.devRef .tc main_arg4) = (m ((c : Thread nD τ).loc main_arg4)) := (Gen.W4_of_ne m ρ c main_arg4 (by decide)).trans (W3_a4 m ρ c)

theorem W5_a4 : Gen.W5 (F := Ideal) m ρ c (Proc.devRef .tc main_arg4) = (m ((c : Thread nD τ).loc main_arg4)) := by
  dsimp only [Gen.W5, Gen.hostOps2]
  after_results_simp
  exact W4_a4 m ρ c

theorem W6_a4 : Gen.W6 (F := Ideal) m ρ c (Proc.devRef .tc main_arg4) = (m ((c : Thread nD τ).loc main_arg4)) := (Gen.W6_of_ne m ρ c main_arg4 (by decide)).trans (W5_a4 m ρ c)

theorem W7_a4 : Gen.W7 (F := Ideal) m ρ c (Proc.devRef .tc main_arg4) = (m ((c : Thread nD τ).loc main_arg4)) := by
  dsimp only [Gen.W7, Gen.hostOps3]
  after_results_simp
  exact W6_a4 m ρ c

theorem W8_a4 : Gen.W8 (F := Ideal) m ρ c (Proc.devRef .tc main_arg4) = (m ((c : Thread nD τ).loc main_arg4)) := (Gen.W8_of_ne m ρ c main_arg4 (by decide)).trans (W7_a4 m ρ c)

theorem W9_a4 : Gen.W9 (F := Ideal) m ρ c (Proc.devRef .tc main_arg4) = (m ((c : Thread nD τ).loc main_arg4)) := by
  dsimp only [Gen.W9, Gen.hostOps4]
  after_results_simp
  exact W8_a4 m ρ c

theorem W10_a4 : Gen.W10 (F := Ideal) m ρ c (Proc.devRef .tc main_arg4) = (m ((c : Thread nD τ).loc main_arg4)) := (Gen.W10_of_ne m ρ c main_arg4 (by decide)).trans (W9_a4 m ρ c)

theorem W11_a4 : Gen.W11 (F := Ideal) m ρ c (Proc.devRef .tc main_arg4) = (m ((c : Thread nD τ).loc main_arg4)) := by
  dsimp only [Gen.W11, Gen.hostOps5]
  after_results_simp
  exact W10_a4 m ρ c

theorem W12_a4 : Gen.W12 (F := Ideal) m ρ c (Proc.devRef .tc main_arg4) = (m ((c : Thread nD τ).loc main_arg4)) := (Gen.W12_of_ne m ρ c main_arg4 (by decide)).trans (W11_a4 m ρ c)

theorem W1_a5 : Gen.W1 (F := Ideal) m ρ c (Proc.devRef .tc main_arg5) = (m ((c : Thread nD τ).loc main_arg5)) := by
  dsimp only [Gen.W1, Gen.hostOps0]
  after_results
  all_goals rfl

theorem W2_a5 : Gen.W2 (F := Ideal) m ρ c (Proc.devRef .tc main_arg5) = (m ((c : Thread nD τ).loc main_arg5)) := (Gen.W2_of_ne m ρ c main_arg5 (by decide)).trans (W1_a5 m ρ c)

theorem W3_a5 : Gen.W3 (F := Ideal) m ρ c (Proc.devRef .tc main_arg5) = (m ((c : Thread nD τ).loc main_arg5)) := by
  dsimp only [Gen.W3, Gen.hostOps1]
  after_results_simp
  exact W2_a5 m ρ c

theorem W4_a5 : Gen.W4 (F := Ideal) m ρ c (Proc.devRef .tc main_arg5) = (m ((c : Thread nD τ).loc main_arg5)) := (Gen.W4_of_ne m ρ c main_arg5 (by decide)).trans (W3_a5 m ρ c)

theorem W5_a5 : Gen.W5 (F := Ideal) m ρ c (Proc.devRef .tc main_arg5) = (m ((c : Thread nD τ).loc main_arg5)) := by
  dsimp only [Gen.W5, Gen.hostOps2]
  after_results_simp
  exact W4_a5 m ρ c

theorem W6_a5 : Gen.W6 (F := Ideal) m ρ c (Proc.devRef .tc main_arg5) = (m ((c : Thread nD τ).loc main_arg5)) := (Gen.W6_of_ne m ρ c main_arg5 (by decide)).trans (W5_a5 m ρ c)

theorem W7_a5 : Gen.W7 (F := Ideal) m ρ c (Proc.devRef .tc main_arg5) = (m ((c : Thread nD τ).loc main_arg5)) := by
  dsimp only [Gen.W7, Gen.hostOps3]
  after_results_simp
  exact W6_a5 m ρ c

theorem W8_a5 : Gen.W8 (F := Ideal) m ρ c (Proc.devRef .tc main_arg5) = (m ((c : Thread nD τ).loc main_arg5)) := (Gen.W8_of_ne m ρ c main_arg5 (by decide)).trans (W7_a5 m ρ c)

theorem W9_a5 : Gen.W9 (F := Ideal) m ρ c (Proc.devRef .tc main_arg5) = (m ((c : Thread nD τ).loc main_arg5)) := by
  dsimp only [Gen.W9, Gen.hostOps4]
  after_results_simp
  exact W8_a5 m ρ c

theorem W10_a5 : Gen.W10 (F := Ideal) m ρ c (Proc.devRef .tc main_arg5) = (m ((c : Thread nD τ).loc main_arg5)) := (Gen.W10_of_ne m ρ c main_arg5 (by decide)).trans (W9_a5 m ρ c)

theorem W11_a5 : Gen.W11 (F := Ideal) m ρ c (Proc.devRef .tc main_arg5) = (m ((c : Thread nD τ).loc main_arg5)) := by
  dsimp only [Gen.W11, Gen.hostOps5]
  after_results_simp
  exact W10_a5 m ρ c

theorem W12_a5 : Gen.W12 (F := Ideal) m ρ c (Proc.devRef .tc main_arg5) = (m ((c : Thread nD τ).loc main_arg5)) := (Gen.W12_of_ne m ρ c main_arg5 (by decide)).trans (W11_a5 m ρ c)

theorem W1_a8 : Gen.W1 (F := Ideal) m ρ c (Proc.devRef .tc main_arg8) = (m ((c : Thread nD τ).loc main_arg8)) := by
  dsimp only [Gen.W1, Gen.hostOps0]
  after_results
  all_goals rfl

theorem W2_a8 : Gen.W2 (F := Ideal) m ρ c (Proc.devRef .tc main_arg8) = (m ((c : Thread nD τ).loc main_arg8)) := (Gen.W2_of_ne m ρ c main_arg8 (by decide)).trans (W1_a8 m ρ c)

theorem W1_a9 : Gen.W1 (F := Ideal) m ρ c (Proc.devRef .tc main_arg9) = (m ((c : Thread nD τ).loc main_arg9)) := by
  dsimp only [Gen.W1, Gen.hostOps0]
  after_results
  all_goals rfl

theorem W2_a9 : Gen.W2 (F := Ideal) m ρ c (Proc.devRef .tc main_arg9) = (m ((c : Thread nD τ).loc main_arg9)) := (Gen.W2_of_ne m ρ c main_arg9 (by decide)).trans (W1_a9 m ρ c)

theorem W1_a10 : Gen.W1 (F := Ideal) m ρ c (Proc.devRef .tc main_arg10) = (m ((c : Thread nD τ).loc main_arg10)) := by
  dsimp only [Gen.W1, Gen.hostOps0]
  after_results
  all_goals rfl

theorem W2_a10 : Gen.W2 (F := Ideal) m ρ c (Proc.devRef .tc main_arg10) = (m ((c : Thread nD τ).loc main_arg10)) := (Gen.W2_of_ne m ρ c main_arg10 (by decide)).trans (W1_a10 m ρ c)

theorem W3_a10 : Gen.W3 (F := Ideal) m ρ c (Proc.devRef .tc main_arg10) = (m ((c : Thread nD τ).loc main_arg10)) := by
  dsimp only [Gen.W3, Gen.hostOps1]
  after_results_simp
  exact W2_a10 m ρ c

theorem W4_a10 : Gen.W4 (F := Ideal) m ρ c (Proc.devRef .tc main_arg10) = (m ((c : Thread nD τ).loc main_arg10)) := (Gen.W4_of_ne m ρ c main_arg10 (by decide)).trans (W3_a10 m ρ c)

theorem W1_a11 : Gen.W1 (F := Ideal) m ρ c (Proc.devRef .tc main_arg11) = (m ((c : Thread nD τ).loc main_arg11)) := by
  dsimp only [Gen.W1, Gen.hostOps0]
  after_results
  all_goals rfl

theorem W2_a11 : Gen.W2 (F := Ideal) m ρ c (Proc.devRef .tc main_arg11) = (m ((c : Thread nD τ).loc main_arg11)) := (Gen.W2_of_ne m ρ c main_arg11 (by decide)).trans (W1_a11 m ρ c)

theorem W3_a11 : Gen.W3 (F := Ideal) m ρ c (Proc.devRef .tc main_arg11) = (m ((c : Thread nD τ).loc main_arg11)) := by
  dsimp only [Gen.W3, Gen.hostOps1]
  after_results_simp
  exact W2_a11 m ρ c

theorem W4_a11 : Gen.W4 (F := Ideal) m ρ c (Proc.devRef .tc main_arg11) = (m ((c : Thread nD τ).loc main_arg11)) := (Gen.W4_of_ne m ρ c main_arg11 (by decide)).trans (W3_a11 m ρ c)

theorem W1_a12 : Gen.W1 (F := Ideal) m ρ c (Proc.devRef .tc main_arg12) = (m ((c : Thread nD τ).loc main_arg12)) := by
  dsimp only [Gen.W1, Gen.hostOps0]
  after_results
  all_goals rfl

theorem W2_a12 : Gen.W2 (F := Ideal) m ρ c (Proc.devRef .tc main_arg12) = (m ((c : Thread nD τ).loc main_arg12)) := (Gen.W2_of_ne m ρ c main_arg12 (by decide)).trans (W1_a12 m ρ c)

theorem W3_a12 : Gen.W3 (F := Ideal) m ρ c (Proc.devRef .tc main_arg12) = (m ((c : Thread nD τ).loc main_arg12)) := by
  dsimp only [Gen.W3, Gen.hostOps1]
  after_results_simp
  exact W2_a12 m ρ c

theorem W4_a12 : Gen.W4 (F := Ideal) m ρ c (Proc.devRef .tc main_arg12) = (m ((c : Thread nD τ).loc main_arg12)) := (Gen.W4_of_ne m ρ c main_arg12 (by decide)).trans (W3_a12 m ρ c)

theorem W1_a13 : Gen.W1 (F := Ideal) m ρ c (Proc.devRef .tc main_arg13) = (m ((c : Thread nD τ).loc main_arg13)) := by
  dsimp only [Gen.W1, Gen.hostOps0]
  after_results
  all_goals rfl

theorem W2_a13 : Gen.W2 (F := Ideal) m ρ c (Proc.devRef .tc main_arg13) = (m ((c : Thread nD τ).loc main_arg13)) := (Gen.W2_of_ne m ρ c main_arg13 (by decide)).trans (W1_a13 m ρ c)

theorem W3_a13 : Gen.W3 (F := Ideal) m ρ c (Proc.devRef .tc main_arg13) = (m ((c : Thread nD τ).loc main_arg13)) := by
  dsimp only [Gen.W3, Gen.hostOps1]
  after_results_simp
  exact W2_a13 m ρ c

theorem W4_a13 : Gen.W4 (F := Ideal) m ρ c (Proc.devRef .tc main_arg13) = (m ((c : Thread nD τ).loc main_arg13)) := (Gen.W4_of_ne m ρ c main_arg13 (by decide)).trans (W3_a13 m ρ c)

theorem W5_a13 : Gen.W5 (F := Ideal) m ρ c (Proc.devRef .tc main_arg13) = (m ((c : Thread nD τ).loc main_arg13)) := by
  dsimp only [Gen.W5, Gen.hostOps2]
  after_results_simp
  exact W4_a13 m ρ c

theorem W6_a13 : Gen.W6 (F := Ideal) m ρ c (Proc.devRef .tc main_arg13) = (m ((c : Thread nD τ).loc main_arg13)) := (Gen.W6_of_ne m ρ c main_arg13 (by decide)).trans (W5_a13 m ρ c)

theorem W1_a14 : Gen.W1 (F := Ideal) m ρ c (Proc.devRef .tc main_arg14) = (m ((c : Thread nD τ).loc main_arg14)) := by
  dsimp only [Gen.W1, Gen.hostOps0]
  after_results
  all_goals rfl

theorem W2_a14 : Gen.W2 (F := Ideal) m ρ c (Proc.devRef .tc main_arg14) = (m ((c : Thread nD τ).loc main_arg14)) := (Gen.W2_of_ne m ρ c main_arg14 (by decide)).trans (W1_a14 m ρ c)

theorem W3_a14 : Gen.W3 (F := Ideal) m ρ c (Proc.devRef .tc main_arg14) = (m ((c : Thread nD τ).loc main_arg14)) := by
  dsimp only [Gen.W3, Gen.hostOps1]
  after_results_simp
  exact W2_a14 m ρ c

theorem W4_a14 : Gen.W4 (F := Ideal) m ρ c (Proc.devRef .tc main_arg14) = (m ((c : Thread nD τ).loc main_arg14)) := (Gen.W4_of_ne m ρ c main_arg14 (by decide)).trans (W3_a14 m ρ c)

theorem W5_a14 : Gen.W5 (F := Ideal) m ρ c (Proc.devRef .tc main_arg14) = (m ((c : Thread nD τ).loc main_arg14)) := by
  dsimp only [Gen.W5, Gen.hostOps2]
  after_results_simp
  exact W4_a14 m ρ c

theorem W6_a14 : Gen.W6 (F := Ideal) m ρ c (Proc.devRef .tc main_arg14) = (m ((c : Thread nD τ).loc main_arg14)) := (Gen.W6_of_ne m ρ c main_arg14 (by decide)).trans (W5_a14 m ρ c)

theorem W1_a15 : Gen.W1 (F := Ideal) m ρ c (Proc.devRef .tc main_arg15) = (m ((c : Thread nD τ).loc main_arg15)) := by
  dsimp only [Gen.W1, Gen.hostOps0]
  after_results
  all_goals rfl

theorem W2_a15 : Gen.W2 (F := Ideal) m ρ c (Proc.devRef .tc main_arg15) = (m ((c : Thread nD τ).loc main_arg15)) := (Gen.W2_of_ne m ρ c main_arg15 (by decide)).trans (W1_a15 m ρ c)

theorem W3_a15 : Gen.W3 (F := Ideal) m ρ c (Proc.devRef .tc main_arg15) = (m ((c : Thread nD τ).loc main_arg15)) := by
  dsimp only [Gen.W3, Gen.hostOps1]
  after_results_simp
  exact W2_a15 m ρ c

theorem W4_a15 : Gen.W4 (F := Ideal) m ρ c (Proc.devRef .tc main_arg15) = (m ((c : Thread nD τ).loc main_arg15)) := (Gen.W4_of_ne m ρ c main_arg15 (by decide)).trans (W3_a15 m ρ c)

theorem W5_a15 : Gen.W5 (F := Ideal) m ρ c (Proc.devRef .tc main_arg15) = (m ((c : Thread nD τ).loc main_arg15)) := by
  dsimp only [Gen.W5, Gen.hostOps2]
  after_results_simp
  exact W4_a15 m ρ c

theorem W6_a15 : Gen.W6 (F := Ideal) m ρ c (Proc.devRef .tc main_arg15) = (m ((c : Thread nD τ).loc main_arg15)) := (Gen.W6_of_ne m ρ c main_arg15 (by decide)).trans (W5_a15 m ρ c)

theorem W1_a16 : Gen.W1 (F := Ideal) m ρ c (Proc.devRef .tc main_arg16) = (m ((c : Thread nD τ).loc main_arg16)) := by
  dsimp only [Gen.W1, Gen.hostOps0]
  after_results
  all_goals rfl

theorem W2_a16 : Gen.W2 (F := Ideal) m ρ c (Proc.devRef .tc main_arg16) = (m ((c : Thread nD τ).loc main_arg16)) := (Gen.W2_of_ne m ρ c main_arg16 (by decide)).trans (W1_a16 m ρ c)

theorem W3_a16 : Gen.W3 (F := Ideal) m ρ c (Proc.devRef .tc main_arg16) = (m ((c : Thread nD τ).loc main_arg16)) := by
  dsimp only [Gen.W3, Gen.hostOps1]
  after_results_simp
  exact W2_a16 m ρ c

theorem W4_a16 : Gen.W4 (F := Ideal) m ρ c (Proc.devRef .tc main_arg16) = (m ((c : Thread nD τ).loc main_arg16)) := (Gen.W4_of_ne m ρ c main_arg16 (by decide)).trans (W3_a16 m ρ c)

theorem W5_a16 : Gen.W5 (F := Ideal) m ρ c (Proc.devRef .tc main_arg16) = (m ((c : Thread nD τ).loc main_arg16)) := by
  dsimp only [Gen.W5, Gen.hostOps2]
  after_results_simp
  exact W4_a16 m ρ c

theorem W6_a16 : Gen.W6 (F := Ideal) m ρ c (Proc.devRef .tc main_arg16) = (m ((c : Thread nD τ).loc main_arg16)) := (Gen.W6_of_ne m ρ c main_arg16 (by decide)).trans (W5_a16 m ρ c)

theorem W7_a16 : Gen.W7 (F := Ideal) m ρ c (Proc.devRef .tc main_arg16) = (m ((c : Thread nD τ).loc main_arg16)) := by
  dsimp only [Gen.W7, Gen.hostOps3]
  after_results_simp
  exact W6_a16 m ρ c

theorem W8_a16 : Gen.W8 (F := Ideal) m ρ c (Proc.devRef .tc main_arg16) = (m ((c : Thread nD τ).loc main_arg16)) := (Gen.W8_of_ne m ρ c main_arg16 (by decide)).trans (W7_a16 m ρ c)

theorem W1_a17 : Gen.W1 (F := Ideal) m ρ c (Proc.devRef .tc main_arg17) = (m ((c : Thread nD τ).loc main_arg17)) := by
  dsimp only [Gen.W1, Gen.hostOps0]
  after_results
  all_goals rfl

theorem W2_a17 : Gen.W2 (F := Ideal) m ρ c (Proc.devRef .tc main_arg17) = (m ((c : Thread nD τ).loc main_arg17)) := (Gen.W2_of_ne m ρ c main_arg17 (by decide)).trans (W1_a17 m ρ c)

theorem W3_a17 : Gen.W3 (F := Ideal) m ρ c (Proc.devRef .tc main_arg17) = (m ((c : Thread nD τ).loc main_arg17)) := by
  dsimp only [Gen.W3, Gen.hostOps1]
  after_results_simp
  exact W2_a17 m ρ c

theorem W4_a17 : Gen.W4 (F := Ideal) m ρ c (Proc.devRef .tc main_arg17) = (m ((c : Thread nD τ).loc main_arg17)) := (Gen.W4_of_ne m ρ c main_arg17 (by decide)).trans (W3_a17 m ρ c)

theorem W5_a17 : Gen.W5 (F := Ideal) m ρ c (Proc.devRef .tc main_arg17) = (m ((c : Thread nD τ).loc main_arg17)) := by
  dsimp only [Gen.W5, Gen.hostOps2]
  after_results_simp
  exact W4_a17 m ρ c

theorem W6_a17 : Gen.W6 (F := Ideal) m ρ c (Proc.devRef .tc main_arg17) = (m ((c : Thread nD τ).loc main_arg17)) := (Gen.W6_of_ne m ρ c main_arg17 (by decide)).trans (W5_a17 m ρ c)

theorem W7_a17 : Gen.W7 (F := Ideal) m ρ c (Proc.devRef .tc main_arg17) = (m ((c : Thread nD τ).loc main_arg17)) := by
  dsimp only [Gen.W7, Gen.hostOps3]
  after_results_simp
  exact W6_a17 m ρ c

theorem W8_a17 : Gen.W8 (F := Ideal) m ρ c (Proc.devRef .tc main_arg17) = (m ((c : Thread nD τ).loc main_arg17)) := (Gen.W8_of_ne m ρ c main_arg17 (by decide)).trans (W7_a17 m ρ c)

theorem W1_a18 : Gen.W1 (F := Ideal) m ρ c (Proc.devRef .tc main_arg18) = (m ((c : Thread nD τ).loc main_arg18)) := by
  dsimp only [Gen.W1, Gen.hostOps0]
  after_results
  all_goals rfl

theorem W2_a18 : Gen.W2 (F := Ideal) m ρ c (Proc.devRef .tc main_arg18) = (m ((c : Thread nD τ).loc main_arg18)) := (Gen.W2_of_ne m ρ c main_arg18 (by decide)).trans (W1_a18 m ρ c)

theorem W3_a18 : Gen.W3 (F := Ideal) m ρ c (Proc.devRef .tc main_arg18) = (m ((c : Thread nD τ).loc main_arg18)) := by
  dsimp only [Gen.W3, Gen.hostOps1]
  after_results_simp
  exact W2_a18 m ρ c

theorem W4_a18 : Gen.W4 (F := Ideal) m ρ c (Proc.devRef .tc main_arg18) = (m ((c : Thread nD τ).loc main_arg18)) := (Gen.W4_of_ne m ρ c main_arg18 (by decide)).trans (W3_a18 m ρ c)

theorem W5_a18 : Gen.W5 (F := Ideal) m ρ c (Proc.devRef .tc main_arg18) = (m ((c : Thread nD τ).loc main_arg18)) := by
  dsimp only [Gen.W5, Gen.hostOps2]
  after_results_simp
  exact W4_a18 m ρ c

theorem W6_a18 : Gen.W6 (F := Ideal) m ρ c (Proc.devRef .tc main_arg18) = (m ((c : Thread nD τ).loc main_arg18)) := (Gen.W6_of_ne m ρ c main_arg18 (by decide)).trans (W5_a18 m ρ c)

theorem W7_a18 : Gen.W7 (F := Ideal) m ρ c (Proc.devRef .tc main_arg18) = (m ((c : Thread nD τ).loc main_arg18)) := by
  dsimp only [Gen.W7, Gen.hostOps3]
  after_results_simp
  exact W6_a18 m ρ c

theorem W8_a18 : Gen.W8 (F := Ideal) m ρ c (Proc.devRef .tc main_arg18) = (m ((c : Thread nD τ).loc main_arg18)) := (Gen.W8_of_ne m ρ c main_arg18 (by decide)).trans (W7_a18 m ρ c)

theorem W1_a19 : Gen.W1 (F := Ideal) m ρ c (Proc.devRef .tc main_arg19) = (m ((c : Thread nD τ).loc main_arg19)) := by
  dsimp only [Gen.W1, Gen.hostOps0]
  after_results
  all_goals rfl

theorem W2_a19 : Gen.W2 (F := Ideal) m ρ c (Proc.devRef .tc main_arg19) = (m ((c : Thread nD τ).loc main_arg19)) := (Gen.W2_of_ne m ρ c main_arg19 (by decide)).trans (W1_a19 m ρ c)

theorem W3_a19 : Gen.W3 (F := Ideal) m ρ c (Proc.devRef .tc main_arg19) = (m ((c : Thread nD τ).loc main_arg19)) := by
  dsimp only [Gen.W3, Gen.hostOps1]
  after_results_simp
  exact W2_a19 m ρ c

theorem W4_a19 : Gen.W4 (F := Ideal) m ρ c (Proc.devRef .tc main_arg19) = (m ((c : Thread nD τ).loc main_arg19)) := (Gen.W4_of_ne m ρ c main_arg19 (by decide)).trans (W3_a19 m ρ c)

theorem W5_a19 : Gen.W5 (F := Ideal) m ρ c (Proc.devRef .tc main_arg19) = (m ((c : Thread nD τ).loc main_arg19)) := by
  dsimp only [Gen.W5, Gen.hostOps2]
  after_results_simp
  exact W4_a19 m ρ c

theorem W6_a19 : Gen.W6 (F := Ideal) m ρ c (Proc.devRef .tc main_arg19) = (m ((c : Thread nD τ).loc main_arg19)) := (Gen.W6_of_ne m ρ c main_arg19 (by decide)).trans (W5_a19 m ρ c)

theorem W7_a19 : Gen.W7 (F := Ideal) m ρ c (Proc.devRef .tc main_arg19) = (m ((c : Thread nD τ).loc main_arg19)) := by
  dsimp only [Gen.W7, Gen.hostOps3]
  after_results_simp
  exact W6_a19 m ρ c

theorem W8_a19 : Gen.W8 (F := Ideal) m ρ c (Proc.devRef .tc main_arg19) = (m ((c : Thread nD τ).loc main_arg19)) := (Gen.W8_of_ne m ρ c main_arg19 (by decide)).trans (W7_a19 m ρ c)

theorem W9_a19 : Gen.W9 (F := Ideal) m ρ c (Proc.devRef .tc main_arg19) = (m ((c : Thread nD τ).loc main_arg19)) := by
  dsimp only [Gen.W9, Gen.hostOps4]
  after_results_simp
  exact W8_a19 m ρ c

theorem W10_a19 : Gen.W10 (F := Ideal) m ρ c (Proc.devRef .tc main_arg19) = (m ((c : Thread nD τ).loc main_arg19)) := (Gen.W10_of_ne m ρ c main_arg19 (by decide)).trans (W9_a19 m ρ c)

theorem W1_a20 : Gen.W1 (F := Ideal) m ρ c (Proc.devRef .tc main_arg20) = (m ((c : Thread nD τ).loc main_arg20)) := by
  dsimp only [Gen.W1, Gen.hostOps0]
  after_results
  all_goals rfl

theorem W2_a20 : Gen.W2 (F := Ideal) m ρ c (Proc.devRef .tc main_arg20) = (m ((c : Thread nD τ).loc main_arg20)) := (Gen.W2_of_ne m ρ c main_arg20 (by decide)).trans (W1_a20 m ρ c)

theorem W3_a20 : Gen.W3 (F := Ideal) m ρ c (Proc.devRef .tc main_arg20) = (m ((c : Thread nD τ).loc main_arg20)) := by
  dsimp only [Gen.W3, Gen.hostOps1]
  after_results_simp
  exact W2_a20 m ρ c

theorem W4_a20 : Gen.W4 (F := Ideal) m ρ c (Proc.devRef .tc main_arg20) = (m ((c : Thread nD τ).loc main_arg20)) := (Gen.W4_of_ne m ρ c main_arg20 (by decide)).trans (W3_a20 m ρ c)

theorem W5_a20 : Gen.W5 (F := Ideal) m ρ c (Proc.devRef .tc main_arg20) = (m ((c : Thread nD τ).loc main_arg20)) := by
  dsimp only [Gen.W5, Gen.hostOps2]
  after_results_simp
  exact W4_a20 m ρ c

theorem W6_a20 : Gen.W6 (F := Ideal) m ρ c (Proc.devRef .tc main_arg20) = (m ((c : Thread nD τ).loc main_arg20)) := (Gen.W6_of_ne m ρ c main_arg20 (by decide)).trans (W5_a20 m ρ c)

theorem W7_a20 : Gen.W7 (F := Ideal) m ρ c (Proc.devRef .tc main_arg20) = (m ((c : Thread nD τ).loc main_arg20)) := by
  dsimp only [Gen.W7, Gen.hostOps3]
  after_results_simp
  exact W6_a20 m ρ c

theorem W8_a20 : Gen.W8 (F := Ideal) m ρ c (Proc.devRef .tc main_arg20) = (m ((c : Thread nD τ).loc main_arg20)) := (Gen.W8_of_ne m ρ c main_arg20 (by decide)).trans (W7_a20 m ρ c)

theorem W9_a20 : Gen.W9 (F := Ideal) m ρ c (Proc.devRef .tc main_arg20) = (m ((c : Thread nD τ).loc main_arg20)) := by
  dsimp only [Gen.W9, Gen.hostOps4]
  after_results_simp
  exact W8_a20 m ρ c

theorem W10_a20 : Gen.W10 (F := Ideal) m ρ c (Proc.devRef .tc main_arg20) = (m ((c : Thread nD τ).loc main_arg20)) := (Gen.W10_of_ne m ρ c main_arg20 (by decide)).trans (W9_a20 m ρ c)

theorem W1_a21 : Gen.W1 (F := Ideal) m ρ c (Proc.devRef .tc main_arg21) = (m ((c : Thread nD τ).loc main_arg21)) := by
  dsimp only [Gen.W1, Gen.hostOps0]
  after_results
  all_goals rfl

theorem W2_a21 : Gen.W2 (F := Ideal) m ρ c (Proc.devRef .tc main_arg21) = (m ((c : Thread nD τ).loc main_arg21)) := (Gen.W2_of_ne m ρ c main_arg21 (by decide)).trans (W1_a21 m ρ c)

theorem W3_a21 : Gen.W3 (F := Ideal) m ρ c (Proc.devRef .tc main_arg21) = (m ((c : Thread nD τ).loc main_arg21)) := by
  dsimp only [Gen.W3, Gen.hostOps1]
  after_results_simp
  exact W2_a21 m ρ c

theorem W4_a21 : Gen.W4 (F := Ideal) m ρ c (Proc.devRef .tc main_arg21) = (m ((c : Thread nD τ).loc main_arg21)) := (Gen.W4_of_ne m ρ c main_arg21 (by decide)).trans (W3_a21 m ρ c)

theorem W5_a21 : Gen.W5 (F := Ideal) m ρ c (Proc.devRef .tc main_arg21) = (m ((c : Thread nD τ).loc main_arg21)) := by
  dsimp only [Gen.W5, Gen.hostOps2]
  after_results_simp
  exact W4_a21 m ρ c

theorem W6_a21 : Gen.W6 (F := Ideal) m ρ c (Proc.devRef .tc main_arg21) = (m ((c : Thread nD τ).loc main_arg21)) := (Gen.W6_of_ne m ρ c main_arg21 (by decide)).trans (W5_a21 m ρ c)

theorem W7_a21 : Gen.W7 (F := Ideal) m ρ c (Proc.devRef .tc main_arg21) = (m ((c : Thread nD τ).loc main_arg21)) := by
  dsimp only [Gen.W7, Gen.hostOps3]
  after_results_simp
  exact W6_a21 m ρ c

theorem W8_a21 : Gen.W8 (F := Ideal) m ρ c (Proc.devRef .tc main_arg21) = (m ((c : Thread nD τ).loc main_arg21)) := (Gen.W8_of_ne m ρ c main_arg21 (by decide)).trans (W7_a21 m ρ c)

theorem W9_a21 : Gen.W9 (F := Ideal) m ρ c (Proc.devRef .tc main_arg21) = (m ((c : Thread nD τ).loc main_arg21)) := by
  dsimp only [Gen.W9, Gen.hostOps4]
  after_results_simp
  exact W8_a21 m ρ c

theorem W10_a21 : Gen.W10 (F := Ideal) m ρ c (Proc.devRef .tc main_arg21) = (m ((c : Thread nD τ).loc main_arg21)) := (Gen.W10_of_ne m ρ c main_arg21 (by decide)).trans (W9_a21 m ρ c)

/-! ## The first projection -/

theorem V1_arg0 : Gen.V1 (F := Ideal) m ρ c main_arg0 = (m ((c : Thread nD τ).loc main_arg0)) := by
  dsimp only [Gen.V1, Gen.W1, Gen.hostOps0]; after_results; all_goals rfl

theorem V1_v0 : Gen.V1 (F := Ideal) m ρ c main_v0 = (transpose S128x128 [1, 0] (m ((c : Thread nD τ).loc main_arg6)) transposes_S128x128_S128x128_1_0) := by
  dsimp only [Gen.V1, Gen.W1, Gen.hostOps0]; after_results; all_goals rfl

theorem V1_v1 : Gen.V1 (F := Ideal) m ρ c main_v1 = (shapeCast S1x128 (m ((c : Thread nD τ).loc main_arg7)) shapeCasts_S128_S1x128) := by
  dsimp only [Gen.V1, Gen.W1, Gen.hostOps0]; after_results; all_goals rfl

/-- The user features after the first launch are the reference's. -/
theorem W2_v2 : Gen.W2 (F := Ideal) m ρ c (Proc.devRef .tc main_v2) = (val_main_v4 (F := Ideal) (m ((c : Thread nD τ).loc main_arg0)) (m ((c : Thread nD τ).loc main_arg6)) (m ((c : Thread nD τ).loc main_arg7))) := by
  refine (Cert.KValue.Linear.out0 m ρ c).trans ?_
  rw [V1_arg0 m ρ c, V1_v0 m ρ c, V1_v1 m ρ c]
  exact (Cert.RefStages.ref_v4 _ _ _).symm

theorem W3_v2 : Gen.W3 (F := Ideal) m ρ c (Proc.devRef .tc main_v2) = (val_main_v4 (F := Ideal) (m ((c : Thread nD τ).loc main_arg0)) (m ((c : Thread nD τ).loc main_arg6)) (m ((c : Thread nD τ).loc main_arg7))) := by
  dsimp only [Gen.W3, Gen.hostOps1]
  after_results_simp
  exact W2_v2 m ρ c

theorem W4_v2 : Gen.W4 (F := Ideal) m ρ c (Proc.devRef .tc main_v2) = (val_main_v4 (F := Ideal) (m ((c : Thread nD τ).loc main_arg0)) (m ((c : Thread nD τ).loc main_arg6)) (m ((c : Thread nD τ).loc main_arg7))) := (Gen.W4_of_ne m ρ c main_v2 (by decide)).trans (W3_v2 m ρ c)

theorem W5_v2 : Gen.W5 (F := Ideal) m ρ c (Proc.devRef .tc main_v2) = (val_main_v4 (F := Ideal) (m ((c : Thread nD τ).loc main_arg0)) (m ((c : Thread nD τ).loc main_arg6)) (m ((c : Thread nD τ).loc main_arg7))) := by
  dsimp only [Gen.W5, Gen.hostOps2]
  after_results_simp
  exact W4_v2 m ρ c

theorem W6_v2 : Gen.W6 (F := Ideal) m ρ c (Proc.devRef .tc main_v2) = (val_main_v4 (F := Ideal) (m ((c : Thread nD τ).loc main_arg0)) (m ((c : Thread nD τ).loc main_arg6)) (m ((c : Thread nD τ).loc main_arg7))) := (Gen.W6_of_ne m ρ c main_v2 (by decide)).trans (W5_v2 m ρ c)

theorem W7_v2 : Gen.W7 (F := Ideal) m ρ c (Proc.devRef .tc main_v2) = (val_main_v4 (F := Ideal) (m ((c : Thread nD τ).loc main_arg0)) (m ((c : Thread nD τ).loc main_arg6)) (m ((c : Thread nD τ).loc main_arg7))) := by
  dsimp only [Gen.W7, Gen.hostOps3]
  after_results_simp
  exact W6_v2 m ρ c

/-! ## The second projection -/

theorem V3_arg1 : Gen.V3 (F := Ideal) m ρ c main_arg1 = (m ((c : Thread nD τ).loc main_arg1)) := by
  dsimp only [Gen.V3, Gen.W3, Gen.hostOps1]
  after_results_simp
  exact W2_a1 m ρ c

theorem V3_v3 : Gen.V3 (F := Ideal) m ρ c main_v3 = (transpose S256x128 [1, 0] (m ((c : Thread nD τ).loc main_arg8)) transposes_S128x256_S256x128_1_0) := by
  dsimp only [Gen.V3, Gen.W3, Gen.hostOps1]
  after_results_simp
  rw [W2_a8 m ρ c]
  all_goals rfl

theorem V3_v4 : Gen.V3 (F := Ideal) m ρ c main_v4 = (shapeCast S1x128 (m ((c : Thread nD τ).loc main_arg9)) shapeCasts_S128_S1x128) := by
  dsimp only [Gen.V3, Gen.W3, Gen.hostOps1]
  after_results_simp
  rw [W2_a9 m ρ c]
  all_goals rfl

/-- The recipe features after the second launch are the reference's. -/
theorem W4_v5 : Gen.W4 (F := Ideal) m ρ c (Proc.devRef .tc main_v5) = (val_main_v9 (F := Ideal) (m ((c : Thread nD τ).loc main_arg1)) (m ((c : Thread nD τ).loc main_arg8)) (m ((c : Thread nD τ).loc main_arg9))) := by
  refine (Cert.KValue.Linear.out1 m ρ c).trans ?_
  rw [V3_arg1 m ρ c, V3_v3 m ρ c, V3_v4 m ρ c]
  exact (Cert.RefStages.ref_v9 _ _ _).symm

theorem W5_v5 : Gen.W5 (F := Ideal) m ρ c (Proc.devRef .tc main_v5) = (val_main_v9 (F := Ideal) (m ((c : Thread nD τ).loc main_arg1)) (m ((c : Thread nD τ).loc main_arg8)) (m ((c : Thread nD τ).loc main_arg9))) := by
  dsimp only [Gen.W5, Gen.hostOps2]
  after_results_simp
  exact W4_v5 m ρ c

theorem W6_v5 : Gen.W6 (F := Ideal) m ρ c (Proc.devRef .tc main_v5) = (val_main_v9 (F := Ideal) (m ((c : Thread nD τ).loc main_arg1)) (m ((c : Thread nD τ).loc main_arg8)) (m ((c : Thread nD τ).loc main_arg9))) := ((Gen.W6_arr m ρ c 2).trans (((Gen.dat2 (Gen.V5 m ρ) c).arrAt_in 2 rfl _).trans (Gen.A_eq2 (Gen.V5 m ρ) c 2))).trans (W5_v5 m ρ c)

/-! ## Layer one at the recipes -/

theorem W5_v33 : Gen.W5 (F := Ideal) m ρ c (Proc.devRef .tc main_v33) = (val_main_v19 (F := Ideal) (m ((c : Thread nD τ).loc main_arg0)) (m ((c : Thread nD τ).loc main_arg2)) (m ((c : Thread nD τ).loc main_arg3)) (m ((c : Thread nD τ).loc main_arg6)) (m ((c : Thread nD τ).loc main_arg7))) := by
  dsimp only [Gen.W5, Gen.hostOps2]
  after_results_simp
  rw [W4_v2 m ρ c, W4_a2 m ρ c, W4_a3 m ρ c]
  all_goals rfl

theorem W5_v17 : Gen.W5 (F := Ideal) m ρ c (Proc.devRef .tc main_v17) = (shapeCast S50000x1 (Host.divf (broadcastInDim S50000 ![] bcast_S_S50000 (constant (F := Ideal) S_ .f32 0x3F800000#32)) (val_main_v25 (F := Ideal) (m ((c : Thread nD τ).loc main_arg3)))) shapeCasts_S50000_S50000x1) := by
  dsimp only [Gen.W5, Gen.hostOps2]
  after_results_simp
  rw [W4_a3 m ρ c]
  all_goals rfl

theorem W5_v22 : Gen.W5 (F := Ideal) m ρ c (Proc.devRef .tc main_v22) = (shapeCast S100000x1 (Host.divf (broadcastInDim S100000 ![] bcast_S_S100000 (constant (F := Ideal) S_ .f32 0x3F800000#32)) (val_main_v53 (F := Ideal) (m ((c : Thread nD τ).loc main_arg2)))) shapeCasts_S100000_S100000x1) := by
  dsimp only [Gen.W5, Gen.hostOps2]
  after_results_simp
  rw [W4_a2 m ρ c]
  all_goals rfl

theorem W5_v34 : Gen.W5 (F := Ideal) m ρ c (Proc.devRef .tc main_v34) = (transpose S128x128 [1, 0] (m ((c : Thread nD τ).loc main_arg10)) transposes_S128x128_S128x128_1_0) := by
  dsimp only [Gen.W5, Gen.hostOps2]
  after_results_simp
  rw [W4_a10 m ρ c]
  all_goals rfl

theorem W5_v36 : Gen.W5 (F := Ideal) m ρ c (Proc.devRef .tc main_v36) = (shapeCast S1x128 (m ((c : Thread nD τ).loc main_arg11)) shapeCasts_S128_S1x128) := by
  dsimp only [Gen.W5, Gen.hostOps2]
  after_results_simp
  rw [W4_a11 m ρ c]
  all_goals rfl

theorem W5_v35 : Gen.W5 (F := Ideal) m ρ c (Proc.devRef .tc main_v35) = (transpose S128x128 [1, 0] (m ((c : Thread nD τ).loc main_arg12)) transposes_S128x128_S128x128_1_0) := by
  dsimp only [Gen.W5, Gen.hostOps2]
  after_results_simp
  rw [W4_a12 m ρ c]
  all_goals rfl

/-- The recipe features after layer one are the reference's. -/
theorem W6_v37 : Gen.W6 (F := Ideal) m ρ c (Proc.devRef .tc main_v37) = (val_main_v37 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) := by
  refine (Cert.KValue.Conv.out2 m ρ c).trans ?_
  rw [show Gen.V5 (F := Ideal) m ρ c main_v33 = _ from W5_v33 m ρ c, show Gen.V5 (F := Ideal) m ρ c main_v17 = _ from W5_v17 m ρ c, show Gen.V5 (F := Ideal) m ρ c main_v5 = _ from W5_v5 m ρ c,
    show Gen.V5 (F := Ideal) m ρ c main_v34 = _ from W5_v34 m ρ c, show Gen.V5 (F := Ideal) m ρ c main_v36 = _ from W5_v36 m ρ c, show Gen.V5 (F := Ideal) m ρ c main_v35 = _ from W5_v35 m ρ c]
  exact (Cert.RefStages.ref_v37 _ _ _ _ _ _ _ _ _ _ _).symm

theorem W6_v17 : Gen.W6 (F := Ideal) m ρ c (Proc.devRef .tc main_v17) = (shapeCast S50000x1 (Host.divf (broadcastInDim S50000 ![] bcast_S_S50000 (constant (F := Ideal) S_ .f32 0x3F800000#32)) (val_main_v25 (F := Ideal) (m ((c : Thread nD τ).loc main_arg3)))) shapeCasts_S50000_S50000x1) := ((Gen.W6_arr m ρ c 1).trans (((Gen.dat2 (Gen.V5 m ρ) c).arrAt_in 1 rfl _).trans (Gen.A_eq2 (Gen.V5 m ρ) c 1))).trans (W5_v17 m ρ c)

theorem W7_v17 : Gen.W7 (F := Ideal) m ρ c (Proc.devRef .tc main_v17) = (shapeCast S50000x1 (Host.divf (broadcastInDim S50000 ![] bcast_S_S50000 (constant (F := Ideal) S_ .f32 0x3F800000#32)) (val_main_v25 (F := Ideal) (m ((c : Thread nD τ).loc main_arg3)))) shapeCasts_S50000_S50000x1) := by
  dsimp only [Gen.W7, Gen.hostOps3]
  after_results_simp
  exact W6_v17 m ρ c

theorem W8_v17 : Gen.W8 (F := Ideal) m ρ c (Proc.devRef .tc main_v17) = (shapeCast S50000x1 (Host.divf (broadcastInDim S50000 ![] bcast_S_S50000 (constant (F := Ideal) S_ .f32 0x3F800000#32)) (val_main_v25 (F := Ideal) (m ((c : Thread nD τ).loc main_arg3)))) shapeCasts_S50000_S50000x1) := (Gen.W8_of_ne m ρ c main_v17 (by decide)).trans (W7_v17 m ρ c)

theorem W9_v17 : Gen.W9 (F := Ideal) m ρ c (Proc.devRef .tc main_v17) = (shapeCast S50000x1 (Host.divf (broadcastInDim S50000 ![] bcast_S_S50000 (constant (F := Ideal) S_ .f32 0x3F800000#32)) (val_main_v25 (F := Ideal) (m ((c : Thread nD τ).loc main_arg3)))) shapeCasts_S50000_S50000x1) := by
  dsimp only [Gen.W9, Gen.hostOps4]
  after_results_simp
  exact W8_v17 m ρ c

theorem W6_v22 : Gen.W6 (F := Ideal) m ρ c (Proc.devRef .tc main_v22) = (shapeCast S100000x1 (Host.divf (broadcastInDim S100000 ![] bcast_S_S100000 (constant (F := Ideal) S_ .f32 0x3F800000#32)) (val_main_v53 (F := Ideal) (m ((c : Thread nD τ).loc main_arg2)))) shapeCasts_S100000_S100000x1) := (Gen.W6_of_ne m ρ c main_v22 (by decide)).trans (W5_v22 m ρ c)

theorem W7_v22 : Gen.W7 (F := Ideal) m ρ c (Proc.devRef .tc main_v22) = (shapeCast S100000x1 (Host.divf (broadcastInDim S100000 ![] bcast_S_S100000 (constant (F := Ideal) S_ .f32 0x3F800000#32)) (val_main_v53 (F := Ideal) (m ((c : Thread nD τ).loc main_arg2)))) shapeCasts_S100000_S100000x1) := by
  dsimp only [Gen.W7, Gen.hostOps3]
  after_results_simp
  exact W6_v22 m ρ c

theorem W8_v22 : Gen.W8 (F := Ideal) m ρ c (Proc.devRef .tc main_v22) = (shapeCast S100000x1 (Host.divf (broadcastInDim S100000 ![] bcast_S_S100000 (constant (F := Ideal) S_ .f32 0x3F800000#32)) (val_main_v53 (F := Ideal) (m ((c : Thread nD τ).loc main_arg2)))) shapeCasts_S100000_S100000x1) := ((Gen.W8_arr m ρ c 1).trans (((Gen.dat3 (Gen.V7 m ρ) c).arrAt_in 1 rfl _).trans (Gen.A_eq3 (Gen.V7 m ρ) c 1))).trans (W7_v22 m ρ c)

theorem W9_v22 : Gen.W9 (F := Ideal) m ρ c (Proc.devRef .tc main_v22) = (shapeCast S100000x1 (Host.divf (broadcastInDim S100000 ![] bcast_S_S100000 (constant (F := Ideal) S_ .f32 0x3F800000#32)) (val_main_v53 (F := Ideal) (m ((c : Thread nD τ).loc main_arg2)))) shapeCasts_S100000_S100000x1) := by
  dsimp only [Gen.W9, Gen.hostOps4]
  after_results_simp
  exact W8_v22 m ρ c

theorem W10_v22 : Gen.W10 (F := Ideal) m ρ c (Proc.devRef .tc main_v22) = (shapeCast S100000x1 (Host.divf (broadcastInDim S100000 ![] bcast_S_S100000 (constant (F := Ideal) S_ .f32 0x3F800000#32)) (val_main_v53 (F := Ideal) (m ((c : Thread nD τ).loc main_arg2)))) shapeCasts_S100000_S100000x1) := (Gen.W10_of_ne m ρ c main_v22 (by decide)).trans (W9_v22 m ρ c)

theorem W11_v22 : Gen.W11 (F := Ideal) m ρ c (Proc.devRef .tc main_v22) = (shapeCast S100000x1 (Host.divf (broadcastInDim S100000 ![] bcast_S_S100000 (constant (F := Ideal) S_ .f32 0x3F800000#32)) (val_main_v53 (F := Ideal) (m ((c : Thread nD τ).loc main_arg2)))) shapeCasts_S100000_S100000x1) := by
  dsimp only [Gen.W11, Gen.hostOps5]
  after_results_simp
  exact W10_v22 m ρ c

theorem W7_v37 : Gen.W7 (F := Ideal) m ρ c (Proc.devRef .tc main_v37) = (val_main_v37 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) := by
  dsimp only [Gen.W7, Gen.hostOps3]
  after_results_simp
  exact W6_v37 m ρ c

theorem W8_v37 : Gen.W8 (F := Ideal) m ρ c (Proc.devRef .tc main_v37) = (val_main_v37 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) := (Gen.W8_of_ne m ρ c main_v37 (by decide)).trans (W7_v37 m ρ c)

theorem W9_v37 : Gen.W9 (F := Ideal) m ρ c (Proc.devRef .tc main_v37) = (val_main_v37 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) := by
  dsimp only [Gen.W9, Gen.hostOps4]
  after_results_simp
  exact W8_v37 m ρ c

theorem W10_v37 : Gen.W10 (F := Ideal) m ρ c (Proc.devRef .tc main_v37) = (val_main_v37 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) := ((Gen.W10_arr m ρ c 2).trans (((Gen.dat4 (Gen.V9 m ρ) c).arrAt_in 2 rfl _).trans (Gen.A_eq4 (Gen.V9 m ρ) c 2))).trans (W9_v37 m ρ c)

/-! ## Layer one at the users -/

theorem W7_v48 : Gen.W7 (F := Ideal) m ρ c (Proc.devRef .tc main_v48) = (val_main_v47 (F := Ideal) (m ((c : Thread nD τ).loc main_arg1)) (m ((c : Thread nD τ).loc main_arg2)) (m ((c : Thread nD τ).loc main_arg3)) (m ((c : Thread nD τ).loc main_arg8)) (m ((c : Thread nD τ).loc main_arg9))) := by
  dsimp only [Gen.W7, Gen.hostOps3]
  after_results_simp
  rw [W6_v5 m ρ c, W6_a3 m ρ c, W6_a2 m ρ c]
  all_goals rfl

theorem W7_v49 : Gen.W7 (F := Ideal) m ρ c (Proc.devRef .tc main_v49) = (transpose S128x128 [1, 0] (m ((c : Thread nD τ).loc main_arg13)) transposes_S128x128_S128x128_1_0) := by
  dsimp only [Gen.W7, Gen.hostOps3]
  after_results_simp
  rw [W6_a13 m ρ c]
  all_goals rfl

theorem W7_v51 : Gen.W7 (F := Ideal) m ρ c (Proc.devRef .tc main_v51) = (shapeCast S1x128 (m ((c : Thread nD τ).loc main_arg14)) shapeCasts_S128_S1x128) := by
  dsimp only [Gen.W7, Gen.hostOps3]
  after_results_simp
  rw [W6_a14 m ρ c]
  all_goals rfl

theorem W7_v50 : Gen.W7 (F := Ideal) m ρ c (Proc.devRef .tc main_v50) = (transpose S128x128 [1, 0] (m ((c : Thread nD τ).loc main_arg15)) transposes_S128x128_S128x128_1_0) := by
  dsimp only [Gen.W7, Gen.hostOps3]
  after_results_simp
  rw [W6_a15 m ρ c]
  all_goals rfl

/-- The user features after layer one are the reference's. -/
theorem W8_v52 : Gen.W8 (F := Ideal) m ρ c (Proc.devRef .tc main_v52) = (val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg13)) (m ((c : Thread nD τ).loc main_arg14)) (m ((c : Thread nD τ).loc main_arg15))) := by
  refine (Cert.KValue.Conv.out3 m ρ c).trans ?_
  rw [show Gen.V7 (F := Ideal) m ρ c main_v48 = _ from W7_v48 m ρ c, show Gen.V7 (F := Ideal) m ρ c main_v22 = _ from W7_v22 m ρ c, show Gen.V7 (F := Ideal) m ρ c main_v2 = _ from W7_v2 m ρ c,
    show Gen.V7 (F := Ideal) m ρ c main_v49 = _ from W7_v49 m ρ c, show Gen.V7 (F := Ideal) m ρ c main_v51 = _ from W7_v51 m ρ c, show Gen.V7 (F := Ideal) m ρ c main_v50 = _ from W7_v50 m ρ c]
  exact (Cert.RefStages.ref_v65 _ _ _ _ _ _ _ _ _ _ _).symm

theorem W9_v52 : Gen.W9 (F := Ideal) m ρ c (Proc.devRef .tc main_v52) = (val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg13)) (m ((c : Thread nD τ).loc main_arg14)) (m ((c : Thread nD τ).loc main_arg15))) := by
  dsimp only [Gen.W9, Gen.hostOps4]
  after_results_simp
  exact W8_v52 m ρ c

theorem W10_v52 : Gen.W10 (F := Ideal) m ρ c (Proc.devRef .tc main_v52) = (val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg13)) (m ((c : Thread nD τ).loc main_arg14)) (m ((c : Thread nD τ).loc main_arg15))) := (Gen.W10_of_ne m ρ c main_v52 (by decide)).trans (W9_v52 m ρ c)

theorem W11_v52 : Gen.W11 (F := Ideal) m ρ c (Proc.devRef .tc main_v52) = (val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg13)) (m ((c : Thread nD τ).loc main_arg14)) (m ((c : Thread nD τ).loc main_arg15))) := by
  dsimp only [Gen.W11, Gen.hostOps5]
  after_results_simp
  exact W10_v52 m ρ c

/-! ## Layer two at the recipes -/

theorem W9_v63 : Gen.W9 (F := Ideal) m ρ c (Proc.devRef .tc main_v63) = (val_main_v75 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg13)) (m ((c : Thread nD τ).loc main_arg14)) (m ((c : Thread nD τ).loc main_arg15))) := by
  dsimp only [Gen.W9, Gen.hostOps4]
  after_results_simp
  rw [W8_v52 m ρ c, W8_a2 m ρ c, W8_a3 m ρ c]
  all_goals rfl

theorem W9_v64 : Gen.W9 (F := Ideal) m ρ c (Proc.devRef .tc main_v64) = (transpose S128x64 [1, 0] (m ((c : Thread nD τ).loc main_arg16)) transposes_S64x128_S128x64_1_0) := by
  dsimp only [Gen.W9, Gen.hostOps4]
  after_results_simp
  rw [W8_a16 m ρ c]
  all_goals rfl

theorem W9_v66 : Gen.W9 (F := Ideal) m ρ c (Proc.devRef .tc main_v66) = (shapeCast S1x64 (m ((c : Thread nD τ).loc main_arg17)) shapeCasts_S64_S1x64) := by
  dsimp only [Gen.W9, Gen.hostOps4]
  after_results_simp
  rw [W8_a17 m ρ c]
  all_goals rfl

theorem W9_v65 : Gen.W9 (F := Ideal) m ρ c (Proc.devRef .tc main_v65) = (transpose S128x64 [1, 0] (m ((c : Thread nD τ).loc main_arg18)) transposes_S64x128_S128x64_1_0) := by
  dsimp only [Gen.W9, Gen.hostOps4]
  after_results_simp
  rw [W8_a18 m ρ c]
  all_goals rfl

/-- The recipe embeddings after layer two are the reference's. -/
theorem W10_v67 : Gen.W10 (F := Ideal) m ρ c (Proc.devRef .tc main_v67) = (val_main_v92 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))) := by
  refine (Cert.KValue.Conv2.out4 m ρ c).trans ?_
  rw [show Gen.V9 (F := Ideal) m ρ c main_v63 = _ from W9_v63 m ρ c, show Gen.V9 (F := Ideal) m ρ c main_v17 = _ from W9_v17 m ρ c, show Gen.V9 (F := Ideal) m ρ c main_v37 = _ from W9_v37 m ρ c,
    show Gen.V9 (F := Ideal) m ρ c main_v64 = _ from W9_v64 m ρ c, show Gen.V9 (F := Ideal) m ρ c main_v66 = _ from W9_v66 m ρ c, show Gen.V9 (F := Ideal) m ρ c main_v65 = _ from W9_v65 m ρ c]
  exact (Cert.RefStages.ref_v92 _ _ _ _ _ _ _ _ _ _ _ _ _ _ _ _ _).symm

theorem W11_v67 : Gen.W11 (F := Ideal) m ρ c (Proc.devRef .tc main_v67) = (val_main_v92 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))) := by
  dsimp only [Gen.W11, Gen.hostOps5]
  after_results_simp
  exact W10_v67 m ρ c

theorem W12_v67 : Gen.W12 (F := Ideal) m ρ c (Proc.devRef .tc main_v67) = (val_main_v92 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))) := (Gen.W12_of_ne m ρ c main_v67 (by decide)).trans (W11_v67 m ρ c)

/-! ## Layer two at the users -/

theorem W11_v78 : Gen.W11 (F := Ideal) m ρ c (Proc.devRef .tc main_v78) = (val_main_v102 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) := by
  dsimp only [Gen.W11, Gen.hostOps5]
  after_results_simp
  rw [W10_v37 m ρ c, W10_a3 m ρ c, W10_a2 m ρ c]
  all_goals rfl

theorem W11_v79 : Gen.W11 (F := Ideal) m ρ c (Proc.devRef .tc main_v79) = (transpose S128x64 [1, 0] (m ((c : Thread nD τ).loc main_arg19)) transposes_S64x128_S128x64_1_0) := by
  dsimp only [Gen.W11, Gen.hostOps5]
  after_results_simp
  rw [W10_a19 m ρ c]
  all_goals rfl

theorem W11_v81 : Gen.W11 (F := Ideal) m ρ c (Proc.devRef .tc main_v81) = (shapeCast S1x64 (m ((c : Thread nD τ).loc main_arg20)) shapeCasts_S64_S1x64) := by
  dsimp only [Gen.W11, Gen.hostOps5]
  after_results_simp
  rw [W10_a20 m ρ c]
  all_goals rfl

theorem W11_v80 : Gen.W11 (F := Ideal) m ρ c (Proc.devRef .tc main_v80) = (transpose S128x64 [1, 0] (m ((c : Thread nD τ).loc main_arg21)) transposes_S64x128_S128x64_1_0) := by
  dsimp only [Gen.W11, Gen.hostOps5]
  after_results_simp
  rw [W10_a21 m ρ c]
  all_goals rfl

/-- The user embeddings after layer two are the reference's. -/
theorem W12_v82 : Gen.W12 (F := Ideal) m ρ c (Proc.devRef .tc main_v82) = (val_main_v119 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg19)) (m ((c : Thread nD τ).loc main_arg20)) (m ((c : Thread nD τ).loc main_arg21))) := by
  refine (Cert.KValue.Conv2.out5 m ρ c).trans ?_
  rw [show Gen.V11 (F := Ideal) m ρ c main_v78 = _ from W11_v78 m ρ c, show Gen.V11 (F := Ideal) m ρ c main_v22 = _ from W11_v22 m ρ c, show Gen.V11 (F := Ideal) m ρ c main_v52 = _ from W11_v52 m ρ c,
    show Gen.V11 (F := Ideal) m ρ c main_v79 = _ from W11_v79 m ρ c, show Gen.V11 (F := Ideal) m ρ c main_v81 = _ from W11_v81 m ρ c, show Gen.V11 (F := Ideal) m ρ c main_v80 = _ from W11_v80 m ρ c]
  exact (Cert.RefStages.ref_v119 _ _ _ _ _ _ _ _ _ _ _ _ _ _ _ _ _).symm

end Cert.KChain

end
-- ==== Proof.LibRowReduce.lean ====
/-
  Reductions along the rows of a matrix, read at one row.

  For an [n, d] matrix reduced over its second axis into an [n] vector, the entry at row p is the reduction of the
  entries (p, 0), …, (p, d-1): a sum for an add-reduction, the fold of `max` from the start value for a
  maximum-reduction.  Stated for the kernel's vector reductions and for the host's one-operand reduce, at the
  extended reals, for any extents and float format.
-/
import Idealize.ShloMosaic.PureOps.Ideal.Laws
import Idealize.ShloMosaic.Lib.ValueIdx

noncomputable section
namespace Cert.LibRowReduce
open Idealize.ShloMosaic Idealize.ShloMosaic.ValueIdx

variable {φ : FTy}

/-- Row p with the coordinate o put back on the reduced axis is the entry (p, o). -/
theorem lift_row {n d : ℕ} (h : (⟨2, ![n, d]⟩ : Shape).Reduces [1] ⟨1, ![n]⟩) (p : Fin n) (o : Fin d) :
    h.lift (ix1 p) o = ix2 p o :=
  funext fun a => Fin.ext (by
    match a with
    | ⟨0, _⟩ => rfl
    | ⟨1, _⟩ => rfl)

/-- A vector add-reduction along the rows: the row's sum. -/
theorem multiReduction_add_row {n d : ℕ} (src : FVec Ideal ⟨2, ![n, d]⟩ φ) (acc : BitVec φ.bits)
    (h : (⟨2, ![n, d]⟩ : Shape).Reduces [1] ⟨1, ![n]⟩) (hφ : FKind.Formats φ) (hacc : acc = FKind.add.neutral φ hφ) (p : Fin n) :
    multiReduction .add [1] ⟨1, ![n]⟩ src acc h hφ hacc (ix1 p) = ∑ o : Fin d, src (ix2 p o) :=
  (Ideal.multiReduction_add_single src acc h hφ hacc (ix1 p)).trans
    (Finset.sum_congr rfl fun o _ => congrArg src (lift_row h p o))

/-- A vector maximum-reduction along the rows: the fold of `max` over the row from the accumulator's value. -/
theorem multiReduction_max_row {n d : ℕ} (src : FVec Ideal ⟨2, ![n, d]⟩ φ) (acc : BitVec φ.bits)
    (h : (⟨2, ![n, d]⟩ : Shape).Reduces [1] ⟨1, ![n]⟩) (hφ : FKind.Formats φ) (hacc : acc = FKind.maximumf.neutral φ hφ) (p : Fin n) :
    multiReduction .maximumf [1] ⟨1, ![n]⟩ src acc h hφ hacc (ix1 p)
      = (Finset.univ : Finset (Fin d)).fold max (Ideal.ofBits φ acc) (fun o => src (ix2 p o)) :=
  (Ideal.multiReduction_maximumf_single src acc h hφ hacc (ix1 p)).trans
    (congrArg (Finset.fold max (Ideal.ofBits φ acc) · Finset.univ) (funext fun o => congrArg src (lift_row h p o)))

/-- The host's add-reduce along the rows: the start value plus the row's sum. -/
theorem hostReduceAdd_row {n d : ℕ} {u : Shape} (x : FVec Ideal ⟨2, ![n, d]⟩ φ) (init : u.Idx → Ideal φ)
    (h' : (⟨2, ![n, d]⟩ : Shape).ReducesTo [1] ⟨1, ![n]⟩) (h : (⟨2, ![n, d]⟩ : Shape).Reduces [1] ⟨1, ![n]⟩) (hu : 0 < u.numel) (p : Fin n) :
    Host.reduceAdd x init h' hu (ix1 p) = init (Shape.Idx.first hu) + ∑ o : Fin d, x (ix2 p o) :=
  (Ideal.hostReduceAdd_single h' h x (init (Shape.Idx.first hu)) (ix1 p)).trans
    (congrArg (init (Shape.Idx.first hu) + ·) (Finset.sum_congr rfl fun o _ => congrArg x (lift_row h p o)))

/-- The host's maximum-reduce along the rows: the fold of `max` over the row from the start value. -/
theorem hostReduce_max_row {n d : ℕ} {u : Shape} (x : FVec Ideal ⟨2, ![n, d]⟩ φ) (init : u.Idx → Ideal φ)
    (h' : (⟨2, ![n, d]⟩ : Shape).ReducesTo [1] ⟨1, ![n]⟩) (h : (⟨2, ![n, d]⟩ : Shape).Reduces [1] ⟨1, ![n]⟩) (hu : 0 < u.numel) (p : Fin n) :
    Host.reduce (FloatOps.maximumf (F := Ideal) (φ := φ)) x init h' hu (ix1 p)
      = (Finset.univ : Finset (Fin d)).fold max (init (Shape.Idx.first hu)) (fun o => x (ix2 p o)) :=
  (Host.reduce_eq_fold_single (FloatOps.maximumf (F := Ideal) (φ := φ)) x init h' h hu (ix1 p)).trans
    (congrArg (Finset.fold max (init (Shape.Idx.first hu)) · Finset.univ) (funext fun o => congrArg x (lift_row h p o)))

end Cert.LibRowReduce
end
-- ==== Proof.Decode.lean ====
/-
  The decoder stage of the bipartite graph convolution, from blocks to the whole array.

  For two [200704, 64] matrices zs and zd the decoder's result at row p is the normalized inner product of the two
  rows: each row is divided, entry by entry, by its Euclidean norm floored at a small positive eps, the quotients are
  multiplied entry by entry, and the products are summed along the row.  The kernel computes this 4096 rows at a time:
  block t of the result (rows 4096 t … 4096 t + 4095) is computed from block t of zs and block t of zd.  The value at a
  row depends only on that row of each operand, so block t of the result is the same rows of the whole-array function,
  and the 49 blocks tile the 200704 rows: the result array ends holding the whole-array function.
-/
import proofs.«159460_j70523363000941_2_alg».proof.Proof.Gen.KernelIdeal.Frame
import proofs.«159460_j70523363000941_2_alg».proof.Proof.Stages
import proofs.«159460_j70523363000941_2_alg».proof.Proof.LibKeepdims
import proofs.«159460_j70523363000941_2_alg».proof.Proof.LibRowReduce
import Idealize.ShloMosaic.Lib.Pipeline.Value
import Idealize.ShloMosaic.Lib.ValueIdx

set_option maxRecDepth 16384

noncomputable section

open scoped BigOperators

namespace Cert.KValue.Decode

open Cert.KernelIdeal Cert.KernelIdeal.Gen Cert.Stages Cert.LibRowStages
open Idealize.ShloMosaic Idealize.ShloMosaic.TcCoe Idealize.ShloMosaic.ValueIdx Idealize.SL.Sem
open Idealize.ShloMosaic.Pipeline (Dat)

/-- The floor of the norms: the single-precision word nearest 1e-12, as an extended real. -/
abbrev eps : EReal := Ideal.ofBits .f32 0x2B8CBCCC#32

/-! ## The body's arithmetic at one row -/

/-- The norm column of a block, floored at eps and spread along the rows, read at (q, o): the floored norm of row q. -/
theorem normCol_apply (v : Vec Ideal S4096x64 .f32) (q : Fin 4096) (o : Fin 64) :
    (broadcastTo S4096x64
        (maximumf
          (sqrt (shapeCast S4096x1
            (multiReduction .add [1] S4096 (mulf v v) 0x00000000#32 reduces_S4096x64_S4096 (.inl rfl) rfl)
            shapeCasts_S4096_S4096x1))
          (broadcast S4096x1 (Scalar.ofBits (F := Ideal) .f32 0x2B8CBCCC#32)))
        broadcasts_S4096x1_S4096x64 : FVec Ideal S4096x64 .f32) (ix2 q o)
      = max (Ideal.sqrt (∑ o' : Fin 64, rowOf v q o' * rowOf v q o')) eps := by
  refine (LibKeepdims.broadcastTo_a1_ab_apply _ broadcasts_S4096x1_S4096x64 q o).trans ?_
  show max (Ideal.sqrt (shapeCast S4096x1 _ shapeCasts_S4096_S4096x1 (ix2 q (0 : Fin 1)))) eps = _
  refine congrArg (fun z => max (Ideal.sqrt z) eps) ?_
  refine (LibKeepdims.shapeCast_a_a1_apply _ shapeCasts_S4096_S4096x1 q (0 : Fin 1)).trans ?_
  exact LibRowReduce.multiReduction_add_row (φ := .f32) (mulf v v) 0x00000000#32 reduces_S4096x64_S4096 (.inl rfl) rfl q

/-- The body's result at row q of its blocks: the normalized inner product of row q of the two blocks. -/
theorem pay_row (v0 v2 : Vec Ideal S4096x64 .f32) (q : Fin 4096) :
    k6_pay1 (F := Ideal) v0 v2 (ix1 q) = decodeRow eps (rowOf v0 q) (rowOf v2 q) := by
  unfold k6_pay1
  simp only [shapeCast_self]
  refine (LibRowReduce.multiReduction_add_row (φ := .f32) _ 0x00000000#32 reduces_S4096x64_S4096 (.inl rfl) rfl q).trans ?_
  unfold decodeRow
  refine Finset.sum_congr rfl fun o _ => ?_
  show Ideal.div (v0 (ix2 q o)) _ * Ideal.div (v2 (ix2 q o)) _ = _
  rw [normCol_apply v0 q o, normCol_apply v2 q o]
  rfl

/-! ## From blocks to the array -/

variable (V : (c : Dev nD) → (b : Ref sig .tc) → Buf (Elt Ideal) ((c : Thread nD τ).loc b))

theorem hz1 : (![0] : Fin 1 → Nat) = fun _ => 0 := funext fun a => by fin_cases a; rfl
theorem hz2 : (![0, 0] : Fin 2 → Nat) = fun _ => 0 := funext fun a => by fin_cases a <;> rfl

/-- The whole-array decoder: at row p, the normalized inner product of row p of zs and row p of zd. -/
abbrev G (zs zd : S200704x64.Idx → EReal) : S200704.Idx → EReal :=
  fun i => decodeRow eps (rowOf zs (i 0)) (rowOf zd (i 0))

/-- The block index maps over the grid: point t reads row block t of each operand and writes row block t of the
    result. -/
theorem idx_facts : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 1) = t.val :=
  (by decide +kernel : ∀ t : Fin grid6.N, _)

/-- The body's result at row q of two blocks whose rows q are rows p of zs and zd: the decoder of zs and zd at row p. -/
theorem block_row (x0 x1 : Vec Ideal S4096x64 .f32) (zs zd : S200704x64.Idx → EReal) (q : Fin 4096) (p : Fin 200704)
    (h0 : ∀ o : Fin 64, x0 (ix2 q o) = zs (ix2 p o)) (h1 : ∀ o : Fin 64, x1 (ix2 q o) = zd (ix2 p o)) :
    k6_pay1 (F := Ideal) x0 x1 (ix1 q) = decodeRow eps (rowOf zs p) (rowOf zd p) := by
  have e0 : rowOf x0 q = rowOf zs p := funext h0
  have e1 : rowOf x1 q = rowOf zd p := funext h1
  rw [pay_row, e0, e1]

/-- Row q of the first operand's block at point t is row 4096 t + q of the operand. -/
theorem iblk0_row (c : Dev nD) (t : Fin cfg6.N) (q : Fin 4096) (o : Fin 64) (p : Fin 200704)
    (hp : p.val = t.val * 4096 + q.val) :
    (iblk6 V c 0 t : Vec Ideal S4096x64 .f32) (ix2 q o) = (V c main_v97 : S200704x64.Idx → EReal) (ix2 p o) := by
  obtain ⟨e0, e1, e2, e3, e4⟩ := idx_facts t
  unfold iblk6
  rw [View.read_apply]
  show V c main_v97 _ = V c main_v97 _
  congr 1
  funext a; apply Fin.ext
  match a with
  | ⟨0, _⟩ => show win6_0.index t (0 : Fin 2) * 4096 + 1 * q.val = p.val; rw [e0, hp]; omega
  | ⟨1, _⟩ => show win6_0.index t (1 : Fin 2) * 64 + 1 * o.val = o.val; rw [e1]; omega

/-- Row q of the second operand's block at point t is row 4096 t + q of the operand. -/
theorem iblk1_row (c : Dev nD) (t : Fin cfg6.N) (q : Fin 4096) (o : Fin 64) (p : Fin 200704)
    (hp : p.val = t.val * 4096 + q.val) :
    (iblk6 V c 1 t : Vec Ideal S4096x64 .f32) (ix2 q o) = (V c main_v98 : S200704x64.Idx → EReal) (ix2 p o) := by
  obtain ⟨e0, e1, e2, e3, e4⟩ := idx_facts t
  unfold iblk6
  rw [View.read_apply]
  show V c main_v98 _ = V c main_v98 _
  congr 1
  funext a; apply Fin.ext
  match a with
  | ⟨0, _⟩ => show win6_1.index t (0 : Fin 2) * 4096 + 1 * q.val = p.val; rw [e2, hp]; omega
  | ⟨1, _⟩ => show win6_1.index t (1 : Fin 2) * 64 + 1 * o.val = o.val; rw [e3]; omega

/-- What point t writes back is block t of the whole-array decoder of the operands as the region finds them. -/
theorem flushed_eq (c : Dev nD) (t : Fin cfg6.N) :
    (dat6 V c).flushed 2 t = ((cfg6.win 2).blk t).view.read (Elt Ideal) (G (V c main_v97) (V c main_v98)) := by
  show (cfg6.win 2).cut (grid6.coords t) ((dat6 V c).after 2 t) = _
  rw [after6_2]
  unfold out6_2
  rw [View.canon_unit_zero hz1]
  simp only [View.ld_unit_zero (S := S4096x64) hz2]
  obtain ⟨e0, e1, e2, e3, e4⟩ := idx_facts t
  have hN : cfg6.N = 49 := N_6
  have ht : t.val < 49 := hN ▸ t.isLt
  funext j
  have hq : (j 0).val < 4096 := (j 0).isLt
  have hx : (win6 2).xinj (grid6.coords t) j = ix1 (⟨(j 0).val, hq⟩ : Fin 4096) := by
    funext a; apply Fin.ext
    match a with
    | ⟨0, _⟩ => rfl
  have hemb : ((cfg6.win 2).blk t).view.emb j = ix1 (⟨t.val * 4096 + (j 0).val, by omega⟩ : Fin 200704) := by
    funext a; apply Fin.ext
    match a with
    | ⟨0, _⟩ => show win6_2.index t (0 : Fin 1) * 4096 + 1 * (j 0).val = t.val * 4096 + (j 0).val; rw [e4]; omega
  show k6_pay1 (F := Ideal) (iblk6 V c 0 t) (iblk6 V c 1 t) ((win6 2).xinj (grid6.coords t) j)
    = G (V c main_v97) (V c main_v98) (((cfg6.win 2).blk t).view.emb j)
  refine (congrArg (k6_pay1 (F := Ideal) (iblk6 V c 0 t) (iblk6 V c 1 t)) hx).trans ?_
  refine Eq.trans ?_ (congrArg (G (V c main_v97) (V c main_v98)) hemb).symm
  exact block_row (iblk6 V c 0 t) (iblk6 V c 1 t) (V c main_v97) (V c main_v98) ⟨(j 0).val, hq⟩
    ⟨t.val * 4096 + (j 0).val, by omega⟩
    (fun o => iblk0_row V c t ⟨(j 0).val, hq⟩ o ⟨t.val * 4096 + (j 0).val, by omega⟩ rfl)
    (fun o => iblk1_row V c t ⟨(j 0).val, hq⟩ o ⟨t.val * 4096 + (j 0).val, by omega⟩ rfl)

/-- An index of the result array is in point t's block iff it lies in rows 4096 t … 4096 t + 4095. -/
theorem mem_blk (t : Fin cfg6.N) (i : S200704.Idx) :
    i ∈ ((cfg6.win 2).blk t).view.set ↔ ∀ a : Fin 1, win6_2.index t a * S4096.size a ≤ (i a).val ∧ (i a).val < win6_2.index t a * S4096.size a + S4096.size a := by
  show i ∈ ((View.whole main_v99).slice (win6_2.rect t)).set ↔ _
  rw [View.set_slice_whole, Rect.mem_set_unit]
  exact Iff.rfl

/-- Every row of the result array is in some point's block: row r is in block r / 4096. -/
theorem cover (i : S200704.Idx) : ∃ t : Fin cfg6.N, (cfg6.win 2).flush t = true ∧ i ∈ ((cfg6.win 2).blk t).view.set := by
  have hN : cfg6.N = 49 := N_6
  have hi : (i 0).val < 200704 := (i 0).isLt
  refine ⟨⟨(i 0).val / 4096, by rw [hN]; omega⟩, flush6_2 _, ?_⟩
  rw [mem_blk]
  intro a
  obtain ⟨-, -, -, -, e4⟩ := idx_facts ⟨(i 0).val / 4096, by rw [hN]; omega⟩
  match a with
  | ⟨0, _⟩ =>
    show win6_2.index _ (0 : Fin 1) * 4096 ≤ (i 0).val ∧ (i 0).val < win6_2.index _ (0 : Fin 1) * 4096 + 4096
    rw [e4]
    show (i 0).val / 4096 * 4096 ≤ (i 0).val ∧ (i 0).val < (i 0).val / 4096 * 4096 + 4096
    omega

/-- The result array after the region: the whole-array decoder of the two operands as the region finds them. -/
theorem final (c : Dev nD) : (dat6 V c).arrAt 2 cfg6.N = G (V c main_v97) (V c main_v98) :=
  (dat6 V c).arrAt_eq_of_cover 2 (G (V c main_v97) (V c main_v98)) (fun t _ => flushed_eq V c t) cover

/-! ## The result buffer after the decoder's region -/

/-- After the decoder's region, the result buffer at row p holds the normalized inner product of row p of the two
    operand buffers as the region found them. -/
theorem out6 (m : (ℓ : Loc nD τ sig) → Buf (Elt Ideal) ℓ) (ρ : Dev nD → PrngReg) (c : Dev nD) (p : Fin 200704) :
    Gen.W17 (F := Ideal) m ρ c (Proc.devRef .tc main_v99) (ix1 p)
      = decodeRow (Ideal.ofBits .f32 0x2B8CBCCC#32) (rowOf (Gen.V16 m ρ c main_v97) p) (rowOf (Gen.V16 m ρ c main_v98) p) :=
  congrFun ((Gen.W17_arr m ρ c 2).trans (final (Gen.V16 m ρ) c)) (ix1 p)

end Cert.KValue.Decode

end
-- ==== Proof.RefDecode.lean ====
/-
  The reference's decoder, read at a row.

  The reference computes, for two [200000, 64] matrices zs and zd, the norm of each row as the square root of the sum
  of the squares along the row, floors each norm at a small positive eps, divides each row entry by entry by its
  floored norm, multiplies the two quotients entry by entry, and sums along the row.  Every step is pointwise or acts
  along one row, so the result at row p is the normalized inner product of row p of zs and row p of zd.  The sums start
  from zero, which adds nothing.
-/
import proofs.«159460_j70523363000941_2_alg».proof.Proof.Gen.ReferenceIdeal.Read
import proofs.«159460_j70523363000941_2_alg».proof.Proof.Stages
import proofs.«159460_j70523363000941_2_alg».proof.Proof.LibRowReduce
import proofs.«159460_j70523363000941_2_alg».proof.Proof.LibBroadcastInDim
import Idealize.ShloMosaic.Lib.IdealHost

set_option maxRecDepth 16384

noncomputable section

open scoped BigOperators

namespace Cert.RefDecode

open Cert.ReferenceIdeal Cert.ReferenceIdeal.Gen Cert.ReferenceIdeal.Read Cert.Stages Cert.LibRowStages
open Idealize.ShloMosaic Idealize.ShloMosaic.ValueIdx

/-- The floor of the norms: the single-precision word nearest 1e-12, as an extended real. -/
abbrev eps : EReal := Ideal.ofBits .f32 0x2B8CBCCC#32

theorem reduces_rows : S200000x64.Reduces [1] S200000 := by decide

/-- The sum of the squares along a row, started from zero. -/
theorem sumsq_row (z : FVec Ideal S200000x64 .f32) (p : Fin 200000) :
    Host.reduceAdd (mulf z z) (constant (F := Ideal) S_ .f32 0x00000000#32) reducesTo_S200000x64_S200000_d1 h_S_ (ix1 p)
      = ∑ o : Fin 64, rowOf z p o * rowOf z p o := by
  refine (LibRowReduce.hostReduceAdd_row (φ := .f32) (mulf z z) (constant (F := Ideal) S_ .f32 0x00000000#32)
    reducesTo_S200000x64_S200000_d1 reduces_rows h_S_ p).trans ?_
  show Ideal.ofBits .f32 0x00000000#32 + _ = _
  rw [Ideal.ofBits_zero_f32, zero_add]
  rfl

/-- The host's square root is pointwise. -/
theorem hostSqrt_apply {s : Shape} {φ : FTy} (a : FVec Ideal s φ) (i : s.Idx) : Host.sqrt a i = Ideal.sqrt (a i) := rfl

/-- The norm column, floored at eps and spread along the rows, read at (p, o): the floored norm of row p. -/
theorem normCol_apply (z : FVec Ideal S200000x64 .f32) (p : Fin 200000) (o : Fin 64) :
    (broadcastInDim S200000x64 ![0, 1] bcast_S200000x1_S200000x64_0_1
        (maximumf
          (Host.sqrt (broadcastInDim S200000x1 ![0] bcast_S200000_S200000x1_0
            (Host.reduceAdd (mulf z z) (constant (F := Ideal) S_ .f32 0x00000000#32) reducesTo_S200000x64_S200000_d1 h_S_)))
          (broadcastInDim S200000x1 ![] bcast_S_S200000x1 (constant (F := Ideal) S_ .f32 0x2B8CBCCC#32)))
        : FVec Ideal S200000x64 .f32) (ix2 p o)
      = max (Ideal.sqrt (∑ o' : Fin 64, rowOf z p o' * rowOf z p o')) eps := by
  refine (LibBroadcastInDim.col_mat_apply bcast_S200000x1_S200000x64_0_1 _ p o).trans ?_
  refine (maximumf_apply (φ := .f32) _ _ (ix2 p (0 : Fin 1))).trans ?_
  refine congrArg₂ max ?_ ?_
  · refine (hostSqrt_apply (φ := .f32) _ (ix2 p (0 : Fin 1))).trans (congrArg Ideal.sqrt ?_)
    exact (LibBroadcastInDim.vec_col_apply bcast_S200000_S200000x1_0 _ p (0 : Fin 1)).trans (sumsq_row z p)
  · exact LibBroadcastInDim.scalar_apply _ bcast_S_S200000x1 (constant (F := Ideal) S_ .f32 0x2B8CBCCC#32) (ix2 p (0 : Fin 1))

/-- The reference's decoder of any two matrices, at row p. -/
theorem decode_row (zs zd : FVec Ideal S200000x64 .f32) (p : Fin 200000) :
    Host.reduceAdd
        (mulf
          (Host.divf zs (broadcastInDim S200000x64 ![0, 1] bcast_S200000x1_S200000x64_0_1
            (maximumf
              (Host.sqrt (broadcastInDim S200000x1 ![0] bcast_S200000_S200000x1_0
                (Host.reduceAdd (mulf zs zs) (constant (F := Ideal) S_ .f32 0x00000000#32) reducesTo_S200000x64_S200000_d1 h_S_)))
              (broadcastInDim S200000x1 ![] bcast_S_S200000x1 (constant (F := Ideal) S_ .f32 0x2B8CBCCC#32)))))
          (Host.divf zd (broadcastInDim S200000x64 ![0, 1] bcast_S200000x1_S200000x64_0_1
            (maximumf
              (Host.sqrt (broadcastInDim S200000x1 ![0] bcast_S200000_S200000x1_0
                (Host.reduceAdd (mulf zd zd) (constant (F := Ideal) S_ .f32 0x00000000#32) reducesTo_S200000x64_S200000_d1 h_S_)))
              (broadcastInDim S200000x1 ![] bcast_S_S200000x1 (constant (F := Ideal) S_ .f32 0x2B8CBCCC#32))))))
        (constant (F := Ideal) S_ .f32 0x00000000#32) reducesTo_S200000x64_S200000_d1 h_S_ (ix1 p)
      = decodeRow eps (rowOf zs p) (rowOf zd p) := by
  refine (LibRowReduce.hostReduceAdd_row (φ := .f32) _ (constant (F := Ideal) S_ .f32 0x00000000#32)
    reducesTo_S200000x64_S200000_d1 reduces_rows h_S_ p).trans ?_
  refine (congrArg (· + _) Ideal.ofBits_zero_f32).trans ((zero_add _).trans ?_)
  unfold decodeRow
  refine Finset.sum_congr rfl fun o _ => ?_
  refine (mulf_apply (φ := .f32) _ _ (ix2 p o)).trans ?_
  refine congrArg₂ (· * ·) ?_ ?_
  · exact (hostDivf_apply (φ := .f32) _ _ (ix2 p o)).trans (congrArg (Ideal.div (zs (ix2 p o))) (normCol_apply zs p o))
  · exact (hostDivf_apply (φ := .f32) _ _ (ix2 p o)).trans (congrArg (Ideal.div (zd (ix2 p o))) (normCol_apply zd p o))

/-- The reference's result at row p: the normalized inner product of row p of the two gathered matrices. -/
theorem ref_out
    (x0 : (⟨S100000x128, .f32⟩ : BufTy).Contents (Elt Ideal)) (x1 : (⟨S50000x256, .f32⟩ : BufTy).Contents (Elt Ideal))
    (x2 x3 : (⟨S600000, .i32⟩ : BufTy).Contents (Elt Ideal)) (x4 x5 : (⟨S200000, .i32⟩ : BufTy).Contents (Elt Ideal))
    (x6 : (⟨S128x128, .f32⟩ : BufTy).Contents (Elt Ideal)) (x7 : (⟨S128, .f32⟩ : BufTy).Contents (Elt Ideal))
    (x8 : (⟨S128x256, .f32⟩ : BufTy).Contents (Elt Ideal)) (x9 : (⟨S128, .f32⟩ : BufTy).Contents (Elt Ideal))
    (x10 : (⟨S128x128, .f32⟩ : BufTy).Contents (Elt Ideal)) (x11 : (⟨S128, .f32⟩ : BufTy).Contents (Elt Ideal))
    (x12 x13 : (⟨S128x128, .f32⟩ : BufTy).Contents (Elt Ideal)) (x14 : (⟨S128, .f32⟩ : BufTy).Contents (Elt Ideal))
    (x15 : (⟨S128x128, .f32⟩ : BufTy).Contents (Elt Ideal)) (x16 : (⟨S64x128, .f32⟩ : BufTy).Contents (Elt Ideal))
    (x17 : (⟨S64, .f32⟩ : BufTy).Contents (Elt Ideal)) (x18 x19 : (⟨S64x128, .f32⟩ : BufTy).Contents (Elt Ideal))
    (x20 : (⟨S64, .f32⟩ : BufTy).Contents (Elt Ideal)) (x21 : (⟨S64x128, .f32⟩ : BufTy).Contents (Elt Ideal))
    (p : Fin 200000) :
    val_main_v145 (F := Ideal) x0 x1 x2 x3 x4 x5 x6 x7 x8 x9 x10 x11 x12 x13 x14 x15 x16 x17 x18 x19 x20 x21 (ix1 p)
      = decodeRow (Ideal.ofBits .f32 0x2B8CBCCC#32)
          (rowOf (val_main_v126 (F := Ideal) x0 x1 x2 x3 x4 x6 x7 x8 x9 x10 x11 x12 x13 x14 x15 x19 x20 x21) p)
          (rowOf (val_main_v133 (F := Ideal) x0 x1 x2 x3 x5 x6 x7 x8 x9 x10 x11 x12 x13 x14 x15 x16 x17 x18) p) := by
  unfold val_main_v145 val_main_v144 val_main_v138 val_main_v143 val_main_v137 val_main_v142 val_main_v136 val_main_v141
    val_main_v134 val_main_v139 val_main_v135 val_main_v140 val_main_call2_v2 val_main_call3_v2 val_main_call2_v1
    val_main_call3_v1 val_main_call2_v0 val_main_call3_v0 val_main_call2_cst val_main_call3_cst val_main_cst_26
    val_main_cst_27 val_main_cst_28
  exact decode_row _ _ p

end Cert.RefDecode

end
-- ==== Proof.Tail.lean ====
/-
  The host operations around the decoder's region.

  Before the region each of the two gathered [200000, 64] matrices is padded with 704 further rows to [200704, 64],
  so that 49 blocks of 4096 rows tile it; after the region the first 200000 entries of the [200704] result are kept.
  A row below 200000 of a padded matrix is that row of the matrix, whatever the padding value, and an entry below
  200000 of the kept part is that entry of the result.  The gathers read their tables at indices normalized by adding
  the table's height to the negative ones.
-/
import proofs.«159460_j70523363000941_2_alg».proof.Proof.Gen.KernelIdeal.Frame
import proofs.«159460_j70523363000941_2_alg».proof.Proof.Stages
import Idealize.ShloMosaic.Lib.KernelVsHost
import Idealize.ShloMosaic.Lib.Pipeline.Value
import Idealize.ShloMosaic.Lib.StableHlo.Run
import Idealize.ShloMosaic.Lib.ValueIdx

set_option maxRecDepth 16384

noncomputable section

namespace Cert.KValue.Tail

open Cert.KernelIdeal Cert.KernelIdeal.Gen Cert.Stages Cert.LibRowStages
open Idealize.ShloMosaic Idealize.ShloMosaic.TcCoe Idealize.ShloMosaic.ValueIdx Idealize.ShloMosaic.StableHlo Idealize.SL.Sem

/-- An entry below 200000 of the first 200000 entries of a [200704] vector is that entry of the vector. -/
theorem slice_row (y : FVec Ideal S200704 .f32) (p : Fin 200000) :
    extractStridedSlice S200000 ![0] y slices_S200704_S200000_0 (ix1 p) = y (ix1 (⟨p.val, by omega⟩ : Fin 200704)) :=
  extractStridedSlice_apply ![0] y slices_S200704_S200000_0 (ix1 p) (ix1 (⟨p.val, by omega⟩ : Fin 200704)) fun a => by
    match a with
    | ⟨0, _⟩ => exact (Nat.zero_add p.val).symm

/-- A row below 200000 of a [200000, 64] matrix padded with 704 further rows is that row of the matrix. -/
theorem pad_row (x : FVec Ideal S200000x64 .f32) (v : FVec Ideal S_ .f32) (p : Fin 200000) :
    rowOf (pad S200704x64 ![0, 0] ![704, 0] ![0, 0] x v pads_S200000x64_S200704x64_07040_000 h_S_)
        (⟨p.val, by omega⟩ : Fin 200704) = rowOf x p :=
  funext fun o => by
    unfold rowOf
    refine pad_apply_of_inside (s := S200000x64) (t := S200704x64) ![0, 0] ![704, 0] ![0, 0] x v
      pads_S200000x64_S200704x64_07040_000 h_S_ (ix2 (⟨p.val, by omega⟩ : Fin 200704) o) (ix2 p o) fun a => ?_
    match a with
    | ⟨0, _⟩ => exact (by omega : p.val = 0 + p.val * (0 + 1))
    | ⟨1, _⟩ => exact (by omega : o.val = 0 + o.val * (0 + 1))

variable (m : (ℓ : Loc nD τ sig) → Buf (Elt Ideal) ℓ) (ρ : Dev nD → PrngReg) (c : Dev nD)

/-- The program's result is the first 200000 entries of the decoder region's result buffer. -/
theorem W18_v100 : Gen.W18 (F := Ideal) m ρ c (Proc.devRef .tc main_v100)
    = extractStridedSlice S200000 ![0] (Gen.W17 m ρ c (Proc.devRef .tc main_v99)) slices_S200704_S200000_0 := by
  show StableHlo.after hostOps7 (Gen.W17 m ρ c) (Proc.devRef .tc main_v100) = _
  after_results

/-- The padding value of the two paddings: the integer zero as a float. -/
abbrev padVal : FVec Ideal S_ .f32 := sitofp (F := Ideal) .f32 (constantI S_ 32 0#32)

/-- The first operand of the decoder's region: the rows of the [100000, 64] table gathered at the normalized first
    index vector, padded to 200704 rows. -/
theorem V16_v97_eq : Gen.V16 (F := Ideal) m ρ c main_v97
    = pad S200704x64 ![0, 0] ![704, 0] ![0, 0]
        (Host.gather gather_S100000x64_S200000x1_S200000x64_1_0_n_n_0_1_164 (Gen.W12 m ρ c (Proc.devRef .tc main_v82))
          (broadcastInDim S200000x1 ![0] bcast_S200000_S200000x1_0
            (select
              (cmpi .slt (Gen.W12 m ρ c (Proc.devRef .tc main_arg4)) (broadcastInDim S200000 ![] bcast_S_S200000 (constantI S_ 32 0#32)))
              (addi (Gen.W12 m ρ c (Proc.devRef .tc main_arg4)) (broadcastInDim S200000 ![] bcast_S_S200000 (constantI S_ 32 100000#32)))
              (Gen.W12 m ρ c (Proc.devRef .tc main_arg4)))))
        padVal pads_S200000x64_S200704x64_07040_000 h_S_ := by
  show StableHlo.after hostOps6_3 (StableHlo.after hostOps6_2 (StableHlo.after hostOps6_1 (StableHlo.after hostOps6 (Gen.W12 m ρ c)))) (Proc.devRef .tc main_v97) = _
  after_results
  rfl

/-- The second operand of the decoder's region: the rows of the [50000, 64] table gathered at the normalized second
    index vector, padded to 200704 rows. -/
theorem V16_v98_eq : Gen.V16 (F := Ideal) m ρ c main_v98
    = pad S200704x64 ![0, 0] ![704, 0] ![0, 0]
        (Host.gather gather_S50000x64_S200000x1_S200000x64_1_0_n_n_0_1_164 (Gen.W12 m ρ c (Proc.devRef .tc main_v67))
          (broadcastInDim S200000x1 ![0] bcast_S200000_S200000x1_0
            (select
              (cmpi .slt (Gen.W12 m ρ c (Proc.devRef .tc main_arg5)) (broadcastInDim S200000 ![] bcast_S_S200000 (constantI S_ 32 0#32)))
              (addi (Gen.W12 m ρ c (Proc.devRef .tc main_arg5)) (broadcastInDim S200000 ![] bcast_S_S200000 (constantI S_ 32 50000#32)))
              (Gen.W12 m ρ c (Proc.devRef .tc main_arg5)))))
        padVal pads_S200000x64_S200704x64_07040_000 h_S_ := by
  show StableHlo.after hostOps6_3 (StableHlo.after hostOps6_2 (StableHlo.after hostOps6_1 (StableHlo.after hostOps6 (Gen.W12 m ρ c)))) (Proc.devRef .tc main_v98) = _
  after_results_simp
  rfl

/-- The same with the padding value left unnamed: only rows below 200000 are ever read. -/
theorem V16_v97 : ∃ v, Gen.V16 (F := Ideal) m ρ c main_v97
    = pad S200704x64 ![0, 0] ![704, 0] ![0, 0]
        (Host.gather gather_S100000x64_S200000x1_S200000x64_1_0_n_n_0_1_164 (Gen.W12 m ρ c (Proc.devRef .tc main_v82))
          (broadcastInDim S200000x1 ![0] bcast_S200000_S200000x1_0
            (select
              (cmpi .slt (Gen.W12 m ρ c (Proc.devRef .tc main_arg4)) (broadcastInDim S200000 ![] bcast_S_S200000 (constantI S_ 32 0#32)))
              (addi (Gen.W12 m ρ c (Proc.devRef .tc main_arg4)) (broadcastInDim S200000 ![] bcast_S_S200000 (constantI S_ 32 100000#32)))
              (Gen.W12 m ρ c (Proc.devRef .tc main_arg4)))))
        v pads_S200000x64_S200704x64_07040_000 h_S_ :=
  ⟨padVal, V16_v97_eq m ρ c⟩

theorem V16_v98 : ∃ v, Gen.V16 (F := Ideal) m ρ c main_v98
    = pad S200704x64 ![0, 0] ![704, 0] ![0, 0]
        (Host.gather gather_S50000x64_S200000x1_S200000x64_1_0_n_n_0_1_164 (Gen.W12 m ρ c (Proc.devRef .tc main_v67))
          (broadcastInDim S200000x1 ![0] bcast_S200000_S200000x1_0
            (select
              (cmpi .slt (Gen.W12 m ρ c (Proc.devRef .tc main_arg5)) (broadcastInDim S200000 ![] bcast_S_S200000 (constantI S_ 32 0#32)))
              (addi (Gen.W12 m ρ c (Proc.devRef .tc main_arg5)) (broadcastInDim S200000 ![] bcast_S_S200000 (constantI S_ 32 50000#32)))
              (Gen.W12 m ρ c (Proc.devRef .tc main_arg5)))))
        v pads_S200000x64_S200704x64_07040_000 h_S_ :=
  ⟨padVal, V16_v98_eq m ρ c⟩

end Cert.KValue.Tail

end
-- ==== Proof.KFinal.lean ====
/-
  The kernel program's result is the reference's decoder term of the arguments.

  The result is the first 200000 entries of the decoder launch's output.  Entry p of that output is the normalized inner
  product of row p of the two padded embedding matrices; below the original row count a padded row is the original row,
  and the original matrices are the gathers, by the normalised label indices, of the user and recipe embeddings the two
  second-layer launches left — the reference's embeddings.  The reference's own last stage, read at p, is the normalized
  inner product of the same two rows.
-/
import proofs.«159460_j70523363000941_2_alg».proof.Proof.KChain
import proofs.«159460_j70523363000941_2_alg».proof.Proof.Decode
import proofs.«159460_j70523363000941_2_alg».proof.Proof.RefDecode
import proofs.«159460_j70523363000941_2_alg».proof.Proof.Tail

set_option maxRecDepth 16384

noncomputable section

namespace Cert.KFinal

open Idealize.ShloMosaic Idealize.ShloMosaic.TcCoe Idealize.SL.Sem Idealize.ShloMosaic.StableHlo
open Idealize.ShloMosaic.ValueIdx
open Cert.KernelIdeal Cert.KernelIdeal.Gen
open Cert.ReferenceIdeal.Read
open Cert.Stages Cert.LibRowStages

variable (m : (ℓ : Loc nD τ sig) → Buf (Elt Ideal) ℓ) (ρ : Dev nD → PrngReg) (c : Dev nD)

/-- The kernel program's result buffer at the return holds the reference's result term of the launch arguments. -/
theorem kernel_value :
    Gen.W18 (F := Ideal) m ρ c (Proc.devRef .tc main_v100) = val_main_v145 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) := by
  funext i
  obtain ⟨p, rfl⟩ : ∃ p : Fin 200000, i = ix1 p := ⟨i 0, eq_ix1 i⟩
  refine (congrFun (Cert.KValue.Tail.W18_v100 m ρ c) (ix1 p)).trans ?_
  refine (Cert.KValue.Tail.slice_row _ p).trans ?_
  refine (Cert.KValue.Decode.out6 m ρ c _).trans ?_
  refine Eq.trans ?_ (Cert.RefDecode.ref_out _ _ _ _ _ _ _ _ _ _ _ _ _ _ _ _ _ _ _ _ _ _ p).symm
  rw [Cert.KValue.Tail.V16_v97_eq m ρ c, Cert.KValue.Tail.V16_v98_eq m ρ c, Cert.KValue.Tail.pad_row, Cert.KValue.Tail.pad_row,
    Cert.KChain.W12_v82 m ρ c, Cert.KChain.W12_a4 m ρ c, Cert.KChain.W12_v67 m ρ c, Cert.KChain.W12_a5 m ρ c]
  rfl

end Cert.KFinal

end
-- ==== Proof.lean ====
/-
  The certificate of the two-layer bipartite graph convolution with its dot-product decoder.

  The kernel program projects the user and recipe features, runs two rounds of neighbour averaging (a gather of source
  rows, a scatter-add by destination, the mean, two matrix products and a bias, with a floor at zero after the first
  round), gathers the labelled pairs' embeddings, pads them to whole blocks and takes the normalized inner product of
  each pair; the reference computes the same on the host.  On the extended reals every stage of the kernel program is the
  reference's stage of the same arguments: the matrix products, bias rows and floors are the same row-wise functions, the
  product with the reciprocal of a degree floored at one is the quotient by it, the gathers and scatters are the same
  operations of the same indices, and a padded row below the original row count is the original row.  All three
  programs run to the end without a fault and leave their arguments as they were; the idealization rewrote nothing.
-/
import proofs.«159460_j70523363000941_2_alg».proof.Defs
import proofs.«159460_j70523363000941_2_alg».proof.Proof.Gen.Kernel
import proofs.«159460_j70523363000941_2_alg».proof.Proof.Gen.Kernel.Frame
import proofs.«159460_j70523363000941_2_alg».proof.Proof.Gen.KernelIdeal
import proofs.«159460_j70523363000941_2_alg».proof.Proof.Gen.KernelIdeal.Frame
import proofs.«159460_j70523363000941_2_alg».proof.Proof.Gen.ReferenceIdeal
import proofs.«159460_j70523363000941_2_alg».proof.Proof.Gen.ReferenceIdeal.Run
import proofs.«159460_j70523363000941_2_alg».proof.Proof.Gen.ReferenceIdeal.Read
import proofs.«159460_j70523363000941_2_alg».proof.Proof.Gen.Pre_finite_inputs
import proofs.«159460_j70523363000941_2_alg».proof.Proof.KRun
import proofs.«159460_j70523363000941_2_alg».proof.Proof.KFinal
import Idealize.ShloMosaic.Adequacy
import Idealize.ShloMosaic.Init

set_option maxRecDepth 16384

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both idealized programs end with the reference's decoder term of the (agreeing) arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.ReferenceIdeal.Read.val_main_v145 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)), ?_, ?_⟩
  · exact (θ_run Cert.KernelIdeal.defs _ _).mono (fun r h c => ⟨(h c).1.trans (Cert.KFinal.kernel_value m ρ c), (h c).2⟩)
      (Cert.KernelIdeal.KRun.run (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11, e12, e13, e14, e15, e16, e17, e18, e19, e20, e21⟩ := hagree c
    rw [Cert.ReferenceIdeal.Read.val_main_v145_eq, e0, e1, e2, e3, e4, e5, e6, e7, e8, e9, e10, e11, e12, e13, e14, e15, e16, e17, e18, e19, e20, e21]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
